-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S1x8x16 : Shape := ⟨3, ![1, 8, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x8x16 : S_.BroadcastsInDim S1x8x16 (![] : Fin 0 → Fin S1x8x16.rank)
  reducesTo_S1x8x16_S_d0_1_2 : S1x8x16.ReducesTo [0, 1, 2] S_

variable [Facts]

def fn_part1 {F : FTy → Type} [FloatOps F] (main_arg5 : FVec F S1x8x16 .f32) (main_v13 : IVec S_ 1) (main_v16 : IVec S1x8x16 1) : IVec S_ 1 :=
  let main_c_5 : IVec S_ 1 := constantI S_ 1 1#1
  let main_v17 : IVec S_ 1 := (fun x v => Host.reduce IntOp.andi x v reducesTo_S1x8x16_S_d0_1_2 h_S_) main_v16 main_c_5
  let main_v18 : IVec S_ 1 := andi main_v13 main_v17
  let main_v19 : FVec F S1x8x16 .f32 := Host.absf main_arg5
  let main_cst_6 : FVec F S_ .f32 := constant S_ .f32 0x7F800000#32
  let main_v20 : FVec F S1x8x16 .f32 := broadcastInDim S1x8x16 ![] bcast_S_S1x8x16 main_cst_6
  let main_v21 : IVec S1x8x16 1 := cmpf .olt main_v19 main_v20
  let main_c_7 : IVec S_ 1 := constantI S_ 1 1#1
  let main_v22 : IVec S_ 1 := (fun x v => Host.reduce IntOp.andi x v reducesTo_S1x8x16_S_d0_1_2 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128x128 .f32) (main_arg4 : FVec F S1x8x16 .f32) (main_arg5 : FVec F S1x8x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x8x16 .f32 := Host.absf main_arg4
  let main_cst_4 : FVec F S_ .f32 := constant S_ .f32 0x7F800000#32
  let main_v15 : FVec F S1x8x16 .f32 := broadcastInDim S1x8x16 ![] bcast_S_S1x8x16 main_cst_4
  let main_v16 : IVec S1x8x16 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S1x8x16 : Shape := ⟨3, ![1, 8, 16]⟩
abbrev S128 : Shape := ⟨1, ![128]⟩
abbrev S_ : Shape := ⟨0, ![]⟩
abbrev S128x1 : Shape := ⟨2, ![128, 1]⟩
abbrev S1x8 : Shape := ⟨2, ![1, 8]⟩
abbrev S128x8 : Shape := ⟨2, ![128, 8]⟩
abbrev S128x16 : Shape := ⟨2, ![128, 16]⟩
abbrev S100000x16 : Shape := ⟨2, ![100000, 16]⟩
abbrev S4000x128 : Shape := ⟨2, ![4000, 128]⟩
abbrev S4000x16 : Shape := ⟨2, ![4000, 16]⟩
abbrev S100000x8 : Shape := ⟨2, ![100000, 8]⟩
abbrev S1x1600000 : Shape := ⟨2, ![1, 1600000]⟩
abbrev S1600000 : Shape := ⟨1, ![1600000]⟩
abbrev S1600000x1 : Shape := ⟨2, ![1600000, 1]⟩
abbrev S1600000x8 : Shape := ⟨2, ![1600000, 8]⟩
abbrev S1600000x128 : Shape := ⟨2, ![1600000, 128]⟩
abbrev S1600000x8x16 : Shape := ⟨3, ![1600000, 8, 16]⟩
abbrev S1600000x8x1 : Shape := ⟨3, ![1600000, 8, 1]⟩
abbrev S5000x128 : Shape := ⟨2, ![5000, 128]⟩

abbrev nBuf : Space → Nat
  | .hbm => 117
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S1x8x16, .f32⟩
  | .hbm, ⟨5, _⟩ => ⟨S1x8x16, .f32⟩
  | .hbm, ⟨6, _⟩ => ⟨S128, .i32⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S128, .i1⟩
  | .hbm, ⟨21, _⟩ => ⟨S_, .i32⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S128x1, .i32⟩
  | .hbm, ⟨26, _⟩ => ⟨S1x8, .i32⟩
  | .hbm, ⟨27, _⟩ => ⟨S128x8, .i32⟩
  | .hbm, ⟨28, _⟩ => ⟨S128x8, .i32⟩
  | .hbm, ⟨29, _⟩ => ⟨S128x8, .i1⟩
  | .hbm, ⟨30, _⟩ => ⟨S128x8, .f32⟩
  | .hbm, ⟨31, _⟩ => ⟨S128, .f32⟩
  | .hbm, ⟨32, _⟩ => ⟨S128, .f32⟩
  | .hbm, ⟨33, _⟩ => ⟨S128x1, .f32⟩
  | .hbm, ⟨34, _⟩ => ⟨S128x8, .f32⟩
  | .hbm, ⟨35, _⟩ => ⟨S128x8, .f32⟩
  | .hbm, ⟨36, _⟩ => ⟨S128x1, .f32⟩
  | .hbm, ⟨37, _⟩ => ⟨S128x8, .f32⟩
  | .hbm, ⟨38, _⟩ => ⟨S128x8, .f32⟩
  | .hbm, ⟨39, _⟩ => ⟨S128x16, .f32⟩
  | .hbm, ⟨40, _⟩ => ⟨S100000x128, .f32⟩
  | .hbm, ⟨41, _⟩ => ⟨S100000x128, .f32⟩
  | .hbm, ⟨42, _⟩ => ⟨S100000x16, .f32⟩
  | .hbm, ⟨43, _⟩ => ⟨S100000x8, .f32⟩
  | .hbm, ⟨44, _⟩ => ⟨S100000x8, .f32⟩
  | .hbm, ⟨45, _⟩ => ⟨S1x1600000, .i32⟩
  | .hbm, ⟨46, _⟩ => ⟨S1600000, .i32⟩
  | .hbm, ⟨47, _⟩ => ⟨S1x1600000, .i32⟩
  | .hbm, ⟨48, _⟩ => ⟨S1600000, .i32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x8, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x8, .f32⟩
  | .hbm, ⟨67, _⟩ => ⟨S1600000x8, .f32⟩
  | .hbm, ⟨68, _⟩ => ⟨S_, .f32⟩
  | .hbm, ⟨69, _⟩ => ⟨S_, .f32⟩
  | .hbm, ⟨70, _⟩ => ⟨S1600000x8, .f32⟩
  | .hbm, ⟨71, _⟩ => ⟨S1600000x8, .i1⟩
  | .hbm, ⟨72, _⟩ => ⟨S_, .f32⟩
  | .hbm, ⟨73, _⟩ => ⟨S1600000x8, .f32⟩
  | .hbm, ⟨74, _⟩ => ⟨S1600000x8, .f32⟩
  | .hbm, ⟨75, _⟩ => ⟨S1600000x8, .f32⟩
  | .hbm, ⟨76, _⟩ => ⟨S_, .f32⟩
  | .hbm, ⟨77, _⟩ => ⟨S_, .f32⟩
  | .hbm, ⟨78, _⟩ => ⟨S1600000x8, .f32⟩
  | .hbm, ⟨79, _⟩ => ⟨S1600000x8, .f32⟩
  | .hbm, ⟨80, _⟩ => ⟨S1600000x8, .f32⟩
  | .hbm, ⟨81, _⟩ => ⟨S_, .f32⟩
  | .hbm, ⟨82, _⟩ => ⟨S100000x8, .f32⟩
  | .hbm, ⟨83, _⟩ => ⟨S1600000x1, .i32⟩
  | .hbm, ⟨84, _⟩ => ⟨S100000x8, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000x8, .f32⟩
  | .hbm, ⟨94, _⟩ => ⟨S_, .f32⟩
  | .hbm, ⟨95, _⟩ => ⟨S1600000x8, .f32⟩
  | .hbm, ⟨96, _⟩ => ⟨S1600000x8, .f32⟩
  | .hbm, ⟨97, _⟩ => ⟨S1600000x8, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x128, .f32⟩
  | .hbm, ⟨107, _⟩ => ⟨S1600000x8x16, .f32⟩
  | .hbm, ⟨108, _⟩ => ⟨S1600000x8x1, .f32⟩
  | .hbm, ⟨109, _⟩ => ⟨S1600000x8x16, .f32⟩
  | .hbm, ⟨110, _⟩ => ⟨S1600000x8x16, .f32⟩
  | .hbm, ⟨111, _⟩ => ⟨S1600000x128, .f32⟩
  | .hbm, ⟨112, _⟩ => ⟨S_, .f32⟩
  | .hbm, ⟨113, _⟩ => ⟨S100000x128, .f32⟩
  | .hbm, ⟨114, _⟩ => ⟨S1600000x1, .i32⟩
  | .hbm, ⟨115, _⟩ => ⟨S100000x128, .f32⟩
  | .hbm, ⟨116, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128x128, .f32⟩
  | .local _ .vmem, ⟨4, _⟩ => ⟨S128x16, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x16, .f32⟩
  | .local _ .vmem, ⟨10, _⟩ => ⟨S4000x16, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12_0 : Ref sig .tc := ⟨.hbm, 40, rfl⟩
abbrev main_v12_1 : Ref sig .tc := ⟨.hbm, 41, rfl⟩
abbrev main_v12_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_c_0 : Ref sig .tc := ⟨.hbm, 49, rfl⟩
abbrev main_v19 : Ref sig .tc := ⟨.hbm, 50, rfl⟩
abbrev main_v20 : Ref sig .tc := ⟨.hbm, 51, rfl⟩
abbrev main_c_1 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_2 : Ref sig .tc := ⟨.hbm, 58, rfl⟩
abbrev main_v26 : Ref sig .tc := ⟨.hbm, 59, rfl⟩
abbrev main_v27 : Ref sig .tc := ⟨.hbm, 60, rfl⟩
abbrev main_c_3 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v34 : Ref sig .tc := ⟨.hbm, 75, rfl⟩
abbrev main_cst_4 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_5 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_c_6 : Ref sig .tc := ⟨.hbm, 85, rfl⟩
abbrev main_v42 : Ref sig .tc := ⟨.hbm, 86, rfl⟩
abbrev main_v43 : Ref sig .tc := ⟨.hbm, 87, rfl⟩
abbrev main_c_7 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_8 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_c_9 : Ref sig .tc := ⟨.hbm, 98, rfl⟩
abbrev main_v52 : Ref sig .tc := ⟨.hbm, 99, rfl⟩
abbrev main_v53 : Ref sig .tc := ⟨.hbm, 100, rfl⟩
abbrev main_c_10 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_11 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128x1_S128x8_0_1 : S128x1.BroadcastsInDim S128x8 (![0, 1] : Fin 2 → Fin S128x8.rank)
  bcast_S1x8_S128x8_0_1 : S1x8.BroadcastsInDim S128x8 (![0, 1] : Fin 2 → Fin S128x8.rank)
  shapeCasts_S1x8x16_S128 : S1x8x16.ShapeCasts S128
  concatenates_S128x8_S128x8_S128x16_d1 : Shape.Concatenates [S128x8, S128x8] S128x16 1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S4000x16_S4000x16_0_0 : ∀ a, (![0, 0] : Fin 2 → Nat) a + S4000x16.size a ≤ S4000x16.size a
  h_S4000x16 : 0 < S4000x16.numel
  slices_S100000x16_S100000x8_0_0 : S100000x16.Slices ![0, 0] S100000x8
  slices_S100000x16_S100000x8_0_8 : S100000x16.Slices ![0, 8] S100000x8
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x8 : S_.BroadcastsInDim S1600000x8 (![] : Fin 0 → Fin S1600000x8.rank)
  reducesTo_S1600000x8_S_d0_1 : S1600000x8.ReducesTo [0, 1] S_
  h_S_ : 0 < S_.numel
  bcast_S_S100000x8 : S_.BroadcastsInDim S100000x8 (![] : Fin 0 → Fin S100000x8.rank)
  shapeCasts_S1600000x128_S1600000x8x16 : S1600000x128.ShapeCasts S1600000x8x16
  bcast_S1600000x8_S1600000x8x1_0_1 : S1600000x8.BroadcastsInDim S1600000x8x1 (![0, 1] : Fin 2 → Fin S1600000x8x1.rank)
  bcast_S1600000x8x1_S1600000x8x16_0_1_2 : S1600000x8x1.BroadcastsInDim S1600000x8x16 (![0, 1, 2] : Fin 3 → Fin S1600000x8x16.rank)
  shapeCasts_S1600000x8x16_S1600000x128 : S1600000x8x16.ShapeCasts S1600000x128
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  dot_S4000x128_S128x128_S4000x128_1_0_0_1_n_n_wf : DotDims.WF S4000x128 S128x128 S4000x128 [1] [0] [0] [1] [] []
  dot_S4000x128_S128x16_S4000x16_1_0_0_1_n_n_wf : DotDims.WF S4000x128 S128x16 S4000x16 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x16.size a ≤ S128x16.size a
  hwx0_3 : ∀ i : grid0.Coords, EltTy.bits .f32 = 32 ∨ (Rect.block (s := S128x16) S128x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x16.size a ≤ S100000x16.size a
  hwx0_6 : ∀ i : grid0.Coords, EltTy.bits .f32 = 32 ∨ (Rect.block (s := S100000x16) S4000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S4000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_2) S4000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v66) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v67) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S1x8x16 : Shape := ⟨3, ![1, 8, 16]⟩
abbrev S100000x8x16 : Shape := ⟨3, ![100000, 8, 16]⟩
abbrev S_ : Shape := ⟨0, ![]⟩
abbrev S100000x8 : Shape := ⟨2, ![100000, 8]⟩
abbrev S1x1600000 : Shape := ⟨2, ![1, 1600000]⟩
abbrev S1600000 : Shape := ⟨1, ![1600000]⟩
abbrev S1600000x1 : Shape := ⟨2, ![1600000, 1]⟩
abbrev S1600000x8 : Shape := ⟨2, ![1600000, 8]⟩
abbrev S1600000x8x16 : Shape := ⟨3, ![1600000, 8, 16]⟩
abbrev S1600000x8x1 : Shape := ⟨3, ![1600000, 8, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S1x8x16, .f32⟩
  | .hbm, ⟨5, _⟩ => ⟨S1x8x16, .f32⟩
  | .hbm, ⟨6, _⟩ => ⟨S100000x128, .f32⟩
  | .hbm, ⟨7, _⟩ => ⟨S100000x8x16, .f32⟩
  | .hbm, ⟨8, _⟩ => ⟨S100000x8x16, .f32⟩
  | .hbm, ⟨9, _⟩ => ⟨S100000x8x16, .f32⟩
  | .hbm, ⟨10, _⟩ => ⟨S_, .f32⟩
  | .hbm, ⟨11, _⟩ => ⟨S100000x8, .f32⟩
  | .hbm, ⟨12, _⟩ => ⟨S100000x8x16, .f32⟩
  | .hbm, ⟨13, _⟩ => ⟨S100000x8x16, .f32⟩
  | .hbm, ⟨14, _⟩ => ⟨S_, .f32⟩
  | .hbm, ⟨15, _⟩ => ⟨S100000x8, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x8, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x8, .f32⟩
  | .hbm, ⟨38, _⟩ => ⟨S1600000x8, .f32⟩
  | .hbm, ⟨39, _⟩ => ⟨S_, .f32⟩
  | .hbm, ⟨40, _⟩ => ⟨S_, .f32⟩
  | .hbm, ⟨41, _⟩ => ⟨S1600000x8, .f32⟩
  | .hbm, ⟨42, _⟩ => ⟨S1600000x8, .i1⟩
  | .hbm, ⟨43, _⟩ => ⟨S_, .f32⟩
  | .hbm, ⟨44, _⟩ => ⟨S1600000x8, .f32⟩
  | .hbm, ⟨45, _⟩ => ⟨S1600000x8, .f32⟩
  | .hbm, ⟨46, _⟩ => ⟨S1600000x8, .f32⟩
  | .hbm, ⟨47, _⟩ => ⟨S_, .f32⟩
  | .hbm, ⟨48, _⟩ => ⟨S_, .f32⟩
  | .hbm, ⟨49, _⟩ => ⟨S1600000x8, .f32⟩
  | .hbm, ⟨50, _⟩ => ⟨S1600000x8, .f32⟩
  | .hbm, ⟨51, _⟩ => ⟨S1600000x8, .f32⟩
  | .hbm, ⟨52, _⟩ => ⟨S_, .f32⟩
  | .hbm, ⟨53, _⟩ => ⟨S100000x8, .f32⟩
  | .hbm, ⟨54, _⟩ => ⟨S1600000x1, .i32⟩
  | .hbm, ⟨55, _⟩ => ⟨S100000x8, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x8, .f32⟩
  | .hbm, ⟨65, _⟩ => ⟨S_, .f32⟩
  | .hbm, ⟨66, _⟩ => ⟨S1600000x8, .f32⟩
  | .hbm, ⟨67, _⟩ => ⟨S1600000x8, .f32⟩
  | .hbm, ⟨68, _⟩ => ⟨S1600000x8, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x8x16, .f32⟩
  | .hbm, ⟨78, _⟩ => ⟨S1600000x8x1, .f32⟩
  | .hbm, ⟨79, _⟩ => ⟨S1600000x8x16, .f32⟩
  | .hbm, ⟨80, _⟩ => ⟨S1600000x8x16, .f32⟩
  | .hbm, ⟨81, _⟩ => ⟨S_, .f32⟩
  | .hbm, ⟨82, _⟩ => ⟨S100000x8x16, .f32⟩
  | .hbm, ⟨83, _⟩ => ⟨S1600000x1, .i32⟩
  | .hbm, ⟨84, _⟩ => ⟨S100000x8x16, .f32⟩
  | .hbm, ⟨85, _⟩ => ⟨S100000x128, .f32⟩
  | .hbm, ⟨86, _⟩ => ⟨S100000x8x16, .f32⟩
  | .hbm, ⟨87, _⟩ => ⟨S100000x8x16, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .i1⟩
  | .hbm, ⟨92, _⟩ => ⟨S_, .f32⟩
  | .hbm, ⟨93, _⟩ => ⟨S100000x128, .f32⟩
  | .hbm, ⟨94, _⟩ => ⟨S100000x128, .i1⟩
  | .hbm, ⟨95, _⟩ => ⟨S_, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_cst_0 : Ref sig .tc := ⟨.hbm, 92, rfl⟩
abbrev main_call1_v2 : Ref sig .tc := ⟨.hbm, 93, rfl⟩
abbrev main_call1_v3 : Ref sig .tc := ⟨.hbm, 94, rfl⟩
abbrev main_call1_cst_1 : Ref sig .tc := ⟨.hbm, 95, rfl⟩
abbrev main_call1_call0_v0 : Ref sig .tc := ⟨.hbm, 96, rfl⟩
abbrev main_call1_call0_v1 : Ref sig .tc := ⟨.hbm, 97, rfl⟩
abbrev main_call1_v4 : Ref sig .tc := ⟨.hbm, 98, rfl⟩
abbrev main_call1_v5 : Ref sig .tc := ⟨.hbm, 99, rfl⟩
abbrev main_call1_cst_2 : Ref sig .tc := ⟨.hbm, 100, rfl⟩
abbrev main_call1_v6 : Ref sig .tc := ⟨.hbm, 101, rfl⟩
abbrev main_call1_v7 : Ref sig .tc := ⟨.hbm, 102, rfl⟩
abbrev main_v62 : Ref sig .tc := ⟨.hbm, 103, rfl⟩

abbrev nD : Nat := 1
abbrev τ : Topo := Topo.v7x

variable {F : FTy → Type} [FloatOps F]

class Facts₀ : Prop where
  shapeCasts_S100000x128_S100000x8x16 : S100000x128.ShapeCasts S100000x8x16
  bcast_S1x8x16_S100000x8x16_0_1_2 : S1x8x16.BroadcastsInDim S100000x8x16 (![0, 1, 2] : Fin 3 → Fin S100000x8x16.rank)
  reducesTo_S100000x8x16_S100000x8_d2 : S100000x8x16.ReducesTo [2] S100000x8
  h_S_ : 0 < S_.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x8 : S_.BroadcastsInDim S1600000x8 (![] : Fin 0 → Fin S1600000x8.rank)
  reducesTo_S1600000x8_S_d0_1 : S1600000x8.ReducesTo [0, 1] S_
  bcast_S_S100000x8 : S_.BroadcastsInDim S100000x8 (![] : Fin 0 → Fin S100000x8.rank)
  bcast_S1600000x8_S1600000x8x1_0_1 : S1600000x8.BroadcastsInDim S1600000x8x1 (![0, 1] : Fin 2 → Fin S1600000x8x1.rank)
  bcast_S1600000x8x1_S1600000x8x16_0_1_2 : S1600000x8x1.BroadcastsInDim S1600000x8x16 (![0, 1, 2] : Fin 3 → Fin S1600000x8x16.rank)
  bcast_S_S100000x8x16 : S_.BroadcastsInDim S100000x8x16 (![] : Fin 0 → Fin S100000x8x16.rank)
  shapeCasts_S100000x8x16_S100000x128 : S100000x8x16.ShapeCasts S100000x128
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  gather_S100000x8x16_S1600000x1_S1600000x8x16_12_0_n_n_0_1_1816_wf : GatherDims.WF S100000x8x16 S1600000x1 S1600000x8x16 [1, 2] [0] [] [0] [] 1 ![1, 8, 16]
  scatter_S100000x8x16_S1600000x1_S1600000x8x16_12_0_0_1_wf : ScatterDims.WF S100000x8x16 S1600000x1 S1600000x8x16 [1, 2] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def gather_S100000x8x16_S1600000x1_S1600000x8x16_12_0_n_n_0_1_1816 : GatherDims S100000x8x16 S1600000x1 S1600000x8x16 where
  offsetDims := [1, 2]
  collapsedSliceDims := [0]
  operandBatchingDims := []
  startIndicesBatchingDims := []
  startIndexMap := [0]
  indexVectorDim := 1
  sliceSizes := ![1, 8, 16]
  wf := gather_S100000x8x16_S1600000x1_S1600000x8x16_12_0_n_n_0_1_1816_wf
def scatter_S100000x8x16_S1600000x1_S1600000x8x16_12_0_0_1 : ScatterDims S100000x8x16 S1600000x1 S1600000x8x16 where
  updateWindowDims := [1, 2]
  insertedWindowDims := [0]
  scatterDimsToOperandDims := [0]
  indexVectorDim := 1
  wf := scatter_S100000x8x16_S1600000x1_S1600000x8x16_12_0_0_1_wf

class Facts : Prop extends Facts₀ where

variable [Facts]
-- ==== Proof.RunValue.lean ====
/-
  THE KERNEL PROGRAM'S RUN WITH ITS RESULT NAMED.

  @main is nine segments: stretches of host operations and two pipelined regions. The contents of every
  unscoped buffer at each segment boundary are a fold from the launch memory: a host stretch applies its
  operations, a region replaces each of its arrays by what its write-backs leave and keeps every other
  buffer. After the last segment (region 1) the contents are `W9 m ρ c`. The run below is the program's
  run from any launch memory with zero counters: it terminates without fault on every weakly fair
  execution, and in every final state

    * the RESULT buffer holds `W9 m ρ c` at that buffer — which is (`W9_out`) region 1's output array after
      its twenty write-backs, its proof data taken at the contents `V8 m ρ` the region is entered with;
    * each of the six argument buffers holds what it was launched with (nothing writes an argument, so
      the fold at an argument walks back to the launch memory).

  The thread state at the end says "every unscoped buffer `b` holds `W9 m ρ c b`"; the final predicate
  reads seven of those buffers out of it: the result, and the six arguments.
-/
import proofs.«148892_j57080115364429_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is region 1's output array (its window 2), so after the region it holds what that
    window's write-backs leave: the array's fold over all twenty grid points, from the contents the region
    is entered with. -/
theorem W9_out (c : Dev nD) :
    Gen.W9 (F := F) m ρ c (Proc.devRef .tc main_v67) = (Gen.dat1 (Gen.V8 m ρ) c).arrAt 2 cfg1.N :=
  Gen.W9_arr m ρ c 2

set_option backward.isDefEq.respectTransparency.types false in
/-- THE RUN, with the result read: every weakly fair execution of @main from `m` with zero counters
    terminates, nothing faulting, and every final state has the result buffer at `W9 m ρ c` of it and the
    six argument arrays as launched. -/
theorem run : θ_run defs (onTc (τ := τ) (main (F := F))) ⟨m, fun _ => 0, ρ⟩ (fun r => ∀ c : Dev nD,
      r.2.mem ((c.tc : Thread nD τ).loc main_v67) = Gen.W9 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    -- the program is the segments' run
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- the thread state before the first segment and after the last
    (T₀ := fun c => iprop(StableHlo.held (c : Thread nD τ) (Pipeline.ucRefs τ sig) (W0 m ρ c) ∗ R c)) (Tₙ := Tₙ m ρ)
    -- each segment starts in the state its predecessor ends in
    (hch := ⟨fun _ => .rfl, fun _ => .rfl, fun _ => .rfl, fun _ => .rfl, fun _ => .rfl, fun _ => .rfl, fun _ => .rfl, fun _ => .rfl, fun _ => .rfl, fun _ => .rfl⟩)
    -- the launch memory gives the first state
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    -- the last state, read against the final memory: every unscoped buffer is at the last boundary's contents
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    -- seven of those buffers: the result as it is, each argument walked back to the launch memory
    (hQ := fun s h c =>
      ⟨h c _ (mem_uc main_v67 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.RefRunOps.lean ====
import proofs.«148892_j57080115364429_2_alg».proof.Proof.Gen.ReferenceIdeal
import Idealize.ShloMosaic.Lib.StableHlo.Run

/-!
# The reference program as a list of host operations

The reference is a host-only program: its entry function is a straight line of 79 statements, printed in two
windows, two of which are calls of outlined functions (a leaky rectifier, which itself calls a three-way
selection, and an exponential linear unit, which calls two selections). Executing a call is executing the
callee's body on the operands, so the program is the straight line obtained by writing each callee's operations
in place of its call, over the buffers of that call's record: 66 operations for the first window and 32 for the
second. This module lists them, proves that the two windows are exactly these two lines (by unfolding the
callees and re-associating the sequencing), and records that every operation touches buffers of the tensor core
only — the side condition of the theorem that runs a straight line.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window's operations, in order: statements 1 to 34, then the seven operations of the leaky rectifier
    (the zero and its broadcast, the comparison `x ≥ 0`, the slope converted and broadcast, the product
    `slope * x`, the selection) in place of statement 35, then statements 36 to 60. -/
abbrev ops0 : List (HloOp τ sig (Elt F)) :=
  [ binary main_arg0 main_arg2 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    reshape main_v0 main_v1 rfl shapeCasts_S100000x128_S100000x8x16,
    unary main_arg4 main_v2 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v1 main_v2 main_v3 (mulf : (⟨S100000x8x16, .f32⟩ : BufTy).Contents (Elt F) → (⟨S100000x8x16, .f32⟩ : BufTy).Contents (Elt F) → (⟨S100000x8x16, .f32⟩ : BufTy).Contents (Elt F)),
    nullary main_cst (constant S_ .f32 0x00000000#32),
    binary main_v3 main_cst main_v4 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)),
    unary main_arg5 main_v5 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v1 main_v5 main_v6 (mulf : (⟨S100000x8x16, .f32⟩ : BufTy).Contents (Elt F) → (⟨S100000x8x16, .f32⟩ : BufTy).Contents (Elt F) → (⟨S100000x8x16, .f32⟩ : BufTy).Contents (Elt F)),
    nullary main_cst_0 (constant S_ .f32 0x00000000#32),
    binary main_v6 main_cst_0 main_v7 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)),
    unary main_arg1 main_v8 ((extractStridedSlice S1x1600000 ![0, 0] · slices_S2x1600000_S1x1600000_0_0) : (⟨S2x1600000, .i32⟩ : BufTy).Contents (Elt F) → (⟨S1x1600000, .i32⟩ : BufTy).Contents (Elt F)),
    reshape main_v8 main_v9 rfl shapeCasts_S1x1600000_S1600000,
    unary main_arg1 main_v10 ((extractStridedSlice S1x1600000 ![1, 0] · slices_S2x1600000_S1x1600000_1_0) : (⟨S2x1600000, .i32⟩ : BufTy).Contents (Elt F) → (⟨S1x1600000, .i32⟩ : BufTy).Contents (Elt F)),
    reshape main_v10 main_v11 rfl shapeCasts_S1x1600000_S1600000,
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v9 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 100000#32),
    unary main_c_1 main_v14 (broadcastInDim S1600000 ![] bcast_S_S1600000 : (⟨S_, .i32⟩ : BufTy).Contents (Elt F) → (⟨S1600000, .i32⟩ : BufTy).Contents (Elt F)),
    binary main_v9 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v9 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v4 main_v17 main_v18 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    nullary main_c_2 (constantI S_ 32 0#32),
    unary main_c_2 main_v19 (broadcastInDim S1600000 ![] bcast_S_S1600000 : (⟨S_, .i32⟩ : BufTy).Contents (Elt F) → (⟨S1600000, .i32⟩ : BufTy).Contents (Elt F)),
    binary main_v11 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v21 (broadcastInDim S1600000 ![] bcast_S_S1600000 : (⟨S_, .i32⟩ : BufTy).Contents (Elt F) → (⟨S1600000, .i32⟩ : BufTy).Contents (Elt F)),
    binary main_v11 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v11 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v7 main_v24 main_v25 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    binary main_v18 main_v25 main_v26 (addf : (⟨S1600000x8, .f32⟩ : BufTy).Contents (Elt F) → (⟨S1600000x8, .f32⟩ : BufTy).Contents (Elt F) → (⟨S1600000x8, .f32⟩ : BufTy).Contents (Elt F)),
    nullary main_cst_4 (constant S_ .f32 0x3E4CCCCD#32),
    TRef.nullary main_call0.cst (constant S_ .f32 0x00000000#32),
    TRef.unary main_call0.cst main_call0.v0 (broadcastInDim S1600000x8 ![] bcast_S_S1600000x8),
    TRef.binary (.of main_v26 : TRef sig ⟨S1600000x8, .f32⟩) main_call0.v0 main_call0.v1 (cmpf .oge),
    TRef.unary (.of main_cst_4 : TRef sig ⟨S_, .f32⟩) main_call0.v2 id,
    TRef.unary main_call0.v2 main_call0.v3 (broadcastInDim S1600000x8 ![] bcast_S_S1600000x8),
    TRef.binary main_call0.v3 (.of main_v26 : TRef sig ⟨S1600000x8, .f32⟩) main_call0.v4 mulf,
    TRef.ternary main_call0.v1 (.of main_v26 : TRef sig ⟨S1600000x8, .f32⟩) main_call0.v4 main_call0.call0.v0 select,
    nullary main_cst_5 (constant S_ .f32 0xFF800000#32),
    binary main_v27 main_cst_5 main_v28 ((fun x v => Host.reduce FloatOps.maximumf x v reducesTo_S1600000x8_S_d0_1 h_S_) : (⟨S1600000x8, .f32⟩ : BufTy).Contents (Elt F) → (⟨S_, .f32⟩ : BufTy).Contents (Elt F) → (⟨S_, .f32⟩ : BufTy).Contents (Elt F)),
    unary main_v28 main_v29 (broadcastInDim S1600000x8 ![] bcast_S_S1600000x8 : (⟨S_, .f32⟩ : BufTy).Contents (Elt F) → (⟨S1600000x8, .f32⟩ : BufTy).Contents (Elt F)),
    binary main_v27 main_v29 main_v30 (subf : (⟨S1600000x8, .f32⟩ : BufTy).Contents (Elt F) → (⟨S1600000x8, .f32⟩ : BufTy).Contents (Elt F) → (⟨S1600000x8, .f32⟩ : BufTy).Contents (Elt F)),
    unary main_v30 main_v31 (Host.exp : (⟨S1600000x8, .f32⟩ : BufTy).Contents (Elt F) → (⟨S1600000x8, .f32⟩ : BufTy).Contents (Elt F)),
    nullary main_cst_6 (constant S_ .f32 0x00000000#32),
    unary main_cst_6 main_v32 (broadcastInDim S100000x8 ![] bcast_S_S100000x8 : (⟨S_, .f32⟩ : BufTy).Contents (Elt F) → (⟨S100000x8, .f32⟩ : BufTy).Contents (Elt F)),
    unary main_v11 main_v33 (broadcastInDim S1600000x1 ![0] bcast_S1600000_S1600000x1_0 : (⟨S1600000, .i32⟩ : BufTy).Contents (Elt F) → (⟨S1600000x1, .i32⟩ : BufTy).Contents (Elt F)),
    ternary main_v32 main_v33 main_v31 main_v34 ((fun x i u => Host.scatterAdd scatter_S100000x8_S1600000x1_S1600000x8_1_0_0_1 x i u) : (⟨S100000x8, .f32⟩ : BufTy).Contents (Elt F) → (⟨S1600000x1, .i32⟩ : BufTy).Contents (Elt F) → (⟨S1600000x8, .f32⟩ : BufTy).Contents (Elt F) → (⟨S100000x8, .f32⟩ : BufTy).Contents (Elt F)),
    nullary main_c_7 (constantI S_ 32 0#32),
    unary main_c_7 main_v35 (broadcastInDim S1600000 ![] bcast_S_S1600000 : (⟨S_, .i32⟩ : BufTy).Contents (Elt F) → (⟨S1600000, .i32⟩ : BufTy).Contents (Elt F)),
    binary main_v11 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v37 (broadcastInDim S1600000 ![] bcast_S_S1600000 : (⟨S_, .i32⟩ : BufTy).Contents (Elt F) → (⟨S1600000, .i32⟩ : BufTy).Contents (Elt F)),
    binary main_v11 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_v11 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_v34 main_v40 main_v41 ((fun x i => Host.gather gather_S100000x8_S1600000x1_S1600000x8_1_0_n_n_0_1_18 x i) : (⟨S100000x8, .f32⟩ : BufTy).Contents (Elt F) → (⟨S1600000x1, .i32⟩ : BufTy).Contents (Elt F) → (⟨S1600000x8, .f32⟩ : BufTy).Contents (Elt F)),
    nullary main_cst_9 (constant S_ .f32 0x24E69595#32),
    unary main_cst_9 main_v42 (broadcastInDim S1600000x8 ![] bcast_S_S1600000x8 : (⟨S_, .f32⟩ : BufTy).Contents (Elt F) → (⟨S1600000x8, .f32⟩ : BufTy).Contents (Elt F)),
    binary main_v41 main_v42 main_v43 (addf : (⟨S1600000x8, .f32⟩ : BufTy).Contents (Elt F) → (⟨S1600000x8, .f32⟩ : BufTy).Contents (Elt F) → (⟨S1600000x8, .f32⟩ : BufTy).Contents (Elt F)),
    binary main_v31 main_v43 main_v44 (Host.divf : (⟨S1600000x8, .f32⟩ : BufTy).Contents (Elt F) → (⟨S1600000x8, .f32⟩ : BufTy).Contents (Elt F) → (⟨S1600000x8, .f32⟩ : BufTy).Contents (Elt F)),
    nullary main_c_10 (constantI S_ 32 0#32),
    unary main_c_10 main_v45 (broadcastInDim S1600000 ![] bcast_S_S1600000 : (⟨S_, .i32⟩ : BufTy).Contents (Elt F) → (⟨S1600000, .i32⟩ : BufTy).Contents (Elt F)),
    binary main_v9 main_v45 main_v46 (cmpi .slt : (⟨S1600000, .i32⟩ : BufTy).Contents (Elt F) → (⟨S1600000, .i32⟩ : BufTy).Contents (Elt F) → (⟨S1600000, .i1⟩ : BufTy).Contents (Elt F)) ]

/-- The second window's operations, in order: statements 61 to 77, then the fifteen operations of the exponential
    linear unit in place of statement 78 (the comparison `z > 0` twice, each against its own broadcast zero; the
    first selection `if z > 0 then 0 else z` with its scalar converted and broadcast; `exp − 1` of it; the
    scale one broadcast and multiplied in; the second selection `if z > 0 then z else …`). -/
abbrev ops1 : List (HloOp τ sig (Elt F)) :=
  [ nullary main_c_11 (constantI S_ 32 100000#32),
    unary main_c_11 main_v47 (broadcastInDim S1600000 ![] bcast_S_S1600000 : (⟨S_, .i32⟩ : BufTy).Contents (Elt F) → (⟨S1600000, .i32⟩ : BufTy).Contents (Elt F)),
    binary main_v9 main_v47 main_v48 (addi : (⟨S1600000, .i32⟩ : BufTy).Contents (Elt F) → (⟨S1600000, .i32⟩ : BufTy).Contents (Elt F) → (⟨S1600000, .i32⟩ : BufTy).Contents (Elt F)),
    ternary main_v46 main_v48 main_v9 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v49 main_v50 (broadcastInDim S1600000x1 ![0] bcast_S1600000_S1600000x1_0 : (⟨S1600000, .i32⟩ : BufTy).Contents (Elt F) → (⟨S1600000x1, .i32⟩ : BufTy).Contents (Elt F)),
    binary main_v1 main_v50 main_v51 ((fun x i => Host.gather gather_S100000x8x16_S1600000x1_S1600000x8x16_12_0_n_n_0_1_1816 x i) : (⟨S100000x8x16, .f32⟩ : BufTy).Contents (Elt F) → (⟨S1600000x1, .i32⟩ : BufTy).Contents (Elt F) → (⟨S1600000x8x16, .f32⟩ : BufTy).Contents (Elt F)),
    unary main_v44 main_v52 (broadcastInDim S1600000x8x1 ![0, 1] bcast_S1600000x8_S1600000x8x1_0_1 : (⟨S1600000x8, .f32⟩ : BufTy).Contents (Elt F) → (⟨S1600000x8x1, .f32⟩ : BufTy).Contents (Elt F)),
    unary main_v52 main_v53 (broadcastInDim S1600000x8x16 ![0, 1, 2] bcast_S1600000x8x1_S1600000x8x16_0_1_2 : (⟨S1600000x8x1, .f32⟩ : BufTy).Contents (Elt F) → (⟨S1600000x8x16, .f32⟩ : BufTy).Contents (Elt F)),
    binary main_v51 main_v53 main_v54 (mulf : (⟨S1600000x8x16, .f32⟩ : BufTy).Contents (Elt F) → (⟨S1600000x8x16, .f32⟩ : BufTy).Contents (Elt F) → (⟨S1600000x8x16, .f32⟩ : BufTy).Contents (Elt F)),
    nullary main_cst_12 (constant S_ .f32 0x00000000#32),
    unary main_cst_12 main_v55 (broadcastInDim S100000x8x16 ![] bcast_S_S100000x8x16 : (⟨S_, .f32⟩ : BufTy).Contents (Elt F) → (⟨S100000x8x16, .f32⟩ : BufTy).Contents (Elt F)),
    unary main_v11 main_v56 (broadcastInDim S1600000x1 ![0] bcast_S1600000_S1600000x1_0 : (⟨S1600000, .i32⟩ : BufTy).Contents (Elt F) → (⟨S1600000x1, .i32⟩ : BufTy).Contents (Elt F)),
    ternary main_v55 main_v56 main_v54 main_v57 ((fun x i u => Host.scatterAdd scatter_S100000x8x16_S1600000x1_S1600000x8x16_12_0_0_1 x i u) : (⟨S100000x8x16, .f32⟩ : BufTy).Contents (Elt F) → (⟨S1600000x1, .i32⟩ : BufTy).Contents (Elt F) → (⟨S1600000x8x16, .f32⟩ : BufTy).Contents (Elt F) → (⟨S100000x8x16, .f32⟩ : BufTy).Contents (Elt F)),
    binary main_arg0 main_arg3 main_v58 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    reshape main_v58 main_v59 rfl shapeCasts_S100000x128_S100000x8x16,
    binary main_v57 main_v59 main_v60 (addf : (⟨S100000x8x16, .f32⟩ : BufTy).Contents (Elt F) → (⟨S100000x8x16, .f32⟩ : BufTy).Contents (Elt F) → (⟨S100000x8x16, .f32⟩ : BufTy).Contents (Elt F)),
    reshape main_v60 main_v61 rfl shapeCasts_S100000x8x16_S100000x128,
    TRef.nullary main_call1.cst (constant S_ .f32 0x00000000#32),
    TRef.unary main_call1.cst main_call1.v0 (broadcastInDim S100000x128 ![] bcast_S_S100000x128),
    TRef.binary (.of main_v61 : TRef sig ⟨S100000x128, .f32⟩) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v61 : TRef sig ⟨S100000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v61 : TRef sig ⟨S100000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v61 : TRef sig ⟨S100000x128, .f32⟩) main_call1.v7 main_call1.call1.v0 select ]

/-- The whole program's operations. -/
abbrev ops : List (HloOp τ sig (Elt F)) := ops0 ++ ops1

set_option maxRecDepth 8192 in
set_option maxHeartbeats 4000000 in
/-- The first window is the line `ops0`: the callee's definition unfolded at its call, both sides are one chain
    of single-operation steps once sequencing is re-associated. -/
theorem main_part0_eq (c : Dev nD) : main_part0 (F := F) c = seq ops0 := by
  simp only [main_part0, fn_leaky_relu.body, fn_where.body, seq, bind_assoc, pure_bind]
  rfl

set_option maxRecDepth 8192 in
set_option maxHeartbeats 4000000 in
/-- The second window is the line `ops1` (it ends with the return, as a line does: the re-association alone makes the
    two sides the same term). -/
theorem main_part1_eq (c : Dev nD) : main_part1 (F := F) c = seq ops1 := by
  simp only [main_part1, fn_elu.body, fn_where_0.body, fn_where_1.body, seq, bind_assoc, pure_bind]

/-- The program runs its two windows one after the other, and two lines run one after the other are their
    concatenation run as one. -/
theorem main_eq (c : Dev nD) : main (F := F) c = seq ops := by
  show (main_part0 (F := F) c >>= fun _ => main_part1 (F := F) c) = seq (ops0 ++ ops1)
  rw [seq_append, main_part0_eq, main_part1_eq]

/-- The signature scopes no buffer and no semaphore: the program is over tensor values only. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨binary_bufs_sub .., reshape_bufs_sub .., unary_bufs_sub .., binary_bufs_sub .., nullary_bufs_sub .., binary_bufs_sub .., unary_bufs_sub .., binary_bufs_sub .., nullary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., binary_bufs_sub ..⟩

set_option maxRecDepth 8192 in
theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., reshape_bufs_sub .., binary_bufs_sub .., reshape_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Every operation of the program touches tensor-core buffers only. -/
theorem ops_sub : (ops : List (HloOp τ sig (Elt F))).Forall fun op => op.bufs ⊆ tcRefs τ sig :=
  List.forall_iff_forall_mem.mpr fun op h => by
    rcases List.mem_append.mp h with h | h
    exacts [List.forall_iff_forall_mem.mp ops0_sub op h, List.forall_iff_forall_mem.mp ops1_sub op h]

end Cert.ReferenceIdeal.RefRun

end
-- ==== Proof.RefRun.lean ====
import proofs.«148892_j57080115364429_2_alg».proof.Proof.RefRunOps

/-!
# The reference's run, read back as one function of its six arguments

The reference computes one layer of graph attention over `N = 100000` nodes with `128` features, `E = 1600000`
edges `(src e, tgt e)`, `8` heads of `16` channels:

* `p3 x W`: the projected features `x · W`, viewed as `[N, 8, 16]`;
* `score p a`: per node and head, `∑ c, p[n, h, c] * a[0, h, c]`;
* `row0`, `row1`: the two rows of the edge list (sources, targets), as vectors of length `E`;
* `wrapCol i`: the index vector with negative entries wrapped by `+ N`, as a column `[E, 1]` (what indexing
  an array by `i` reads); `rawCol i`: the index vector as a column, unwrapped (what a segment sum scatters by);
* `att`: per edge and head, the logit `score_src[src e] + score_tgt[tgt e]`, passed through the leaky rectifier
  (slope one fifth), shifted by the maximum over ALL edges and heads, exponentiated, and divided by the sum of
  these exponentials over the edges with the same target, plus `1e-16`;
* `agg`: per node, the sum over the edges arriving at it of `p[src e] * att[e]`;
* `elu`: `z` where `z > 0`, `exp z − 1` elsewhere (computed as `expm1` of `z` clamped above at zero);
* `result`: `elu` of the aggregate plus the skip projection `x · W_skip`, viewed as `[N, 128]`.

Each definition's body is, literally and in order, the operations the program prints for it, so that the
program's run — the fold of its 98 operations over the buffers' launch contents — is `result` of the six
arguments' contents by unfolding alone. `run` states that: every weakly fair execution of the program terminates
with the result buffer at `result` of the arguments and the arguments unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of shape `S` and element type `φ`. -/
local notation "C[" S ", " φ "]" => BufTy.Contents (Elt F) (BufTy.mk S φ)

/-! ## The stages -/

/-- `%0, %1` (and `%58, %59` with the skip weights): the product `x · W`, viewed as `[N, 8, 16]`. -/
def p3 (x : C[S100000x128, .f32]) (w : C[S128x128, .f32]) : C[S100000x8x16, .f32] :=
  shapeCast S100000x8x16 (Host.dotGeneral dot_S100000x128_S128x128_S100000x128_1_0_0_1_n_n none x w)
    shapeCasts_S100000x128_S100000x8x16

/-- `%2 – %4` (and `%5 – %7`): the attention vector broadcast over the nodes, multiplied in, and summed over
    the channel axis from the constant zero. -/
def score (p : C[S100000x8x16, .f32]) (a : C[S1x8x16, .f32]) : C[S100000x8, .f32] :=
  Host.reduceAdd (mulf p (broadcastInDim S100000x8x16 ![0, 1, 2] bcast_S1x8x16_S100000x8x16_0_1_2 a))
    (constant S_ .f32 0x00000000#32) reducesTo_S100000x8x16_S100000x8_d2 h_S_

/-- `%8, %9`: row 0 of the edge list (the sources), as a vector. -/
def row0 (ei : C[S2x1600000, .i32]) : C[S1600000, .i32] :=
  shapeCast S1600000 (extractStridedSlice S1x1600000 ![0, 0] ei slices_S2x1600000_S1x1600000_0_0)
    shapeCasts_S1x1600000_S1600000

/-- `%10, %11`: row 1 of the edge list (the targets), as a vector. -/
def row1 (ei : C[S2x1600000, .i32]) : C[S1600000, .i32] :=
  shapeCast S1600000 (extractStridedSlice S1x1600000 ![1, 0] ei slices_S2x1600000_S1x1600000_1_0)
    shapeCasts_S1x1600000_S1600000

/-- `%12 – %17` (the same operations at `%19 – %24`, `%35 – %40`, `%45 – %50`): where an index is negative it is
    replaced by itself plus `N`; the vector is then viewed as a column `[E, 1]` of index vectors of length one. -/
def wrapCol (i : C[S1600000, .i32]) : C[S1600000x1, .i32] :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- `%33` (and `%56`): the index vector viewed as a column `[E, 1]`, as it is. -/
def rawCol (i : C[S1600000, .i32]) : C[S1600000x1, .i32] :=
  broadcastInDim S1600000x1 ![0] bcast_S1600000_S1600000x1_0 i

/-- `%18, %25, %26`: per edge and head, the source's score at the edge's source plus the target's score at
    the edge's target (two gathers of rows, by the wrapped indices). -/
def logit (ssrc stgt : C[S100000x8, .f32]) (src tgt : C[S1600000, .i32]) : C[S1600000x8, .f32] :=
  addf (Host.gather gather_S100000x8_S1600000x1_S1600000x8_1_0_n_n_0_1_18 ssrc (wrapCol src))
    (Host.gather gather_S100000x8_S1600000x1_S1600000x8_1_0_n_n_0_1_18 stgt (wrapCol tgt))

/-- The call of the leaky rectifier at `%27`, its seven operations in order: the zero and its broadcast, the
    comparison `e ≥ 0`, the slope `0.2` converted (the identity) and broadcast, the product `slope * e`, and the
    selection of `e` where the comparison holds and of the product elsewhere. -/
def leaky (e : C[S1600000x8, .f32]) : C[S1600000x8, .f32] :=
  select (cmpf .oge e (broadcastInDim S1600000x8 ![] bcast_S_S1600000x8 (constant S_ .f32 0x00000000#32))) e
    (mulf (broadcastInDim S1600000x8 ![] bcast_S_S1600000x8 (id (constant S_ .f32 0x3E4CCCCD#32))) e)

/-- `%28 – %31`: the maximum over all edges and heads (from minus infinity), broadcast back, subtracted, and the
    exponential taken. -/
def expShift (l : C[S1600000x8, .f32]) : C[S1600000x8, .f32] :=
  Host.exp (subf l (broadcastInDim S1600000x8 ![] bcast_S_S1600000x8
    (Host.reduce FloatOps.maximumf l (constant S_ .f32 0xFF800000#32) reducesTo_S1600000x8_S_d0_1 h_S_)))

/-- `%32 – %34`: per node and head, the sum of the rows `x e` over the edges `e` whose target is the node
    (a scatter-add into zeros, by the unwrapped target column). -/
def segSum (x : C[S1600000x8, .f32]) (tgt : C[S1600000, .i32]) : C[S100000x8, .f32] :=
  Host.scatterAdd scatter_S100000x8_S1600000x1_S1600000x8_1_0_0_1
    (broadcastInDim S100000x8 ![] bcast_S_S100000x8 (constant S_ .f32 0x00000000#32)) (rawCol tgt) x

/-- `%41 – %44`: the exponentials divided by their target's sum (gathered back to the edges by the wrapped
    target indices) plus `1e-16`. -/
def normalize (x : C[S1600000x8, .f32]) (tgt : C[S1600000, .i32]) : C[S1600000x8, .f32] :=
  Host.divf x (addf (Host.gather gather_S100000x8_S1600000x1_S1600000x8_1_0_n_n_0_1_18 (segSum x tgt) (wrapCol tgt))
    (broadcastInDim S1600000x8 ![] bcast_S_S1600000x8 (constant S_ .f32 0x24E69595#32)))

/-- `%18 – %44`: the attention coefficient of every edge and head. -/
def att (ssrc stgt : C[S100000x8, .f32]) (src tgt : C[S1600000, .i32]) : C[S1600000x8, .f32] :=
  normalize (expShift (leaky (logit ssrc stgt src tgt))) tgt

/-- `%51 – %57`: the projected features gathered at the edges' sources, multiplied by the coefficients (broadcast
    over the channel axis in two steps, `[E, 8] → [E, 8, 1] → [E, 8, 16]`), and summed per target node (a
    scatter-add into zeros, by the unwrapped target column). -/
def agg (p : C[S100000x8x16, .f32]) (a : C[S1600000x8, .f32]) (src tgt : C[S1600000, .i32]) : C[S100000x8x16, .f32] :=
  Host.scatterAdd scatter_S100000x8x16_S1600000x1_S1600000x8x16_12_0_0_1
    (broadcastInDim S100000x8x16 ![] bcast_S_S100000x8x16 (constant S_ .f32 0x00000000#32)) (rawCol tgt)
    (mulf (Host.gather gather_S100000x8x16_S1600000x1_S1600000x8x16_12_0_n_n_0_1_1816 p (wrapCol src))
      (broadcastInDim S1600000x8x16 ![0, 1, 2] bcast_S1600000x8x1_S1600000x8x16_0_1_2
        (broadcastInDim S1600000x8x1 ![0, 1] bcast_S1600000x8_S1600000x8x1_0_1 a)))

/-- The call of the exponential linear unit at `%62`, its fifteen operations in order: `z > 0` against a broadcast
    zero (twice: the outer and the inner condition); the inner selection `if z > 0 then 0 else z` (its scalar zero
    converted, the identity, and broadcast); `exp − 1` of it; the scale `1.0` broadcast and multiplied in; the outer
    selection `if z > 0 then z else` that product. -/
def elu (z : C[S100000x128, .f32]) : C[S100000x128, .f32] :=
  select (cmpf .ogt z (broadcastInDim S100000x128 ![] bcast_S_S100000x128 (constant S_ .f32 0x00000000#32))) z
    (mulf (broadcastInDim S100000x128 ![] bcast_S_S100000x128 (constant S_ .f32 0x3F800000#32))
      (Host.expm1
        (select (cmpf .ogt z (broadcastInDim S100000x128 ![] bcast_S_S100000x128 (constant S_ .f32 0x00000000#32)))
          (broadcastInDim S100000x128 ![] bcast_S_S100000x128 (id (constant S_ .f32 0x00000000#32))) z)))

/-- The whole program: the attention-weighted aggregate of the projected features plus the skip projection
    (`%60`), viewed as `[N, 128]` (`%61`), through the exponential linear unit (`%62`). -/
def result (a0 : C[S100000x128, .f32]) (a1 : C[S2x1600000, .i32]) (a2 a3 : C[S128x128, .f32])
    (a4 a5 : C[S1x8x16, .f32]) : C[S100000x128, .f32] :=
  elu (shapeCast S100000x128
    (addf (agg (p3 a0 a2) (att (score (p3 a0 a2) a4) (score (p3 a0 a2) a5) (row0 a1) (row1 a1)) (row0 a1) (row1 a1))
      (p3 a0 a3))
    shapeCasts_S100000x8x16_S100000x128)

/-! ## The run

The contents of the buffers after a line of operations are a fold: each operation rewrites the buffer it writes
to its function's value at the contents of the buffers it reads, and leaves every other buffer as it was. Read at
one buffer, the fold is therefore a computation: walking the line backwards from the buffer, an operation that
writes another buffer is skipped (the two buffers are distinct references, which is decided), and the one that
writes it is replaced by its function applied to the fold, one operation earlier, at its operands. -/

/-- The contents after two lines run one after the other are the second's from the first's. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-! No operation of the program writes an argument's buffer: the six arguments are the signature's buffers 0 to 5,
and each operation writes the buffer of the value it defines, one of the buffers 6 to 103. Walking the line
backwards from an argument, all 98 operations are skipped. -/

set_option maxRecDepth 8192 in
set_option maxHeartbeats 4000000 in
theorem arg0_eq (V : Valuation τ sig (Elt F)) :
    after ops V (main_arg0 : DevRef τ sig) = V (main_arg0 : DevRef τ sig) := by
  simp only [ops, after_concat]
  after_results_simp

set_option maxRecDepth 8192 in
set_option maxHeartbeats 4000000 in
theorem arg1_eq (V : Valuation τ sig (Elt F)) :
    after ops V (main_arg1 : DevRef τ sig) = V (main_arg1 : DevRef τ sig) := by
  simp only [ops, after_concat]
  after_results_simp

set_option maxRecDepth 8192 in
set_option maxHeartbeats 4000000 in
theorem arg2_eq (V : Valuation τ sig (Elt F)) :
    after ops V (main_arg2 : DevRef τ sig) = V (main_arg2 : DevRef τ sig) := by
  simp only [ops, after_concat]
  after_results_simp

set_option maxRecDepth 8192 in
set_option maxHeartbeats 4000000 in
theorem arg3_eq (V : Valuation τ sig (Elt F)) :
    after ops V (main_arg3 : DevRef τ sig) = V (main_arg3 : DevRef τ sig) := by
  simp only [ops, after_concat]
  after_results_simp

set_option maxRecDepth 8192 in
set_option maxHeartbeats 4000000 in
theorem arg4_eq (V : Valuation τ sig (Elt F)) :
    after ops V (main_arg4 : DevRef τ sig) = V (main_arg4 : DevRef τ sig) := by
  simp only [ops, after_concat]
  after_results_simp

set_option maxRecDepth 8192 in
set_option maxHeartbeats 4000000 in
theorem arg5_eq (V : Valuation τ sig (Elt F)) :
    after ops V (main_arg5 : DevRef τ sig) = V (main_arg5 : DevRef τ sig) := by
  simp only [ops, after_concat]
  after_results_simp

set_option maxRecDepth 8192 in
set_option maxHeartbeats 8000000 in
/-- What the result buffer holds after the program's operations: `result` of the arguments' contents.

    Walking back from the result buffer reads, in turn, the outer selection of the exponential linear unit at its
    three operands, each of those at its own operands, and so on down to the arguments: the composed term of the 98
    operations. That term and `result …` are then the same by unfolding the stages' definitions, since each stage's body
    is its operations as printed. What else differs between the two is the identity by definition: an inlined
    callee's operation reads and writes through typed references, whose transport of contents along the equation
    "the buffer's type is the value's type" is along `rfl` at these literal buffers, and a reshape's result is
    moved along the equation between the two element types, likewise `rfl`. -/
theorem out_eq (V : Valuation τ sig (Elt F)) :
    after ops V (main_v62 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [ops, after_concat]
  after_results_simp
  rfl

/-- On every device, for any float values, from any memory with zero counters: every weakly fair execution of
    the program terminates with the result buffer at `result` of the six arguments' launch contents and the
    arguments unchanged. The program is the line `ops` (`main_eq`), a line's run ends with every buffer at the fold of its
    operations over the launch contents (its operations touch tensor-core buffers only, and the signature scopes
    nothing), and the fold at the seven buffers is read by the lemmas above. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v62).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

/-- info: 'Cert.ReferenceIdeal.RefRun.run' depends on axioms: [propext, Classical.choice, Quot.sound] -/
#guard_msgs in #print axioms run

end Cert.ReferenceIdeal.RefRun

end
-- ==== Proof.RefChain.lean ====
/-
  The reference program's stages, as functions of arrays.

  The reference keeps the projected features as `[N, 8, 16]` (8 heads of 16 features): `p3 x w` is `x · w` re-laid
  so; the score of a node and head is the sum over the head's 16 features of the feature times the attention
  vector's entry (`score`); the attention weights `att` are computed from the two score arrays by the same host
  operations as in the kernel's program; the weighted messages are gathered, scaled and summed per target node as
  slabs (`agg3`); the skip projection is added, the result re-laid as `[N, 128]`. Each definition is one stretch of
  the program's operations, written exactly as its text has them.
-/
import proofs.«148892_j57080115364429_2_alg».proof.Proof.Gen.ReferenceIdeal

noncomputable section

namespace Cert.ReferenceIdeal.RefChain

open Idealize.ShloMosaic Cert.ReferenceIdeal Cert.ReferenceIdeal.Facts₀

variable {F : FTy → Type} [FloatOps F]

/-- `x · w` as `[N, 8, 16]`. -/
def p3 (x : (⟨S100000x128, .f32⟩ : BufTy).Contents (Elt F)) (w : (⟨S128x128, .f32⟩ : BufTy).Contents (Elt F)) :
    (⟨S100000x8x16, .f32⟩ : BufTy).Contents (Elt F) :=
  shapeCast S100000x8x16 (Host.dotGeneral dot_S100000x128_S128x128_S100000x128_1_0_0_1_n_n none x w) shapeCasts_S100000x128_S100000x8x16

/-- The per-node, per-head score: the sum over the head's features of feature times attention-vector entry. -/
def score (p : (⟨S100000x8x16, .f32⟩ : BufTy).Contents (Elt F)) (a : (⟨S1x8x16, .f32⟩ : BufTy).Contents (Elt F)) :
    (⟨S100000x8, .f32⟩ : BufTy).Contents (Elt F) :=
  Host.reduceAdd (mulf p (broadcastInDim S100000x8x16 ![0, 1, 2] bcast_S1x8x16_S100000x8x16_0_1_2 a))
    (constant S_ .f32 0x00000000#32) reducesTo_S100000x8x16_S100000x8_d2 h_S_

/-- Row 0 of the edge list: the sources. -/
def row0 (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- Row 1 of the edge list: the targets. -/
def row1 (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- Index words normalised for a gather (a negative word has the node count added), as an `[E, 1]` column. -/
def wrapCol (i : (⟨S1600000, .i32⟩ : BufTy).Contents (Elt F)) : (⟨S1600000x1, .i32⟩ : BufTy).Contents (Elt F) :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- Index words as they are, as an `[E, 1]` column. -/
def rawCol (i : (⟨S1600000, .i32⟩ : BufTy).Contents (Elt F)) : (⟨S1600000x1, .i32⟩ : BufTy).Contents (Elt F) :=
  broadcastInDim S1600000x1 ![0] bcast_S1600000_S1600000x1_0 i

/-- `s_src[src e, h] + s_tgt[tgt e, h]`. -/
def edgeScore (ssrc stgt : (⟨S100000x8, .f32⟩ : BufTy).Contents (Elt F)) (src tgt : (⟨S1600000, .i32⟩ : BufTy).Contents (Elt F)) :
    (⟨S1600000x8, .f32⟩ : BufTy).Contents (Elt F) :=
  addf (Host.gather gather_S100000x8_S1600000x1_S1600000x8_1_0_n_n_0_1_18 ssrc (wrapCol src))
    (Host.gather gather_S100000x8_S1600000x1_S1600000x8_1_0_n_n_0_1_18 stgt (wrapCol tgt))

/-- The leaky rectifier with slope 0.2. -/
def leaky (s : (⟨S1600000x8, .f32⟩ : BufTy).Contents (Elt F)) : (⟨S1600000x8, .f32⟩ : BufTy).Contents (Elt F) :=
  select (cmpf .oge s (broadcastInDim S1600000x8 ![] bcast_S_S1600000x8 (constant S_ .f32 0x00000000#32))) s
    (mulf (broadcastInDim S1600000x8 ![] bcast_S_S1600000x8 (id (constant S_ .f32 0x3E4CCCCD#32))) s)

/-- The exponential of the scores shifted by their maximum over all edges and heads. -/
def expShift (s : (⟨S1600000x8, .f32⟩ : BufTy).Contents (Elt F)) : (⟨S1600000x8, .f32⟩ : BufTy).Contents (Elt F) :=
  Host.exp (subf s (broadcastInDim S1600000x8 ![] bcast_S_S1600000x8
    (Host.reduce FloatOps.maximumf s (constant S_ .f32 0xFF800000#32) reducesTo_S1600000x8_S_d0_1 h_S_)))

/-- The exponentials divided by (their sum over the edges with the same target, plus a small constant). -/
def normalise (e : (⟨S1600000x8, .f32⟩ : BufTy).Contents (Elt F)) (tgt : (⟨S1600000, .i32⟩ : BufTy).Contents (Elt F)) :
    (⟨S1600000x8, .f32⟩ : BufTy).Contents (Elt F) :=
  Host.divf e (addf
    (Host.gather gather_S100000x8_S1600000x1_S1600000x8_1_0_n_n_0_1_18
      (Host.scatterAdd scatter_S100000x8_S1600000x1_S1600000x8_1_0_0_1
        (broadcastInDim S100000x8 ![] bcast_S_S100000x8 (constant S_ .f32 0x00000000#32)) (rawCol tgt) e)
      (wrapCol tgt))
    (broadcastInDim S1600000x8 ![] bcast_S_S1600000x8 (constant S_ .f32 0x24E69595#32)))

/-- The attention weight of every edge and head. -/
def att (ssrc stgt : (⟨S100000x8, .f32⟩ : BufTy).Contents (Elt F)) (src tgt : (⟨S1600000, .i32⟩ : BufTy).Contents (Elt F)) :
    (⟨S1600000x8, .f32⟩ : BufTy).Contents (Elt F) :=
  normalise (expShift (leaky (edgeScore ssrc stgt src tgt))) tgt

/-- The messages summed into their target nodes, features kept as heads. -/
def agg3 (p : (⟨S100000x8x16, .f32⟩ : BufTy).Contents (Elt F)) (a : (⟨S1600000x8, .f32⟩ : BufTy).Contents (Elt F))
    (src tgt : (⟨S1600000, .i32⟩ : BufTy).Contents (Elt F)) : (⟨S100000x8x16, .f32⟩ : BufTy).Contents (Elt F) :=
  Host.scatterAdd scatter_S100000x8x16_S1600000x1_S1600000x8x16_12_0_0_1
    (broadcastInDim S100000x8x16 ![] bcast_S_S100000x8x16 (constant S_ .f32 0x00000000#32)) (rawCol tgt)
    (mulf (Host.gather gather_S100000x8x16_S1600000x1_S1600000x8x16_12_0_n_n_0_1_1816 p (wrapCol src))
      (broadcastInDim S1600000x8x16 ![0, 1, 2] bcast_S1600000x8x1_S1600000x8x16_0_1_2
        (broadcastInDim S1600000x8x1 ![0, 1] bcast_S1600000x8_S1600000x8x1_0_1 a)))

/-- What the reference hands to its final ELU: the aggregated messages plus the skip projection, as `[N, 128]`. -/
def preElu (a0 : (⟨S100000x128, .f32⟩ : BufTy).Contents (Elt F)) (a1 : (⟨S2x1600000, .i32⟩ : BufTy).Contents (Elt F))
    (a2 a3 : (⟨S128x128, .f32⟩ : BufTy).Contents (Elt F)) (a4 a5 : (⟨S1x8x16, .f32⟩ : BufTy).Contents (Elt F)) :
    (⟨S100000x128, .f32⟩ : BufTy).Contents (Elt F) :=
  shapeCast S100000x128
    (addf (agg3 (p3 a0 a2) (att (score (p3 a0 a2) a4) (score (p3 a0 a2) a5) (row0 a1) (row1 a1)) (row0 a1) (row1 a1)) (p3 a0 a3))
    shapeCasts_S100000x8x16_S100000x128

end Cert.ReferenceIdeal.RefChain

end
-- ==== Proof.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.LibRowScatterBridge.lean ====
/-
  The host's accumulating scatter of rows read at one index at the exact instance, stated over variable extents and
  operands and over any dimension record equal to the row record, so that a program's row scatter at its own literal
  extents is an instance of it.
-/
import proofs.«148892_j57080115364429_2_alg».proof.Proof.LibRowOps

noncomputable section

open scoped BigOperators

namespace Cert.Lib.RowOps

open Idealize.ShloMosaic Idealize.ShloMosaic.ValueIdx

/-- The host's accumulating scatter of the rows of an E by F array onto the rows of an N by F array, at (n, f): the
    element there plus the sum, over the rows e whose index read signed is n, of the update at (e, f). -/
theorem hostScatterAdd_rows {N E F w : Nat}
    (d : ScatterDims ⟨2, ![N, F]⟩ ⟨2, ![E, 1]⟩ ⟨2, ![E, F]⟩)
    (wf : ScatterDims.WF ⟨2, ![N, F]⟩ ⟨2, ![E, 1]⟩ ⟨2, ![E, F]⟩ [1] [0] [0] 1) (hd : d = rowScatter N E F wf)
    (x : FVec Ideal ⟨2, ![N, F]⟩ .f32) (idx : IVec ⟨2, ![E, 1]⟩ w) (upd : FVec Ideal ⟨2, ![E, F]⟩ .f32)
    (n : Fin N) (f : Fin F) :
    Host.scatterAdd (F := Ideal) d x idx upd (ix2 n f)
      = x (ix2 n f) + ∑ e ∈ Finset.univ.filter (fun e : Fin E => (idx (ix2 e 0)).toInt = (n.val : Int)), upd (ix2 e f) := by
  subst hd
  simp only [Host.scatterAdd, Ideal.hostScatterAdd_def]
  exact scatterAdd_rows_apply wf x idx upd n f

end Cert.Lib.RowOps

end
-- ==== Proof.LibSlabOps.lean ====
/-
  Slabs gathered and slabs scattered, read at an index.

  When node features are kept as `[N, H, F]` (heads by features), `p[src]` lowers to one `stablehlo.gather` that copies
  whole `[H, F]` slabs — slab `e` of the `[E, H, F]` result is the operand's slab named by start index `e`, read
  signed and clamped into `[0, N − 1]` — and `segment_sum` to one accumulating `stablehlo.scatter` that adds slab `e`
  of the `[E, H, F]` updates onto the operand's slab named by scatter index `e`, read signed and NOT clamped (an
  update whose slab is outside `[0, N)` is dropped). This module states those dimension numbers once for every
  `N`, `E`, `H`, `F` (`slabGather`, `slabScatter`) and reads both operations at an index `(n, h, f)`:

  * `slabGather_operandIdx`: result element `(e, h, f)` reads the operand at `(clampSlab idx e, h, f)`;
  * `slabScatter_resultIdx`: update element `(e, h, f)` lands on `(n, h', f')` exactly when scatter index `e` reads
    `n` and `h = h'`, `f = f'`;
  * `scatterAdd_slabs_apply` / `hostScatterAdd_slabs`: at the ideal values the accumulating scatter at `(n, h, f)` is
    the operand there plus the sum, over the slabs `e` whose scatter index reads `n`, of the update at `(e, h, f)`.

  The pair `(h, f)` passes through both untouched and the slabs chosen depend on the index arrays alone: the same
  rows are chosen as when the features are kept flat as `[N, H·F]`.
-/
import Idealize.ShloMosaic.PureOps.Ideal
import Idealize.ShloMosaic.Lib.ValueIdx

noncomputable section

open scoped BigOperators

namespace Cert.Lib.SlabOps

open Idealize.ShloMosaic Idealize.ShloMosaic.ValueIdx

variable {N E H F : Nat}

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The dimension numbers of `x[idx]` for an operand `[N, H, F]` and start indices `[E, 1]`: whole slabs, result `[E, H, F]`. -/
abbrev slabGather (N E H F : Nat)
    (wf : GatherDims.WF ⟨3, ![N, H, F]⟩ ⟨2, ![E, 1]⟩ ⟨3, ![E, H, F]⟩ [1, 2] [0] [] [0] [] 1 ![1, H, F]) :
    GatherDims ⟨3, ![N, H, F]⟩ ⟨2, ![E, 1]⟩ ⟨3, ![E, H, F]⟩ where
  offsetDims := [1, 2]
  collapsedSliceDims := [0]
  operandBatchingDims := []
  startIndicesBatchingDims := []
  startIndexMap := [0]
  indexVectorDim := 1
  sliceSizes := ![1, H, F]
  wf := wf

/-- The dimension numbers of `x.at[idx].add(u)` for an operand `[N, H, F]`, scatter indices `[E, 1]`, updates `[E, H, F]`. -/
abbrev slabScatter (N E H F : Nat)
    (wf : ScatterDims.WF ⟨3, ![N, H, F]⟩ ⟨2, ![E, 1]⟩ ⟨3, ![E, H, F]⟩ [1, 2] [0] [0] 1) :
    ScatterDims ⟨3, ![N, H, F]⟩ ⟨2, ![E, 1]⟩ ⟨3, ![E, H, F]⟩ where
  updateWindowDims := [1, 2]
  insertedWindowDims := [0]
  scatterDimsToOperandDims := [0]
  indexVectorDim := 1
  wf := wf

/-- The operand slab start index `e` names: the index word read signed, clamped into `[0, N − 1]`. -/
def clampSlab (hN : 0 < N) {w : Nat} (idx : IVec ⟨2, ![E, 1]⟩ w) (e : Fin E) : Fin N :=
  ⟨min (idx (ix2 e 0)).toInt.toNat (N - 1), by omega⟩

/-- A slab gather's result element `(e, h, f)` reads the operand at `(clampSlab idx e, h, f)`. -/
theorem slabGather_operandIdx (hN : 0 < N)
    (wf : GatherDims.WF ⟨3, ![N, H, F]⟩ ⟨2, ![E, 1]⟩ ⟨3, ![E, H, F]⟩ [1, 2] [0] [] [0] [] 1 ![1, H, F])
    {w : Nat} (idx : IVec ⟨2, ![E, 1]⟩ w) (e : Fin E) (h : Fin H) (f : Fin F) :
    (slabGather N E H F wf).operandIdx (ix3 e h f) idx = ix3 (clampSlab hN idx e) h f := by
  funext a
  refine Fin.ext ?_
  match a with
  | ⟨0, _⟩ =>
    show (slabGather N E H F wf).start (ix3 e h f) idx 0 + (slabGather N E H F wf).batchCoord (ix3 e h f) 0
        + (slabGather N E H F wf).offCoord (ix3 e h f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabGather N E H F wf).startIndexMap from List.mem_singleton.mpr rfl)]
    have hsi : (slabGather N E H F wf).siIdx (ix3 e h f) ⟨List.idxOf (0 : Fin 3) (slabGather N E H F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (slabGather N E H F wf).start (ix3 e h f) idx 1 + (slabGather N E H F wf).batchCoord (ix3 e h f) 1
        + (slabGather N E H F wf).offCoord (ix3 e h f) 1 = h.val
    have hs : (slabGather N E H F wf).start (ix3 e h f) idx 1 = 0 := by
      unfold GatherDims.start
      rw [dif_neg (show (1 : Fin 3) ∉ ([0] : List (Fin 3)) from by decide)]
    have ho : (slabGather N E H F wf).offCoord (ix3 e h f) 1 = h.val := by
      unfold GatherDims.offCoord
      rw [dif_pos ((GatherDims.mem_sKept _ _).mpr ⟨show (1 : Fin 3) ∉ ([0] : List (Fin 3)) from by decide, List.not_mem_nil⟩)]
      rfl
    rw [GatherDims.batchCoord_eq_zero _ _ _ List.not_mem_nil, hs, ho]
    omega
  | ⟨2, _⟩ =>
    show (slabGather N E H F wf).start (ix3 e h f) idx 2 + (slabGather N E H F wf).batchCoord (ix3 e h f) 2
        + (slabGather N E H F wf).offCoord (ix3 e h f) 2 = f.val
    have hs : (slabGather N E H F wf).start (ix3 e h f) idx 2 = 0 := by
      unfold GatherDims.start
      rw [dif_neg (show (2 : Fin 3) ∉ ([0] : List (Fin 3)) from by decide)]
    have ho : (slabGather N E H F wf).offCoord (ix3 e h f) 2 = f.val := by
      unfold GatherDims.offCoord
      rw [dif_pos ((GatherDims.mem_sKept _ _).mpr ⟨show (2 : Fin 3) ∉ ([0] : List (Fin 3)) from by decide, List.not_mem_nil⟩)]
      rfl
    rw [GatherDims.batchCoord_eq_zero _ _ _ List.not_mem_nil, hs, ho]
    omega

/-- A slab scatter's update element `(e, h, f)` lands on `(n, h', f')` exactly when scatter index `e` reads `n` and
    the head and feature coordinates agree. -/
theorem slabScatter_resultIdx
    (wf : ScatterDims.WF ⟨3, ![N, H, F]⟩ ⟨2, ![E, 1]⟩ ⟨3, ![E, H, F]⟩ [1, 2] [0] [0] 1)
    {w : Nat} (idx : IVec ⟨2, ![E, 1]⟩ w) (e : Fin E) (h : Fin H) (f : Fin F) (n : Fin N) (h' : Fin H) (f' : Fin F) :
    (slabScatter N E H F wf).resultIdx? (ix3 e h f) idx = some (ix3 n h' f')
      ↔ ((idx (ix2 e 0)).toInt = (n.val : Int) ∧ h = h' ∧ f = f') := by
  have hs0 : (slabScatter N E H F wf).start (ix3 e h f) idx 0 = (idx (ix2 e 0)).toInt := by
    unfold ScatterDims.start
    rw [dif_pos (show (0 : Fin 3) ∈ (slabScatter N E H F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (slabScatter N E H F wf).start (ix3 e h f) idx 1 = 0 := by
    unfold ScatterDims.start
    rw [dif_neg (show (1 : Fin 3) ∉ ([0] : List (Fin 3)) from by decide)]
  have hs2 : (slabScatter N E H F wf).start (ix3 e h f) idx 2 = 0 := by
    unfold ScatterDims.start
    rw [dif_neg (show (2 : Fin 3) ∉ ([0] : List (Fin 3)) from by decide)]
  have hw0 : (slabScatter N E H F wf).window (ix3 e h f) 0 = 0 := by
    have hk : (0 : Fin 3) ∉ (slabScatter N E H F wf).sKept :=
      (show (0 : Fin 3) ∉ (List.finRange 3).filter (· ∉ ([0] : List (Fin 3))) from by decide)
    unfold ScatterDims.window
    rw [dif_neg hk]
  have hw1 : (slabScatter N E H F wf).window (ix3 e h f) 1 = h.val := by
    have hk : (1 : Fin 3) ∈ (slabScatter N E H F wf).sKept :=
      (show (1 : Fin 3) ∈ (List.finRange 3).filter (· ∉ ([0] : List (Fin 3))) from by decide)
    unfold ScatterDims.window
    rw [dif_pos hk]
    rfl
  have hw2 : (slabScatter N E H F wf).window (ix3 e h f) 2 = f.val := by
    have hk : (2 : Fin 3) ∈ (slabScatter N E H F wf).sKept :=
      (show (2 : Fin 3) ∈ (List.finRange 3).filter (· ∉ ([0] : List (Fin 3))) from by decide)
    unfold ScatterDims.window
    rw [dif_pos hk]
    rfl
  unfold ScatterDims.resultIdx?
  split
  · rename_i hin
    rw [Option.some.injEq]
    constructor
    · intro heq
      have h0 := congrArg (fun i => (i 0).val) heq
      have h1 := congrArg (fun i => (i 1).val) heq
      have h2 := congrArg (fun i => (i 2).val) heq
      have g0 := (hin 0).1
      simp only [hs0, hw0] at h0 g0
      simp only [hs1, hw1] at h1
      simp only [hs2, hw2] at h2
      refine ⟨?_, Fin.ext ?_, Fin.ext ?_⟩
      · show (idx (ix2 e 0)).toInt = (n.val : Int)
        have : ((idx (ix2 e 0)).toInt + ((0 : Nat) : Int)).toNat = n.val := h0
        omega
      · have : ((0 : Int) + (h.val : Int)).toNat = h'.val := h1
        omega
      · have : ((0 : Int) + (f.val : Int)).toNat = f'.val := h2
        omega
    · rintro ⟨hi, rfl, rfl⟩
      funext a
      refine Fin.ext ?_
      match a with
      | ⟨0, _⟩ =>
        show ((slabScatter N E H F wf).start (ix3 e h f) idx 0 + ((slabScatter N E H F wf).window (ix3 e h f) 0 : Int)).toNat = n.val
        rw [hs0, hw0, hi]; omega
      | ⟨1, _⟩ =>
        show ((slabScatter N E H F wf).start (ix3 e h f) idx 1 + ((slabScatter N E H F wf).window (ix3 e h f) 1 : Int)).toNat = h.val
        rw [hs1, hw1]; omega
      | ⟨2, _⟩ =>
        show ((slabScatter N E H F wf).start (ix3 e h f) idx 2 + ((slabScatter N E H F wf).window (ix3 e h f) 2 : Int)).toNat = f.val
        rw [hs2, hw2]; omega
  · rename_i hin
    constructor
    · intro heq; exact absurd heq (by simp)
    · rintro ⟨hi, rfl, rfl⟩
      exfalso
      apply hin
      intro a
      match a with
      | ⟨0, _⟩ =>
        show 0 ≤ (slabScatter N E H F wf).start (ix3 e h f) idx 0 + ((slabScatter N E H F wf).window (ix3 e h f) 0 : Int)
          ∧ (slabScatter N E H F wf).start (ix3 e h f) idx 0 + ((slabScatter N E H F wf).window (ix3 e h f) 0 : Int) < (N : Int)
        rw [hs0, hw0, hi]
        have := n.isLt
        omega
      | ⟨1, _⟩ =>
        show 0 ≤ (slabScatter N E H F wf).start (ix3 e h f) idx 1 + ((slabScatter N E H F wf).window (ix3 e h f) 1 : Int)
          ∧ (slabScatter N E H F wf).start (ix3 e h f) idx 1 + ((slabScatter N E H F wf).window (ix3 e h f) 1 : Int) < (H : Int)
        rw [hs1, hw1]
        have := h.isLt
        omega
      | ⟨2, _⟩ =>
        show 0 ≤ (slabScatter N E H F wf).start (ix3 e h f) idx 2 + ((slabScatter N E H F wf).window (ix3 e h f) 2 : Int)
          ∧ (slabScatter N E H F wf).start (ix3 e h f) idx 2 + ((slabScatter N E H F wf).window (ix3 e h f) 2 : Int) < (F : Int)
        rw [hs2, hw2]
        have := f.isLt
        omega

/-- At the ideal values an accumulating slab scatter read at `(n, h, f)`: the operand there plus the sum, over the
    slabs `e` of the updates whose scatter index reads `n`, of the update at `(e, h, f)`. -/
theorem scatterAdd_slabs_apply
    (wf : ScatterDims.WF ⟨3, ![N, H, F]⟩ ⟨2, ![E, 1]⟩ ⟨3, ![E, H, F]⟩ [1, 2] [0] [0] 1)
    (x : (⟨3, ![N, H, F]⟩ : Shape).Idx → EReal) {w : Nat} (idx : IVec ⟨2, ![E, 1]⟩ w)
    (upd : (⟨3, ![E, H, F]⟩ : Shape).Idx → EReal) (n : Fin N) (h : Fin H) (f : Fin F) :
    Ideal.hostScatterAdd (slabScatter N E H F wf) x idx upd (ix3 n h f)
      = x (ix3 n h f) + ∑ e ∈ Finset.univ.filter (fun e : Fin E => (idx (ix2 e 0)).toInt = (n.val : Int)), upd (ix3 e h f) := by
  unfold Ideal.hostScatterAdd
  refine congrArg (x (ix3 n h f) + ·) ?_
  rw [Finset.sum_filter, sum_idx3, Finset.sum_filter]
  refine Finset.sum_congr rfl fun e _ => ?_
  simp only [slabScatter_resultIdx]
  by_cases hP : (idx (ix2 e 0)).toInt = (n.val : Int)
  · simp only [hP, true_and]
    rw [Finset.sum_eq_single h]
    · simp only [true_and, Finset.sum_ite_eq', Finset.mem_univ, if_true]
    · intro b _ hb
      refine Finset.sum_eq_zero fun c _ => ?_
      rw [if_neg (fun hc => hb hc.1)]
    · intro hh; exact absurd (Finset.mem_univ h) hh
  · simp only [hP, false_and, if_false, Finset.sum_const_zero]

/-- The host's accumulating scatter of slabs, for any dimension record equal to the slab record. -/
theorem hostScatterAdd_slabs {w : Nat}
    (d : ScatterDims ⟨3, ![N, H, F]⟩ ⟨2, ![E, 1]⟩ ⟨3, ![E, H, F]⟩)
    (wf : ScatterDims.WF ⟨3, ![N, H, F]⟩ ⟨2, ![E, 1]⟩ ⟨3, ![E, H, F]⟩ [1, 2] [0] [0] 1) (hd : d = slabScatter N E H F wf)
    (x : FVec Ideal ⟨3, ![N, H, F]⟩ .f32) (idx : IVec ⟨2, ![E, 1]⟩ w) (upd : FVec Ideal ⟨3, ![E, H, F]⟩ .f32)
    (n : Fin N) (h : Fin H) (f : Fin F) :
    Host.scatterAdd (F := Ideal) d x idx upd (ix3 n h f)
      = x (ix3 n h f) + ∑ e ∈ Finset.univ.filter (fun e : Fin E => (idx (ix2 e 0)).toInt = (n.val : Int)), upd (ix3 e h f) := by
  subst hd
  simp only [Host.scatterAdd, Ideal.hostScatterAdd_def]
  exact scatterAdd_slabs_apply wf x idx upd n h f

end Cert.Lib.SlabOps

end
-- ==== Proof.LibHeadLayout.lean ====
/-
  Heads and features: a row of `H·F` numbers seen as `H` heads of `F` features, and back.

  An `[A, D]` array with `D = H·F` re-laid as `[A, H, F]` keeps each row and sends column `h·F + f` to head `h`,
  feature `f`; the reverse re-laying sends `(h, f)` back to column `h·F + f`. A per-head weight `[A, H]` spread over the
  features (`[A, H] → [A, H, 1] → [A, H, F]`) reads, at `(a, h, f)`, the weight at `(a, h)`; one `[1, H, F]` table spread
  over `A` rows reads the table at `(0, h, f)`. All for any extents.
-/
import Idealize.ShloMosaic.Lib.ValueIdx
import Idealize.ShloMosaic.Lib.Pipeline.Value

noncomputable section

namespace Cert.Lib.HeadLayout

open Idealize.ShloMosaic Idealize.ShloMosaic.ValueIdx

variable {α : Type} {A D H F : Nat}

/-- `[A, D] → [A, H, F]` at `(a, h, f)`: the flat row's column `k = h·F + f`. -/
theorem cast_flat_heads (x : (⟨2, ![A, D]⟩ : Shape).Idx → α)
    (hc : (⟨2, ![A, D]⟩ : Shape).ShapeCasts ⟨3, ![A, H, F]⟩) (hD : D = H * F)
    (a : Fin A) (h : Fin H) (f : Fin F) (k : Fin D) (hk : k.val = h.val * F + f.val) :
    shapeCast ⟨3, ![A, H, F]⟩ x hc (ix3 a h f) = x (ix2 a k) := by
  refine shapeCast_apply x hc _ _ ?_
  rw [Shape.rowMajor_val_two, Shape.rowMajor_val_three]
  show a.val * D + k.val = (a.val * H + h.val) * F + f.val
  subst hD
  rw [hk, Nat.add_mul, Nat.mul_assoc, Nat.add_assoc]

/-- `[A, H, F] → [A, D]` at `(a, k)` with `k = h·F + f`: head `h`, feature `f` of row `a`. -/
theorem cast_heads_flat (y : (⟨3, ![A, H, F]⟩ : Shape).Idx → α)
    (hc : (⟨3, ![A, H, F]⟩ : Shape).ShapeCasts ⟨2, ![A, D]⟩) (hD : D = H * F)
    (a : Fin A) (h : Fin H) (f : Fin F) (k : Fin D) (hk : k.val = h.val * F + f.val) :
    shapeCast ⟨2, ![A, D]⟩ y hc (ix2 a k) = y (ix3 a h f) := by
  refine shapeCast_apply y hc _ _ ?_
  rw [Shape.rowMajor_val_two, Shape.rowMajor_val_three]
  show (a.val * H + h.val) * F + f.val = a.val * D + k.val
  subst hD
  rw [hk, Nat.add_mul, Nat.mul_assoc, Nat.add_assoc]

/-- `[A, H] → [A, H, 1]` (a trailing unit axis added) at `(a, h, 0)`. -/
theorem weight_col (w : (⟨2, ![A, H]⟩ : Shape).Idx → α)
    (hb : (⟨2, ![A, H]⟩ : Shape).BroadcastsInDim ⟨3, ![A, H, 1]⟩ ![0, 1]) (a : Fin A) (h : Fin H) (z : Fin 1) :
    broadcastInDim ⟨3, ![A, H, 1]⟩ ![0, 1] hb w (ix3 a h z) = w (ix2 a h) := by
  refine broadcastInDim_apply _ hb w _ _ fun ax => ?_
  match ax with
  | ⟨0, _⟩ =>
    show a.val = if A = 1 then 0 else a.val
    split
    · have := a.isLt; omega
    · rfl
  | ⟨1, _⟩ =>
    show h.val = if H = 1 then 0 else h.val
    split
    · have := h.isLt; omega
    · rfl

/-- `[A, H, 1] → [A, H, F]` (the unit axis spread over the features) at `(a, h, f)`. -/
theorem weight_spread (w : (⟨3, ![A, H, 1]⟩ : Shape).Idx → α)
    (hb : (⟨3, ![A, H, 1]⟩ : Shape).BroadcastsInDim ⟨3, ![A, H, F]⟩ ![0, 1, 2]) (a : Fin A) (h : Fin H) (f : Fin F) :
    broadcastInDim ⟨3, ![A, H, F]⟩ ![0, 1, 2] hb w (ix3 a h f) = w (ix3 a h 0) := by
  refine broadcastInDim_apply _ hb w _ _ fun ax => ?_
  match ax with
  | ⟨0, _⟩ =>
    show a.val = if A = 1 then 0 else a.val
    split
    · have := a.isLt; omega
    · rfl
  | ⟨1, _⟩ =>
    show h.val = if H = 1 then 0 else h.val
    split
    · have := h.isLt; omega
    · rfl
  | ⟨2, _⟩ =>
    show (0 : Nat) = if (1 : Nat) = 1 then 0 else f.val
    rfl

/-- A per-head weight spread over the features, in its two steps, at `(a, h, f)`: the weight at `(a, h)`. -/
theorem weight_heads (w : (⟨2, ![A, H]⟩ : Shape).Idx → α)
    (hb1 : (⟨2, ![A, H]⟩ : Shape).BroadcastsInDim ⟨3, ![A, H, 1]⟩ ![0, 1])
    (hb2 : (⟨3, ![A, H, 1]⟩ : Shape).BroadcastsInDim ⟨3, ![A, H, F]⟩ ![0, 1, 2]) (a : Fin A) (h : Fin H) (f : Fin F) :
    broadcastInDim ⟨3, ![A, H, F]⟩ ![0, 1, 2] hb2 (broadcastInDim ⟨3, ![A, H, 1]⟩ ![0, 1] hb1 w) (ix3 a h f) = w (ix2 a h) :=
  (weight_spread _ hb2 a h f).trans (weight_col w hb1 a h 0)

/-- One `[1, H, F]` table spread over `A` rows at `(a, h, f)`: the table at `(0, h, f)`. -/
theorem table_rows (t : (⟨3, ![1, H, F]⟩ : Shape).Idx → α)
    (hb : (⟨3, ![1, H, F]⟩ : Shape).BroadcastsInDim ⟨3, ![A, H, F]⟩ ![0, 1, 2]) (a : Fin A) (h : Fin H) (f : Fin F) :
    broadcastInDim ⟨3, ![A, H, F]⟩ ![0, 1, 2] hb t (ix3 a h f) = t (ix3 0 h f) := by
  refine broadcastInDim_apply _ hb t _ _ fun ax => ?_
  match ax with
  | ⟨0, _⟩ =>
    show (0 : Nat) = if (1 : Nat) = 1 then 0 else a.val
    rfl
  | ⟨1, _⟩ =>
    show h.val = if H = 1 then 0 else h.val
    split
    · have := h.isLt; omega
    · rfl
  | ⟨2, _⟩ =>
    show f.val = if F = 1 then 0 else f.val
    split
    · have := f.isLt; omega
    · rfl

end Cert.Lib.HeadLayout

end
-- ==== Proof.LibHeadMessages.lean ====
/-
  Attention-weighted messages summed into their target nodes, read at one entry — in both layouts.

  Node features `p` are `H` heads of `F` features. For every edge `e` the message is row `src e` of `p` with head
  `h` scaled by the edge's weight `a e h`; the messages are added onto the rows `tgt e`. A program may keep the
  features flat (`[N, H·F]`: gather rows, re-lay as `[E, H, F]`, scale, re-lay flat, scatter rows) or as heads
  (`[N, H, F]`: gather slabs, scale, scatter slabs). Read at node `n`, head `h`, feature `f` (flat column
  `k = h·F + f`) both are
      start value + ∑ over the edges `e` whose target word reads `n` of  p (clamped source row of e) (h, f) · a e h,
  the source row read signed and clamped into `[0, N − 1]`, an edge whose target is outside `[0, N)` dropped.
  Any extents.
-/
import proofs.«148892_j57080115364429_2_alg».proof.Proof.LibRowScatterBridge
import proofs.«148892_j57080115364429_2_alg».proof.Proof.LibSlabOps
import proofs.«148892_j57080115364429_2_alg».proof.Proof.LibHeadLayout

noncomputable section

open scoped BigOperators

namespace Cert.Lib.HeadMessages

open Idealize.ShloMosaic Idealize.ShloMosaic.ValueIdx Cert.Lib.RowOps Cert.Lib.SlabOps Cert.Lib.HeadLayout

variable {N E D H F : Nat}

/-- The flat layout, at `(n, k)` with `k = h·F + f`. -/
theorem flat_messages_apply {w : Nat} (hN : 0 < N) (hD : D = H * F)
    (ds : ScatterDims ⟨2, ![N, D]⟩ ⟨2, ![E, 1]⟩ ⟨2, ![E, D]⟩)
    (wfs : ScatterDims.WF ⟨2, ![N, D]⟩ ⟨2, ![E, 1]⟩ ⟨2, ![E, D]⟩ [1] [0] [0] 1) (hds : ds = rowScatter N E D wfs)
    (dg : GatherDims ⟨2, ![N, D]⟩ ⟨2, ![E, 1]⟩ ⟨2, ![E, D]⟩)
    (wfg : GatherDims.WF ⟨2, ![N, D]⟩ ⟨2, ![E, 1]⟩ ⟨2, ![E, D]⟩ [1] [0] [] [0] [] 1 ![1, D]) (hdg : dg = rowGather N E D wfg)
    (hc1 : (⟨2, ![E, D]⟩ : Shape).ShapeCasts ⟨3, ![E, H, F]⟩) (hc2 : (⟨3, ![E, H, F]⟩ : Shape).ShapeCasts ⟨2, ![E, D]⟩)
    (hb1 : (⟨2, ![E, H]⟩ : Shape).BroadcastsInDim ⟨3, ![E, H, 1]⟩ ![0, 1])
    (hb2 : (⟨3, ![E, H, 1]⟩ : Shape).BroadcastsInDim ⟨3, ![E, H, F]⟩ ![0, 1, 2])
    (z p : FVec Ideal ⟨2, ![N, D]⟩ .f32) (a : FVec Ideal ⟨2, ![E, H]⟩ .f32) (scol tcol : IVec ⟨2, ![E, 1]⟩ w)
    (n : Fin N) (h : Fin H) (f : Fin F) (k : Fin D) (hk : k.val = h.val * F + f.val) :
    Host.scatterAdd (F := Ideal) ds z tcol
        (shapeCast ⟨2, ![E, D]⟩
          (mulf (shapeCast ⟨3, ![E, H, F]⟩ (Host.gather dg p scol) hc1)
            (broadcastInDim ⟨3, ![E, H, F]⟩ ![0, 1, 2] hb2 (broadcastInDim ⟨3, ![E, H, 1]⟩ ![0, 1] hb1 a)))
          hc2) (ix2 n k)
      = z (ix2 n k) + ∑ e ∈ Finset.univ.filter (fun e : Fin E => (tcol (ix2 e 0)).toInt = (n.val : Int)),
          p (ix2 (clampRow hN scol e) k) * a (ix2 e h) := by
  rw [hostScatterAdd_rows ds wfs hds]
  refine congrArg (z (ix2 n k) + ·) (Finset.sum_congr rfl fun e _ => ?_)
  rw [cast_heads_flat _ hc2 hD e h f k hk, mulf_apply, cast_flat_heads _ hc1 hD e h f k hk, weight_heads a hb1 hb2 e h f]
  subst hdg
  unfold Host.gather
  rw [rowGather_operandIdx hN wfg scol e k]

/-- The heads layout, at `(n, h, f)`. -/
theorem head_messages_apply {w : Nat} (hN : 0 < N)
    (ds : ScatterDims ⟨3, ![N, H, F]⟩ ⟨2, ![E, 1]⟩ ⟨3, ![E, H, F]⟩)
    (wfs : ScatterDims.WF ⟨3, ![N, H, F]⟩ ⟨2, ![E, 1]⟩ ⟨3, ![E, H, F]⟩ [1, 2] [0] [0] 1) (hds : ds = slabScatter N E H F wfs)
    (dg : GatherDims ⟨3, ![N, H, F]⟩ ⟨2, ![E, 1]⟩ ⟨3, ![E, H, F]⟩)
    (wfg : GatherDims.WF ⟨3, ![N, H, F]⟩ ⟨2, ![E, 1]⟩ ⟨3, ![E, H, F]⟩ [1, 2] [0] [] [0] [] 1 ![1, H, F])
    (hdg : dg = slabGather N E H F wfg)
    (hb1 : (⟨2, ![E, H]⟩ : Shape).BroadcastsInDim ⟨3, ![E, H, 1]⟩ ![0, 1])
    (hb2 : (⟨3, ![E, H, 1]⟩ : Shape).BroadcastsInDim ⟨3, ![E, H, F]⟩ ![0, 1, 2])
    (z p : FVec Ideal ⟨3, ![N, H, F]⟩ .f32) (a : FVec Ideal ⟨2, ![E, H]⟩ .f32) (scol tcol : IVec ⟨2, ![E, 1]⟩ w)
    (n : Fin N) (h : Fin H) (f : Fin F) :
    Host.scatterAdd (F := Ideal) ds z tcol
        (mulf (Host.gather dg p scol)
          (broadcastInDim ⟨3, ![E, H, F]⟩ ![0, 1, 2] hb2 (broadcastInDim ⟨3, ![E, H, 1]⟩ ![0, 1] hb1 a))) (ix3 n h f)
      = z (ix3 n h f) + ∑ e ∈ Finset.univ.filter (fun e : Fin E => (tcol (ix2 e 0)).toInt = (n.val : Int)),
          p (ix3 (clampSlab hN scol e) h f) * a (ix2 e h) := by
  rw [hostScatterAdd_slabs ds wfs hds]
  refine congrArg (z (ix3 n h f) + ·) (Finset.sum_congr rfl fun e _ => ?_)
  rw [mulf_apply, weight_heads a hb1 hb2 e h f]
  subst hdg
  unfold Host.gather
  rw [slabGather_operandIdx hN wfg scol e h f]

/-- The two layouts name the same source row. -/
theorem clampSlab_eq_clampRow {w : Nat} (hN : 0 < N) (scol : IVec ⟨2, ![E, 1]⟩ w) (e : Fin E) :
    clampSlab hN scol e = clampRow hN scol e := rfl

end Cert.Lib.HeadMessages

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibIndexReads.lean ====
/-
  General readings of array operations at one entry, over the extended reals or over any element type: a matrix product
  against a transposed right operand, a column spread along rows, an array of rows grouped into batches and back, a
  trailing unit axis added to a matrix, and the sum (of squares) along the last axis of a rank-3 array. Each says which
  entry of the operand an entry of the result reads, with indices written by their coordinates.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Lib.IndexReads

open Idealize.ShloMosaic Idealize.ShloMosaic.ValueIdx

/-! ## A matrix product with the right operand transposed -/

/-- A matrix product A · Bᵀ: both operands contract their SECOND axis, and the accumulator is the zero array. The entry
    (a, b) of the result is the sum over the shared coordinate c of A[a, c] · B[b, c]: the accumulator contributes 0,
    and the sum over the one-axis contraction index is the sum over that axis's coordinate. -/
theorem matmul_nt_apply {m n k : Nat} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) _ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  -- the left operand is read at (a, c): its row from the result's row, its column from the contraction
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  -- the right operand is read at (b, c): its ROW from the result's column
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## A column spread along the rows -/

/-- An `[a, 1]` column broadcast to `[a, b]` reads, at `(p, c)`, the column's entry of row `p`: the unit axis is read
    at 0 whatever `c` is. (The row form, `[1, b]` to `[a, b]`, is the library's `broadcastTo_1b_ab_apply`.) -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- if the column has one row only, that row is row 0
    show p.val = if a = 1 then 0 else p.val
    split
    · have := p.isLt; omega
    · rfl
  | ⟨1, _⟩ => rfl

/-! ## Rows grouped into batches, and back -/

/-- An `[A, B, k]` array viewed as the `[N, k]` array of all its rows (`N = A · B`): row `q = p · B + n` is row `n` of
    batch `p`, because both have the same position in row-major order. -/
theorem flatten_apply {α : Type} {A B N k : ℕ} (x : (⟨3, ![A, B, k]⟩ : Shape).Idx → α)
    (h : (⟨3, ![A, B, k]⟩ : Shape).ShapeCasts ⟨2, ![N, k]⟩)
    (q : Fin N) (p : Fin A) (n : Fin B) (d : Fin k) (hq : q.val = p.val * B + n.val) :
    shapeCast ⟨2, ![N, k]⟩ x h (ix2 q d) = x (ix3 p n d) :=
  shapeCast_apply x h _ _ (by
    rw [Shape.rowMajor_val_three, Shape.rowMajor_val_two]
    show (p.val * B + n.val) * k + d.val = q.val * k + d.val
    rw [hq])

/-- The other direction: the `[N, k]` array of rows viewed as `[A, B, k]` reads, at row `n` of batch `p`, row
    `q = p · B + n`. -/
theorem unflatten_apply {α : Type} {A B N k : ℕ} (x : (⟨2, ![N, k]⟩ : Shape).Idx → α)
    (h : (⟨2, ![N, k]⟩ : Shape).ShapeCasts ⟨3, ![A, B, k]⟩)
    (q : Fin N) (p : Fin A) (n : Fin B) (d : Fin k) (hq : q.val = p.val * B + n.val) :
    shapeCast ⟨3, ![A, B, k]⟩ x h (ix3 p n d) = x (ix2 q d) :=
  shapeCast_apply x h _ _ (by
    rw [Shape.rowMajor_val_three, Shape.rowMajor_val_two]
    show q.val * k + d.val = (p.val * B + n.val) * k + d.val
    rw [hq])

/-! ## A trailing unit axis -/

/-- An `[a, b]` array given a trailing unit axis (a sum taken with the summed axis kept) reads, at `(p, n, u)`, its
    entry `(p, n)`. -/
theorem keepdims_apply {α : Type} {a b : ℕ} (Y : (⟨2, ![a, b]⟩ : Shape).Idx → α)
    (h : (⟨2, ![a, b]⟩ : Shape).BroadcastsInDim ⟨3, ![a, b, 1]⟩ ![0, 1]) (p : Fin a) (n : Fin b) (u : Fin 1) :
    broadcastInDim ⟨3, ![a, b, 1]⟩ ![0, 1] h Y (ix3 p n u) = Y (ix2 p n) :=
  broadcastInDim_apply _ h Y _ _ fun ax => by
    match ax with
    | ⟨0, _⟩ =>
      show p.val = if a = 1 then 0 else p.val
      split
      · have := p.isLt; omega
      · rfl
    | ⟨1, _⟩ =>
      show n.val = if b = 1 then 0 else n.val
      split
      · have := n.isLt; omega
      · rfl

/-! ## Sums along the last axis of a rank-3 array -/

/-- The host's sum along the last axis of an `[A, B, K]` array, at `(p, n)`: the initial value plus the sum over `e` of
    the entry `(p, n, e)`. The reduced index with the summed coordinate put back on the last axis is `(p, n, e)`. -/
theorem hostReduceAdd_last3_apply {A B K : ℕ} {φ : FTy} {u : Shape} (Z : FVec Ideal ⟨3, ![A, B, K]⟩ φ)
    (init : u.Idx → Ideal φ) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) Z init h' hu (ix2 p n) = init (Shape.Idx.first hu) + ∑ e : Fin K, Z (ix3 p n e) := by
  rw [hostReduceAdd_apply, Ideal.hostReduceAdd_single h' hR]
  refine congrArg (init (Shape.Idx.first hu) + ·) ?_
  show ∑ e : Fin K, Z (hR.lift (ix2 p n) e) = _
  refine Finset.sum_congr rfl fun e _ => ?_
  have he : hR.lift (ix2 p n) e = ix3 p n e := by
    funext ax; apply Fin.ext
    match ax with
    | ⟨0, _⟩ => rfl
    | ⟨1, _⟩ => rfl
    | ⟨2, _⟩ => rfl
  rw [he]

/-- The host's sum of squares along the last axis, from the zero word, of an array first widened to f32: at `(p, n)` the
    sum over `e` of the square of the entry `(p, n, e)`. The widening is the identity on extended reals and the zero word
    is 0. -/
theorem hostSumSq_last3_apply {A B K : ℕ} {φ : FTy} {u : Shape} (X : FVec Ideal ⟨3, ![A, B, K]⟩ φ)
    (hlt : φ.bits < FTy.bits .f32) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) (mulf (extf .f32 X hlt) (extf .f32 X hlt)) (constant (F := Ideal) u .f32 0x00000000#32) h' hu
        (ix2 p n)
      = ∑ e : Fin K, X (ix3 p n e) * X (ix3 p n e) := by
  rw [hostReduceAdd_last3_apply _ _ h' hR hu p n]
  show Ideal.ofBits .f32 0x00000000#32 + ∑ e : Fin K, X (ix3 p n e) * X (ix3 p n e) = _
  rw [Ideal.ofBits_zero_f32, zero_add]

end Cert.Lib.IndexReads

end
-- ==== Proof.RefRead.lean ====
/-
  The reference's stages read at an entry, at the exact values.

  With `P n k = ∑ j, x (n, j) · w (j, k)` the projected feature `k = 16 h + f` of node `n`:
  * `p3 x w` at `(n, h, f)` is `P n k`;
  * the score of node `n`, head `h` is the zero word plus `∑ f, p (n, h, f) · a (0, h, f)`;
  * the aggregated messages at `(n, h, f)` are the zero word plus the sum, over the edges whose target word reads `n`,
    of `p (clamped source row, h, f) · att (e, h)`;
  * the array handed to the final ELU at `(n, k)` is the aggregate plus the skip projection, both at `(n, h, f)`.
-/
import proofs.«148892_j57080115364429_2_alg».proof.Proof.RefChain
import proofs.«148892_j57080115364429_2_alg».proof.Proof.LibHeadMessages
import proofs.«148892_j57080115364429_2_alg».proof.Proof.LibPlainDot
import proofs.«148892_j57080115364429_2_alg».proof.Proof.LibIndexReads
import Idealize.ShloMosaic.Lib.IdealHost

noncomputable section

open scoped BigOperators

namespace Cert.ReferenceIdeal.RefRead

open Idealize.ShloMosaic Idealize.ShloMosaic.ValueIdx Cert.ReferenceIdeal Cert.ReferenceIdeal.Facts₀ Cert.ReferenceIdeal.RefChain
open Cert.Lib.RowOps Cert.Lib.SlabOps Cert.Lib.HeadLayout Cert.Lib.HeadMessages

/-- `p3 x w` at `(n, h, f)`: the product's entry `(n, 16 h + f)`. -/
theorem p3_apply (x : FVec Ideal S100000x128 .f32) (w : FVec Ideal S128x128 .f32)
    (n : Fin 100000) (h : Fin 8) (f : Fin 16) (k : Fin 128) (hk : k.val = h.val * 16 + f.val) :
    p3 (F := Ideal) x w (ix3 n h f) = ∑ j : Fin 128, x (ix2 n j) * w (ix2 j k) := by
  unfold p3
  rw [cast_flat_heads _ shapeCasts_S100000x128_S100000x8x16 (by norm_num) n h f k hk]
  exact Cert.PlainDot.dotGeneral_apply _ ⟨rfl, rfl, rfl, rfl, rfl, rfl⟩ none x w n k

/-- The score of node `n`, head `h`. -/
theorem score_apply (p : FVec Ideal S100000x8x16 .f32) (a : FVec Ideal S1x8x16 .f32) (n : Fin 100000) (h : Fin 8) :
    score (F := Ideal) p a (ix2 n h) = Ideal.ofBits .f32 0x00000000#32 + ∑ f : Fin 16, p (ix3 n h f) * a (ix3 0 h f) := by
  unfold score
  rw [Cert.Lib.IndexReads.hostReduceAdd_last3_apply _ _ reducesTo_S100000x8x16_S100000x8_d2 (by decide) h_S_ n h]
  refine congrArg₂ (· + ·) rfl (Finset.sum_congr rfl fun f _ => ?_)
  rw [mulf_apply, table_rows a bcast_S1x8x16_S100000x8x16_0_1_2 n h f]

/-- The aggregated messages at `(n, h, f)`. -/
theorem agg3_apply (p : FVec Ideal S100000x8x16 .f32) (a : FVec Ideal S1600000x8 .f32) (src tgt : IVec S1600000 32)
    (n : Fin 100000) (h : Fin 8) (f : Fin 16) :
    agg3 (F := Ideal) p a src tgt (ix3 n h f)
      = Ideal.ofBits .f32 0x00000000#32
        + ∑ e ∈ Finset.univ.filter (fun e : Fin 1600000 => ((rawCol (F := Ideal) tgt) (ix2 e 0)).toInt = (n.val : Int)),
            p (ix3 (clampSlab (by norm_num : 0 < 100000) (wrapCol (F := Ideal) src) e) h f) * a (ix2 e h) := by
  unfold agg3
  refine (head_messages_apply (by norm_num : 0 < 100000)
    scatter_S100000x8x16_S1600000x1_S1600000x8x16_12_0_0_1 scatter_S100000x8x16_S1600000x1_S1600000x8x16_12_0_0_1_wf rfl
    gather_S100000x8x16_S1600000x1_S1600000x8x16_12_0_n_n_0_1_1816 gather_S100000x8x16_S1600000x1_S1600000x8x16_12_0_n_n_0_1_1816_wf rfl
    bcast_S1600000x8_S1600000x8x1_0_1 bcast_S1600000x8x1_S1600000x8x16_0_1_2 _ p a _ _ n h f).trans ?_
  refine congrArg₂ (· + ·) ?_ rfl
  rw [broadcastInDim_scalar_apply]
  rfl

/-- The array handed to the final ELU at `(n, k)`, `k = 16 h + f`. -/
theorem preElu_apply (a0 : FVec Ideal S100000x128 .f32) (a1 : IVec S2x1600000 32) (a2 a3 : FVec Ideal S128x128 .f32)
    (a4 a5 : FVec Ideal S1x8x16 .f32) (n : Fin 100000) (h : Fin 8) (f : Fin 16) (k : Fin 128) (hk : k.val = h.val * 16 + f.val) :
    preElu (F := Ideal) a0 a1 a2 a3 a4 a5 (ix2 n k)
      = agg3 (F := Ideal) (p3 a0 a2) (att (score (p3 a0 a2) a4) (score (p3 a0 a2) a5) (row0 a1) (row1 a1)) (row0 a1) (row1 a1) (ix3 n h f)
        + p3 (F := Ideal) a0 a3 (ix3 n h f) := by
  unfold preElu
  rw [cast_heads_flat _ shapeCasts_S100000x8x16_S100000x128 (by norm_num) n h f k hk, addf_apply]

end Cert.ReferenceIdeal.RefRead

end
-- ==== Proof.EluSpec.lean ====
/-
  ELU with unit slope, read on ONE extended real.

  The finalize kernel ends with `select (z > 0) z (exp z − 1)`; the reference ends with the guarded form of the same activation,
  `select (z > 0) z (1 · expm1 (select (z > 0) 0 z))`. At the ideal instance a float is an extended
  real, the comparison is the linear order's, `exp ⊥ = 0`, `exp ⊤ = ⊤`, and `expm1 z` IS `exp z − 1`
  (at every extended real, the infinities included), so both expressions are one function of `z`:

      elu1 z  =  z            if 0 < z
                 exp z − 1    otherwise.

  `kernel_form` and `reference_form` say so for the two scalar expressions, written with the
  instance's own scalar functions, so that a vector operation read at an index (all by `rfl`)
  lands on their left-hand sides.
-/
import Idealize.ShloMosaic.PureOps.Ideal

noncomputable section

namespace Cert.EluSpec

open Idealize.ShloMosaic

/-- ELU with slope parameter 1 on one extended real: the argument where it is positive, `e^v − 1`
    elsewhere (`Ideal.exp`: the real exponential on the finite, `0` at `⊥`, `⊤` at `⊤`; so
    `elu1 ⊥ = -1` and `elu1 ⊤ = ⊤`). -/
def elu1 (v : EReal) : EReal := if 0 < v then v else Ideal.exp v - 1

/-- The f32 word of all zero bits denotes the extended real `0`. -/
theorem f32_zero : Ideal.ofBits .f32 0x00000000#32 = 0 := by simp [Ideal.ofBits, Ideal.ieee]

/-- The f32 word `0x3F800000` (sign 0, biased exponent 127, significand 0) denotes `1`. -/
theorem f32_one : Ideal.ofBits .f32 0x3F800000#32 = 1 := by
  rw [show (1 : EReal) = ((1 : ℝ) : EReal) by norm_cast]
  simp [Ideal.ofBits, Ideal.ieee, -EReal.coe_mul]; norm_num

/-- A select on the bit of the ordered comparison `v > 0` is the `if` on `0 < v`: the comparison answers
    the bit `1` exactly when `0 < v` holds in the linear order (nothing is unordered here). -/
theorem select_ogt_zero {α : Type} (v : EReal) (a b : α) :
    Scalar.select (Ideal.cmp .ogt v 0) a b = if 0 < v then a else b := by
  unfold Ideal.cmp Scalar.select
  by_cases h : 0 < v
  · simp [h]
  · simp [h]

/-- THE KERNEL'S FORM. `select (v > 0.0) v (exp v − 1.0)`, the constants given by their f32 words, is
    `elu1 v`: the two words are `0` and `1`, and the select on the comparison bit is the `if`. -/
theorem kernel_form (v : EReal) :
    Scalar.select (Ideal.cmp .ogt v (Ideal.ofBits .f32 0x00000000#32)) v
        (Ideal.exp v - Ideal.ofBits .f32 0x3F800000#32)
      = elu1 v := by
  rw [f32_zero, f32_one, select_ogt_zero]
  rfl

/-- THE REFERENCE'S FORM. The reference first replaces a positive argument by `0` (so that the exponential
    is never taken of a large positive number), takes `expm1` of that, multiplies by the slope `1.0`,
    and selects the argument itself where it is positive:
    `select (v > 0) v (1 · expm1 (select (v > 0) 0 v))`.
    Where `0 < v` the outer select answers `v` and the inner branch is not read; elsewhere the inner
    select answers `v`, `expm1 v = exp v − 1` by definition, and `1 · x = x` in the extended reals. -/
theorem reference_form (v : EReal) :
    Scalar.select (Ideal.cmp .ogt v (Ideal.ofBits .f32 0x00000000#32)) v
        (Ideal.ofBits .f32 0x3F800000#32
          * Ideal.hostUnary .expm1
              (Scalar.select (Ideal.cmp .ogt v (Ideal.ofBits .f32 0x00000000#32))
                (Ideal.ofBits .f32 0x00000000#32) v))
      = elu1 v := by
  rw [f32_zero, f32_one, select_ogt_zero, select_ogt_zero, one_mul]
  unfold elu1
  by_cases h : 0 < v
  · rw [if_pos h, if_pos h]
  · rw [if_neg h, if_neg h, if_neg h]
    rfl

end Cert.EluSpec

end
-- ==== Proof.RefElu.lean ====
/-
  THE REFERENCE'S LAST OPERATION, ELU, read at one index.

  The reference ends by calling its ELU function on the [100000, 128] array `z` of summed messages and
  skip values. That function, with its two calls of "where" inlined, computes:

      p   = z > 0                      (the comparison, against a broadcast 0.0)
      p'  = z > 0                      (the same comparison, computed a second time)
      s   = where p' then 0.0 else z   (the "safe" argument: never positive)
      e   = expm1 s
      y   = 1.0 · e                    (the slope)
      out = where p then z else y

  Every one of them is pointwise (a broadcast scalar reads the scalar everywhere), so `out` at an index
  `(n, l)` is the scalar expression `select (v > 0) v (1 · expm1 (select (v > 0) 0 v))` at `v = z (n, l)`,
  which is ELU with unit slope of `v` on every extended real (`Cert.EluSpec.reference_form`).
-/
import proofs.«148892_j57080115364429_2_alg».proof.ReferenceIdeal
import proofs.«148892_j57080115364429_2_alg».proof.Proof.EluSpec
import Idealize.ShloMosaic.Lib.ValueIdx
import Idealize.ShloMosaic.PureOps.Ideal

noncomputable section

namespace Cert.ReferenceIdeal.RefElu

open Cert.ReferenceIdeal Idealize.ShloMosaic Idealize.ShloMosaic.ValueIdx
open Cert.ReferenceIdeal.Facts₀ Cert.ReferenceIdeal.Facts

variable [Cert.ReferenceIdeal.Facts]

/-- The reference's ELU function as ONE array function of its argument: its operations composed in the
    printed order, each callee's operations in the place of its call. -/
def elu {F : FTy → Type} [FloatOps F] (z : (⟨S100000x128, .f32⟩ : BufTy).Contents (Elt F)) :
    (⟨S100000x128, .f32⟩ : BufTy).Contents (Elt F) :=
  -- the comparison z > 0.0 that the final select reads
  let cst : (⟨S_, .f32⟩ : BufTy).Contents (Elt F) := constant S_ .f32 0x00000000#32
  let v0 : (⟨S100000x128, .f32⟩ : BufTy).Contents (Elt F) := broadcastInDim S100000x128 ![] bcast_S_S100000x128 cst
  let v1 : (⟨S100000x128, .i1⟩ : BufTy).Contents (Elt F) := cmpf .ogt z v0
  -- the same comparison again, for the safe argument
  let cst_0 : (⟨S_, .f32⟩ : BufTy).Contents (Elt F) := constant S_ .f32 0x00000000#32
  let v2 : (⟨S100000x128, .f32⟩ : BufTy).Contents (Elt F) := broadcastInDim S100000x128 ![] bcast_S_S100000x128 cst_0
  let v3 : (⟨S100000x128, .i1⟩ : BufTy).Contents (Elt F) := cmpf .ogt z v2
  let cst_1 : (⟨S_, .f32⟩ : BufTy).Contents (Elt F) := constant S_ .f32 0x00000000#32
  -- first "where" (condition v3, scalar cst_1, array z): convert, broadcast, select
  let w0 : (⟨S_, .f32⟩ : BufTy).Contents (Elt F) := id cst_1
  let w1 : (⟨S100000x128, .f32⟩ : BufTy).Contents (Elt F) := broadcastInDim S100000x128 ![] bcast_S_S100000x128 w0
  let v4 : (⟨S100000x128, .f32⟩ : BufTy).Contents (Elt F) := select v3 w1 z
  -- expm1 of the safe argument, times the slope 1.0
  let v5 : (⟨S100000x128, .f32⟩ : BufTy).Contents (Elt F) := Host.expm1 v4
  let cst_2 : (⟨S_, .f32⟩ : BufTy).Contents (Elt F) := constant S_ .f32 0x3F800000#32
  let v6 : (⟨S100000x128, .f32⟩ : BufTy).Contents (Elt F) := broadcastInDim S100000x128 ![] bcast_S_S100000x128 cst_2
  let v7 : (⟨S100000x128, .f32⟩ : BufTy).Contents (Elt F) := mulf v6 v5
  -- second "where" (condition v1, arrays z and v7): select
  select v1 z v7

/-- ELU of the array at an index is ELU of the entry: every operation is pointwise and each broadcast
    scalar reads its constant, so the array expression at `(n, l)` is the scalar expression of
    `Cert.EluSpec.reference_form` at `z (n, l)`. -/
theorem elu_apply (z : (⟨S100000x128, .f32⟩ : BufTy).Contents (Elt Ideal)) (n : Fin 100000) (l : Fin 128) :
    elu (F := Ideal) z (ix2 n l) = Cert.EluSpec.elu1 (z (ix2 n l)) := by
  -- a scalar constant broadcast to the array reads its word at every index: the broadcast reads the
  -- scalar at its one index, and a constant holds the same word at whatever index it is read
  have broadcast_const : ∀ (b : BitVec 32) (j : S100000x128.Idx),
      broadcastInDim S100000x128 ![] bcast_S_S100000x128 (constant (F := Ideal) S_ .f32 b) j
        = Ideal.ofBits .f32 b := fun _ _ => rfl
  unfold elu
  -- the selects, the comparisons, the product and expm1 are pointwise: read each at `(n, l)`
  show Scalar.select
      (Ideal.cmp .ogt (z (ix2 n l))
        (broadcastInDim S100000x128 ![] bcast_S_S100000x128 (constant (F := Ideal) S_ .f32 0x00000000#32) (ix2 n l)))
      (z (ix2 n l))
      (broadcastInDim S100000x128 ![] bcast_S_S100000x128 (constant (F := Ideal) S_ .f32 0x3F800000#32) (ix2 n l)
        * Ideal.hostUnary .expm1
            (Scalar.select
              (Ideal.cmp .ogt (z (ix2 n l))
                (broadcastInDim S100000x128 ![] bcast_S_S100000x128 (constant (F := Ideal) S_ .f32 0x00000000#32) (ix2 n l)))
              (broadcastInDim S100000x128 ![] bcast_S_S100000x128 (constant (F := Ideal) S_ .f32 0x00000000#32) (ix2 n l))
              (z (ix2 n l))))
    = Cert.EluSpec.elu1 (z (ix2 n l))
  rw [broadcast_const, broadcast_const]
  exact Cert.EluSpec.reference_form (z (ix2 n l))

end Cert.ReferenceIdeal.RefElu

end
-- ==== Proof.GatSpec.lean ====
/-
  The layer's output entry, as one formula of the inputs.

  `x : [N, 128]` node features, `wp, ws : [128, 128]` the projection and skip weights. `proj x w n k` is entry
  `(n, k)` of `x · w`. A head `h` owns the 16 columns `16 h + f`; a node's score for head `h` against an attention
  vector `a` is `∑ f, proj x wp n (16 h + f) · a (0, h, f)` (`scoreArr`). Given the attention weights `A (e, h)`, the
  source column `scol` and target column `tcol` of index words, the output at node `n`, column `k` of head `h` is

      elu1 ( (z + ∑ over the edges e whose target word reads n of  proj x wp (clamped source row of e) k · A (e, h))
             + proj x ws n k ),

  `z` the value the sum starts from. Both programs compute this; they differ in where they keep heads and features.
-/
import proofs.«148892_j57080115364429_2_alg».proof.Proof.LibRowOps
import proofs.«148892_j57080115364429_2_alg».proof.Proof.EluSpec

noncomputable section

open scoped BigOperators

namespace Cert.GatSpec

open Idealize.ShloMosaic Idealize.ShloMosaic.ValueIdx Cert.Lib.RowOps

/-- Entry `(n, k)` of `x · w`. -/
def proj (x : (⟨2, ![100000, 128]⟩ : Shape).Idx → EReal) (w : (⟨2, ![128, 128]⟩ : Shape).Idx → EReal)
    (n : Fin 100000) (k : Fin 128) : EReal :=
  ∑ j : Fin 128, x (ix2 n j) * w (ix2 j k)

/-- The score of node `n`, head `h` against the attention vector `a`. -/
def headScore (x : (⟨2, ![100000, 128]⟩ : Shape).Idx → EReal) (w : (⟨2, ![128, 128]⟩ : Shape).Idx → EReal)
    (a : (⟨3, ![1, 8, 16]⟩ : Shape).Idx → EReal) (n : Fin 100000) (h : Fin 8) : EReal :=
  ∑ f : Fin 16, proj x w n ⟨16 * h.val + f.val, by omega⟩ * a (ix3 0 h f)

/-- The `[N, 8]` array of those scores. -/
def scoreArr (x : (⟨2, ![100000, 128]⟩ : Shape).Idx → EReal) (w : (⟨2, ![128, 128]⟩ : Shape).Idx → EReal)
    (a : (⟨3, ![1, 8, 16]⟩ : Shape).Idx → EReal) : (⟨2, ![100000, 8]⟩ : Shape).Idx → EReal :=
  fun i => headScore x w a ⟨(i 0).val, idx2_lt0 i⟩ ⟨(i 1).val, idx2_lt1 i⟩

theorem scoreArr_apply (x : (⟨2, ![100000, 128]⟩ : Shape).Idx → EReal) (w : (⟨2, ![128, 128]⟩ : Shape).Idx → EReal)
    (a : (⟨3, ![1, 8, 16]⟩ : Shape).Idx → EReal) (n : Fin 100000) (h : Fin 8) :
    scoreArr x w a (ix2 n h) = headScore x w a n h := rfl

/-- The output entry at node `n`, column `k` of head `h`. -/
def outAt (x : (⟨2, ![100000, 128]⟩ : Shape).Idx → EReal) (wp ws : (⟨2, ![128, 128]⟩ : Shape).Idx → EReal) (z : EReal)
    (A : (⟨2, ![1600000, 8]⟩ : Shape).Idx → EReal) (scol tcol : IVec ⟨2, ![1600000, 1]⟩ 32)
    (n : Fin 100000) (h : Fin 8) (k : Fin 128) : EReal :=
  Cert.EluSpec.elu1
    ((z + ∑ e ∈ Finset.univ.filter (fun e : Fin 1600000 => (tcol (ix2 e 0)).toInt = (n.val : Int)),
        proj x wp (clampRow (by norm_num : 0 < 100000) scol e) k * A (ix2 e h))
      + proj x ws n k)

end Cert.GatSpec

end
-- ==== Proof.RefValue.lean ====
/-
  The reference's output entry is the layer's formula.

  Read at node `n`, column `k = 16 h + f`: the reference's `[N, 8]` score arrays are `GatSpec.scoreArr` (the zero word
  the sum starts from is `0`), its projected features at `(n, h, f)` are `GatSpec.proj … n k`, its aggregate is the
  sum of the weighted messages entering `n`, and its final ELU is `elu1`; so the result is `GatSpec.outAt`.
-/
import proofs.«148892_j57080115364429_2_alg».proof.Proof.RefRead
import proofs.«148892_j57080115364429_2_alg».proof.Proof.RefElu
import proofs.«148892_j57080115364429_2_alg».proof.Proof.GatSpec

noncomputable section

open scoped BigOperators

namespace Cert.ReferenceIdeal.RefValue

open Idealize.ShloMosaic Idealize.ShloMosaic.ValueIdx Cert.ReferenceIdeal Cert.ReferenceIdeal.RefChain Cert.ReferenceIdeal.RefRead
open Cert.GatSpec Cert.Lib.RowOps Cert.Lib.SlabOps

/-- The reference's projected features at `(n, h, f)` are entry `(n, 16 h + f)` of the product. -/
theorem p3_proj (x : FVec Ideal S100000x128 .f32) (w : FVec Ideal S128x128 .f32)
    (n : Fin 100000) (h : Fin 8) (f : Fin 16) (k : Fin 128) (hk : k.val = h.val * 16 + f.val) :
    p3 (F := Ideal) x w (ix3 n h f) = proj x w n k :=
  p3_apply x w n h f k hk

/-- The reference's score array is the layer's. -/
theorem score_eq (x : FVec Ideal S100000x128 .f32) (w : FVec Ideal S128x128 .f32) (a : FVec Ideal S1x8x16 .f32) :
    score (F := Ideal) (p3 x w) a = scoreArr x w a := by
  funext i
  obtain ⟨n, h, rfl⟩ : ∃ (n : Fin 100000) (h : Fin 8), i = ix2 n h := ⟨i 0, i 1, eq_ix2 i⟩
  rw [score_apply, scoreArr_apply, Cert.EluSpec.f32_zero, zero_add]
  unfold headScore
  refine Finset.sum_congr rfl fun f _ => ?_
  rw [p3_proj x w n h f ⟨16 * h.val + f.val, by omega⟩ (by show 16 * h.val + f.val = h.val * 16 + f.val; omega)]

/-- What the reference hands to its ELU, at `(n, k)`. -/
theorem preElu_eq (a0 : FVec Ideal S100000x128 .f32) (a1 : IVec S2x1600000 32) (a2 a3 : FVec Ideal S128x128 .f32)
    (a4 a5 : FVec Ideal S1x8x16 .f32) (n : Fin 100000) (h : Fin 8) (f : Fin 16) (k : Fin 128) (hk : k.val = h.val * 16 + f.val) :
    preElu (F := Ideal) a0 a1 a2 a3 a4 a5 (ix2 n k)
      = (Ideal.ofBits .f32 0x00000000#32
          + ∑ e ∈ Finset.univ.filter (fun e : Fin 1600000 => ((rawCol (F := Ideal) (row1 a1)) (ix2 e 0)).toInt = (n.val : Int)),
              proj a0 a2 (clampRow (by norm_num : 0 < 100000) (wrapCol (F := Ideal) (row0 a1)) e) k
                * att (F := Ideal) (scoreArr a0 a2 a4) (scoreArr a0 a2 a5) (row0 a1) (row1 a1) (ix2 e h))
        + proj a0 a3 n k := by
  rw [preElu_apply a0 a1 a2 a3 a4 a5 n h f k hk, agg3_apply, p3_proj a0 a3 n h f k hk, score_eq, score_eq]
  refine congrArg₂ (· + ·) (congrArg₂ (· + ·) rfl (Finset.sum_congr rfl fun e _ => ?_)) rfl
  rw [p3_proj a0 a2 _ h f k hk]
  rfl

/-- The reference's result entry is the layer's formula. -/
theorem ref_out (a0 : FVec Ideal S100000x128 .f32) (a1 : IVec S2x1600000 32) (a2 a3 : FVec Ideal S128x128 .f32)
    (a4 a5 : FVec Ideal S1x8x16 .f32) (n : Fin 100000) (h : Fin 8) (f : Fin 16) (k : Fin 128) (hk : k.val = h.val * 16 + f.val) :
    Cert.ReferenceIdeal.RefElu.elu (F := Ideal) (preElu a0 a1 a2 a3 a4 a5) (ix2 n k)
      = outAt a0 a2 a3 (Ideal.ofBits .f32 0x00000000#32)
          (att (F := Ideal) (scoreArr a0 a2 a4) (scoreArr a0 a2 a5) (row0 a1) (row1 a1))
          (wrapCol (F := Ideal) (row0 a1)) (rawCol (F := Ideal) (row1 a1)) n h k := by
  rw [Cert.ReferenceIdeal.RefElu.elu_apply, preElu_eq a0 a1 a2 a3 a4 a5 n h f k hk]
  rfl

end Cert.ReferenceIdeal.RefValue

end
-- ==== Proof.Region0Pay.lean ====
import proofs.«148892_j57080115364429_2_alg».proof.Proof.Gen.KernelIdeal.Skeleton
import Idealize.ShloMosaic.Lib.ValueIdx
import Idealize.ShloMosaic.PureOps.Ideal.Laws
import Idealize.ShloMosaic.Lib.Pipeline.Value

/-!
# The projection kernel's three stored values, read at one element

At the ideal values a change of float format is the identity and a matrix product accumulated into a zero
splat is the plain sum of products over the contracted axis. So, on one block of 4000 rows `x`:

* the first stored value at row `r`, column `l` is `∑ k, x[r,k] * w[k,l]`;
* the second is the same sum with the other weight matrix;
* the third, at row `r` and head `j`, is `∑ l, (∑ k, x[r,k] * w[k,l]) * a[l,j]`: the first value's row `r`
  multiplied into the 128 × 16 matrix `a`.

Each product's contraction index is a one-axis index; the sum over it is re-indexed by its one coordinate
`k : Fin 128`, and the two operand indices at `(r, l)` and `k` are computed axis by axis: `(r, k)` on the left,
`(k, l)` on the right.
-/

noncomputable section

namespace Cert.KernelIdeal.Region0

open Cert.KernelIdeal Cert.KernelIdeal.Gen Idealize.ShloMosaic Idealize.ShloMosaic.ValueIdx

/-- The dimension numbers of the two 4000×128 by 128×128 products. -/
abbrev dotP := dot_S4000x128_S128x128_S4000x128_1_0_0_1_n_n
/-- The dimension numbers of the 4000×128 by 128×16 product. -/
abbrev dotS := dot_S4000x128_S128x16_S4000x16_1_0_0_1_n_n

/-! ## The operand indices of the products

Axis by axis: the row of the left operand is the output's row, its column the contraction's one coordinate; the row
of the right operand is the contraction's coordinate, its column the output's column. -/

theorem dotP_lhs_0 (i : S4000x128.Idx) (q : dotP.contr.Idx) : (dotP.lhsIdx i q 0).val = (i 0).val := by
  unfold DotDims.lhsIdx
  rw [dif_neg (show ¬(0 : Fin S4000x128.rank) ∈ dotP.lhsBatch by decide),
    dif_pos (show (0 : Fin S4000x128.rank) ∈ dotP.lhsNonContracting by decide)]
  rfl
theorem dotP_lhs_1 (i : S4000x128.Idx) (q : dotP.contr.Idx) : (dotP.lhsIdx i q 1).val = (q ⟨0, by decide⟩).val :=
  dotP.lhsIdx_val_of_single rfl i q
theorem dotP_rhs_0 (i : S4000x128.Idx) (q : dotP.contr.Idx) : (dotP.rhsIdx i q 0).val = (q ⟨0, by decide⟩).val :=
  dotP.rhsIdx_val_of_single rfl i q
theorem dotP_rhs_1 (i : S4000x128.Idx) (q : dotP.contr.Idx) : (dotP.rhsIdx i q 1).val = (i 1).val := by
  unfold DotDims.rhsIdx
  rw [dif_neg (show ¬(1 : Fin S128x128.rank) ∈ dotP.rhsBatch by decide),
    dif_pos (show (1 : Fin S128x128.rank) ∈ dotP.rhsNonContracting by decide)]
  rfl

theorem dotS_lhs_0 (i : S4000x16.Idx) (q : dotS.contr.Idx) : (dotS.lhsIdx i q 0).val = (i 0).val := by
  unfold DotDims.lhsIdx
  rw [dif_neg (show ¬(0 : Fin S4000x128.rank) ∈ dotS.lhsBatch by decide),
    dif_pos (show (0 : Fin S4000x128.rank) ∈ dotS.lhsNonContracting by decide)]
  rfl
theorem dotS_lhs_1 (i : S4000x16.Idx) (q : dotS.contr.Idx) : (dotS.lhsIdx i q 1).val = (q ⟨0, by decide⟩).val :=
  dotS.lhsIdx_val_of_single rfl i q
theorem dotS_rhs_0 (i : S4000x16.Idx) (q : dotS.contr.Idx) : (dotS.rhsIdx i q 0).val = (q ⟨0, by decide⟩).val :=
  dotS.rhsIdx_val_of_single rfl i q
theorem dotS_rhs_1 (i : S4000x16.Idx) (q : dotS.contr.Idx) : (dotS.rhsIdx i q 1).val = (i 1).val := by
  unfold DotDims.rhsIdx
  rw [dif_neg (show ¬(1 : Fin S128x16.rank) ∈ dotS.rhsBatch by decide),
    dif_pos (show (1 : Fin S128x16.rank) ∈ dotS.rhsNonContracting by decide)]
  rfl

/-- The left operand of a 4000×128 by 128×128 product, at output `(r, l)` and contraction coordinate `k`, is read at `(r, k)`. -/
theorem dotP_lhsIdx (r : Fin 4000) (l : Fin 128) (k : Fin 128) :
    dotP.lhsIdx (ix2 r l) ((contrEquiv1 dotP 128 rfl rfl).symm k) = ix2 r k := by
  have hk := contrEquiv1_symm_val dotP 128 rfl rfl k
  funext a
  apply Fin.ext
  match a with
  | ⟨0, _⟩ => exact dotP_lhs_0 _ _
  | ⟨1, _⟩ => exact (dotP_lhs_1 _ _).trans hk

/-- The right operand, at the same position, is read at `(k, l)`. -/
theorem dotP_rhsIdx (r : Fin 4000) (l : Fin 128) (k : Fin 128) :
    dotP.rhsIdx (ix2 r l) ((contrEquiv1 dotP 128 rfl rfl).symm k) = ix2 k l := by
  have hk := contrEquiv1_symm_val dotP 128 rfl rfl k
  funext a
  apply Fin.ext
  match a with
  | ⟨0, _⟩ => exact (dotP_rhs_0 _ _).trans hk
  | ⟨1, _⟩ => exact dotP_rhs_1 _ _

/-- The left operand of the 4000×128 by 128×16 product, at output `(r, j)` and contraction coordinate `l`, is read at `(r, l)`. -/
theorem dotS_lhsIdx (r : Fin 4000) (j : Fin 16) (l : Fin 128) :
    dotS.lhsIdx (ix2 r j) ((contrEquiv1 dotS 128 rfl rfl).symm l) = ix2 r l := by
  have hl := contrEquiv1_symm_val dotS 128 rfl rfl l
  funext a
  apply Fin.ext
  match a with
  | ⟨0, _⟩ => exact dotS_lhs_0 _ _
  | ⟨1, _⟩ => exact (dotS_lhs_1 _ _).trans hl

/-- The right operand, at the same position, is read at `(l, j)`. -/
theorem dotS_rhsIdx (r : Fin 4000) (j : Fin 16) (l : Fin 128) :
    dotS.rhsIdx (ix2 r j) ((contrEquiv1 dotS 128 rfl rfl).symm l) = ix2 l j := by
  have hl := contrEquiv1_symm_val dotS 128 rfl rfl l
  funext a
  apply Fin.ext
  match a with
  | ⟨0, _⟩ => exact (dotS_rhs_0 _ _).trans hl
  | ⟨1, _⟩ => exact dotS_rhs_1 _ _

/-! ## A product into a zero accumulator, at an element -/

/-- A 4000×128 by 128×128 product into the zero splat, at `(r, l)`: the sum over `k` of `x[r,k] * w[k,l]`. -/
theorem matmulP_apply {φ₁ φ₂ : FTy} (prec : Option ContractPrecision) (x : FVec Ideal S4000x128 φ₁) (w : FVec Ideal S128x128 φ₂)
    (r : Fin 4000) (l : Fin 128) :
    matmul dotP prec x w (constant (F := Ideal) S4000x128 .f32 0x00000000#32) (ix2 r l)
      = ∑ k : Fin 128, x (ix2 r k) * w (ix2 k l) := by
  refine (Ideal.matmul_constant_zero_apply dotP prec x w (ix2 r l)).trans ?_
  rw [← Equiv.sum_comp (contrEquiv1 dotP 128 rfl rfl).symm]
  refine Finset.sum_congr rfl fun k _ => ?_
  rw [dotP_lhsIdx, dotP_rhsIdx]

/-- A 4000×128 by 128×16 product into the zero splat, at `(r, j)`: the sum over `l` of `p[r,l] * a[l,j]`. -/
theorem matmulS_apply {φ₁ φ₂ : FTy} (prec : Option ContractPrecision) (p : FVec Ideal S4000x128 φ₁) (a : FVec Ideal S128x16 φ₂)
    (r : Fin 4000) (j : Fin 16) :
    matmul dotS prec p a (constant (F := Ideal) S4000x16 .f32 0x00000000#32) (ix2 r j)
      = ∑ l : Fin 128, p (ix2 r l) * a (ix2 l j) := by
  refine (Ideal.matmul_constant_zero_apply dotS prec p a (ix2 r j)).trans ?_
  rw [← Equiv.sum_comp (contrEquiv1 dotS 128 rfl rfl).symm]
  refine Finset.sum_congr rfl fun l _ => ?_
  rw [dotS_lhsIdx, dotS_rhsIdx]

/-! ## The three stored values -/

/-- The first stored value at `(r, l)`: rounding both operands to bf16 is the identity at the ideal values, and the
    product accumulates into zero. -/
theorem pay2_apply (x : Vec Ideal S4000x128 .f32) (w : Vec Ideal S128x128 .f32) (r : Fin 4000) (l : Fin 128) :
    k0_pay2 x w (ix2 r l) = ∑ k : Fin 128, x (ix2 r k) * w (ix2 k l) :=
  matmulP_apply none (k0_pay1 x) (truncf .bf16 w bitsLt_bf16_f32) r l

/-- The second stored value is the same product with the other weight matrix. -/
theorem pay3_apply (x : Vec Ideal S4000x128 .f32) (w : Vec Ideal S128x128 .f32) (r : Fin 4000) (l : Fin 128) :
    k0_pay3 x w (ix2 r l) = ∑ k : Fin 128, x (ix2 r k) * w (ix2 k l) :=
  matmulP_apply none (k0_pay1 x) (truncf .bf16 w bitsLt_bf16_f32) r l

/-- The third stored value at `(r, j)`: the first value's row `r` multiplied into `a` (the shape cast is between equal
    shapes, the identity). -/
theorem pay4_apply (x : Vec Ideal S4000x128 .f32) (w : Vec Ideal S128x128 .f32) (a : Vec Ideal S128x16 .f32) (r : Fin 4000) (j : Fin 16) :
    k0_pay4 x w a (ix2 r j) = ∑ l : Fin 128, (∑ k : Fin 128, x (ix2 r k) * w (ix2 k l)) * a (ix2 l j) := by
  refine (matmulS_apply (some .fp32) (k0_pay2 x w) (shapeCast S128x16 a shapeCasts_S128x16_S128x16) r j).trans ?_
  refine Finset.sum_congr rfl fun l _ => ?_
  rw [pay2_apply, shapeCast_self]

/-! ## The three output arrays as functions of the argument arrays -/

/-- Every row of the 100000 × 128 array `x` multiplied into the 128 × 128 matrix `w`. -/
def proj (x : S100000x128.Idx → EReal) (w : S128x128.Idx → EReal) : S100000x128.Idx → EReal :=
  fun i => ∑ k : Fin 128, x (ix2 (n0 := 100000) (i 0) k) * w (ix2 k (n1 := 128) (i 1))

theorem proj_apply (x : S100000x128.Idx → EReal) (w : S128x128.Idx → EReal) (n : Fin 100000) (l : Fin 128) :
    proj x w (ix2 n l) = ∑ k : Fin 128, x (ix2 n k) * w (ix2 k l) := rfl

/-- Every projected row multiplied into the 128 × 16 matrix `a`: one score per row and head. -/
def scores (x : S100000x128.Idx → EReal) (w : S128x128.Idx → EReal) (a : S128x16.Idx → EReal) : S100000x16.Idx → EReal :=
  fun i => ∑ l : Fin 128, (∑ k : Fin 128, x (ix2 (n0 := 100000) (i 0) k) * w (ix2 k l)) * a (ix2 l (n1 := 16) (i 1))

theorem scores_apply (x : S100000x128.Idx → EReal) (w : S128x128.Idx → EReal) (a : S128x16.Idx → EReal) (n : Fin 100000) (j : Fin 16) :
    scores x w a (ix2 n j) = ∑ l : Fin 128, (∑ k : Fin 128, x (ix2 n k) * w (ix2 k l)) * a (ix2 l j) := rfl

end Cert.KernelIdeal.Region0

end
-- ==== Proof.Region0.lean ====
import proofs.«148892_j57080115364429_2_alg».proof.Proof.Gen.KernelIdeal.Frame
import proofs.«148892_j57080115364429_2_alg».proof.Proof.Region0Pay
import Idealize.ShloMosaic.Lib.Pipeline.Value

/-!
# The projection kernel's three output arrays, whole

The grid has 25 points. Point `t` reads rows `4000 t … 4000 t + 3999` of `x` and the three small matrices whole, and
writes back rows `4000 t … 4000 t + 3999` of each output. What it writes at row `r` of its block is a function of
row `r` of its block of `x` alone (a product of that row with the small matrices), so it is the block of ONE
function of the whole arrays: `proj x w` for the two projections, `scores x w a` for the scores. The 25 blocks of
4000 rows cover all 100000 rows (row `n` is in block `n / 4000`), so after the last point each output array is
that function, whatever it held before.
-/

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## Where each window's block sits -/

theorem offsets_zero : (![0, 0] : Fin 2 → Nat) = fun _ => 0 := funext fun a => by fin_cases a <;> rfl

/-- The printed index maps, decided over the 25 grid points: the row-blocked windows (`x` and the three outputs) are at
    block `t` along the rows and block 0 along the columns; the three small matrices are at block 0 on both axes. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A grid point is below 25. -/
theorem point_lt (t : Fin cfg0.N) : t.val < 25 := lt_of_lt_of_eq t.isLt N_0

/-! ## The input blocks, read as elements of the arrays -/

/-- Element `(r, k)` of point `t`'s block of `x` is `x` at row `4000 t + r`. -/
theorem x_block (c : Dev nD) (t : Fin cfg0.N) (r : Fin 4000) (k : Fin 128) (n : Fin 100000) (hn : n.val = t.val * 4000 + r.val) :
    iblk0 V c 0 t (ix2 r k) = V c main_arg0 (ix2 n k) := by
  obtain ⟨e0, e1, -⟩ := block_indices t
  show V c main_arg0 (((cfg0.win 0).blk t).view.emb (ix2 r k)) = V c main_arg0 (ix2 n k)
  refine congrArg (V c main_arg0) (funext fun a => Fin.ext ?_)
  match a with
  | ⟨0, _⟩ => show win0_0.index t (0 : Fin 2) * 4000 + 1 * r.val = n.val; omega
  | ⟨1, _⟩ => show win0_0.index t (1 : Fin 2) * 128 + 1 * k.val = k.val; omega

/-- The first weight matrix is staged whole at every point. -/
theorem w_proj_block (c : Dev nD) (t : Fin cfg0.N) (k : Fin 128) (l : Fin 128) :
    iblk0 V c 1 t (ix2 k l) = V c main_arg2 (ix2 k l) := by
  obtain ⟨-, -, e0, e1, -⟩ := block_indices t
  show V c main_arg2 (((cfg0.win 1).blk t).view.emb (ix2 k l)) = V c main_arg2 (ix2 k l)
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * l.val = l.val; omega

/-- So is the second weight matrix. -/
theorem w_skip_block (c : Dev nD) (t : Fin cfg0.N) (k : Fin 128) (l : Fin 128) :
    iblk0 V c 2 t (ix2 k l) = V c main_arg3 (ix2 k l) := by
  obtain ⟨-, -, -, -, e0, e1, -⟩ := block_indices t
  show V c main_arg3 (((cfg0.win 2).blk t).view.emb (ix2 k l)) = V c main_arg3 (ix2 k l)
  refine congrArg (V c main_arg3) (funext fun a => Fin.ext ?_)
  match a with
  | ⟨0, _⟩ => show win0_2.index t (0 : Fin 2) * 128 + 1 * k.val = k.val; omega
  | ⟨1, _⟩ => show win0_2.index t (1 : Fin 2) * 128 + 1 * l.val = l.val; omega

/-- So is the 128 × 16 matrix of the scores. -/
theorem a_block (c : Dev nD) (t : Fin cfg0.N) (l : Fin 128) (j : Fin 16) :
    iblk0 V c 3 t (ix2 l j) = V c main_v11 (ix2 l j) := by
  obtain ⟨-, -, -, -, -, -, e0, e1, -⟩ := block_indices t
  show V c main_v11 (((cfg0.win 3).blk t).view.emb (ix2 l j)) = V c main_v11 (ix2 l j)
  refine congrArg (V c main_v11) (funext fun a => Fin.ext ?_)
  match a with
  | ⟨0, _⟩ => show win0_3.index t (0 : Fin 2) * 128 + 1 * l.val = l.val; omega
  | ⟨1, _⟩ => show win0_3.index t (1 : Fin 2) * 16 + 1 * j.val = j.val; omega

/-! ## Where an element of an output block sits in its array -/

theorem p_block_emb (t : Fin cfg0.N) (r : Fin 4000) (l : Fin 128) (n : Fin 100000) (hn : n.val = t.val * 4000 + r.val) :
    ((cfg0.win 4).blk t).view.emb (ix2 r l) = ix2 n l := by
  obtain ⟨-, -, -, -, -, -, -, -, e0, e1, -⟩ := block_indices t
  funext a
  apply Fin.ext
  match a with
  | ⟨0, _⟩ => show win0_4.index t (0 : Fin 2) * 4000 + 1 * r.val = n.val; omega
  | ⟨1, _⟩ => show win0_4.index t (1 : Fin 2) * 128 + 1 * l.val = l.val; omega

theorem skip_block_emb (t : Fin cfg0.N) (r : Fin 4000) (l : Fin 128) (n : Fin 100000) (hn : n.val = t.val * 4000 + r.val) :
    ((cfg0.win 5).blk t).view.emb (ix2 r l) = ix2 n l := by
  obtain ⟨-, -, -, -, -, -, -, -, -, -, e0, e1, -⟩ := block_indices t
  funext a
  apply Fin.ext
  match a with
  | ⟨0, _⟩ => show win0_5.index t (0 : Fin 2) * 4000 + 1 * r.val = n.val; omega
  | ⟨1, _⟩ => show win0_5.index t (1 : Fin 2) * 128 + 1 * l.val = l.val; omega

theorem scores_block_emb (t : Fin cfg0.N) (r : Fin 4000) (j : Fin 16) (n : Fin 100000) (hn : n.val = t.val * 4000 + r.val) :
    ((cfg0.win 6).blk t).view.emb (ix2 r j) = ix2 n j := by
  obtain ⟨-, -, -, -, -, -, -, -, -, -, -, -, e0, e1⟩ := block_indices t
  funext a
  apply Fin.ext
  match a with
  | ⟨0, _⟩ => show win0_6.index t (0 : Fin 2) * 4000 + 1 * r.val = n.val; omega
  | ⟨1, _⟩ => show win0_6.index t (1 : Fin 2) * 16 + 1 * j.val = j.val; omega

/-! ## What a point stores is its block of the whole-array function -/

/-- One element of the first output's block at point `t`. -/
theorem p_elt (c : Dev nD) (t : Fin cfg0.N) (j : S4000x128.Idx) :
    k0_pay2 (iblk0 V c 0 t) (iblk0 V c 1 t) j
      = proj (V c main_arg0) (V c main_arg2) (((cfg0.win 4).blk t).view.emb j) := by
  obtain ⟨r, l, rfl⟩ : ∃ (r : Fin 4000) (l : Fin 128), j = ix2 r l := ⟨j 0, j 1, eq_ix2 j⟩
  have ht := point_lt t
  have hn : t.val * 4000 + r.val < 100000 := by have := r.isLt; omega
  rw [p_block_emb t r l ⟨t.val * 4000 + r.val, hn⟩ rfl, proj_apply]
  refine (pay2_apply (iblk0 V c 0 t) (iblk0 V c 1 t) r l).trans ?_
  refine Finset.sum_congr rfl fun k _ => ?_
  rw [x_block V c t r k ⟨t.val * 4000 + r.val, hn⟩ rfl, w_proj_block V c t k l]

/-- One element of the second output's block: the same with the other weight matrix. -/
theorem skip_elt (c : Dev nD) (t : Fin cfg0.N) (j : S4000x128.Idx) :
    k0_pay3 (iblk0 V c 0 t) (iblk0 V c 2 t) j
      = proj (V c main_arg0) (V c main_arg3) (((cfg0.win 5).blk t).view.emb j) := by
  obtain ⟨r, l, rfl⟩ : ∃ (r : Fin 4000) (l : Fin 128), j = ix2 r l := ⟨j 0, j 1, eq_ix2 j⟩
  have ht := point_lt t
  have hn : t.val * 4000 + r.val < 100000 := by have := r.isLt; omega
  rw [skip_block_emb t r l ⟨t.val * 4000 + r.val, hn⟩ rfl, proj_apply]
  refine (pay3_apply (iblk0 V c 0 t) (iblk0 V c 2 t) r l).trans ?_
  refine Finset.sum_congr rfl fun k _ => ?_
  rw [x_block V c t r k ⟨t.val * 4000 + r.val, hn⟩ rfl, w_skip_block V c t k l]

/-- One element of the scores' block. -/
theorem scores_elt (c : Dev nD) (t : Fin cfg0.N) (j : S4000x16.Idx) :
    k0_pay4 (iblk0 V c 0 t) (iblk0 V c 1 t) (iblk0 V c 3 t) j
      = scores (V c main_arg0) (V c main_arg2) (V c main_v11) (((cfg0.win 6).blk t).view.emb j) := by
  obtain ⟨r, h, rfl⟩ : ∃ (r : Fin 4000) (h : Fin 16), j = ix2 r h := ⟨j 0, j 1, eq_ix2 j⟩
  have ht := point_lt t
  have hn : t.val * 4000 + r.val < 100000 := by have := r.isLt; omega
  rw [scores_block_emb t r h ⟨t.val * 4000 + r.val, hn⟩ rfl, scores_apply]
  refine (pay4_apply (iblk0 V c 0 t) (iblk0 V c 1 t) (iblk0 V c 3 t) r h).trans ?_
  refine Finset.sum_congr rfl fun l _ => ?_
  rw [a_block V c t l h]
  refine congrArg (· * V c main_v11 (ix2 l h)) (Finset.sum_congr rfl fun k _ => ?_)
  rw [x_block V c t r k ⟨t.val * 4000 + r.val, hn⟩ rfl, w_proj_block V c t k l]

/-- WHAT POINT `t` WRITES BACK to the first output is block `t` of `proj x w_proj`. -/
theorem flushed_p (c : Dev nD) (t : Fin cfg0.N) :
    (dat0 (F := Ideal) V c).flushed 4 t
      = ((cfg0.win 4).blk t).view.read (Elt Ideal) (proj (V c main_arg0) (V c main_arg2)) := by
  show (cfg0.win 4).cut (grid0.coords t) ((dat0 V c).after 4 t) = _
  rw [after0_4]
  unfold out0_4
  rw [View.canon_unit_zero offsets_zero]
  simp only [View.ld_unit_zero (S := S4000x128) offsets_zero, View.ld_unit_zero (S := S128x128) offsets_zero]
  funext j
  exact p_elt V c t j

/-- To the second output, block `t` of `proj x w_skip`. -/
theorem flushed_skip (c : Dev nD) (t : Fin cfg0.N) :
    (dat0 (F := Ideal) V c).flushed 5 t
      = ((cfg0.win 5).blk t).view.read (Elt Ideal) (proj (V c main_arg0) (V c main_arg3)) := by
  show (cfg0.win 5).cut (grid0.coords t) ((dat0 V c).after 5 t) = _
  rw [after0_5]
  unfold out0_5
  rw [View.canon_unit_zero offsets_zero]
  simp only [View.ld_unit_zero (S := S4000x128) offsets_zero, View.ld_unit_zero (S := S128x128) offsets_zero]
  funext j
  exact skip_elt V c t j

/-- To the third output, block `t` of `scores x w_proj a`. -/
theorem flushed_scores (c : Dev nD) (t : Fin cfg0.N) :
    (dat0 (F := Ideal) V c).flushed 6 t
      = ((cfg0.win 6).blk t).view.read (Elt Ideal) (scores (V c main_arg0) (V c main_arg2) (V c main_v11)) := by
  show (cfg0.win 6).cut (grid0.coords t) ((dat0 V c).after 6 t) = _
  rw [after0_6]
  unfold out0_6
  rw [View.canon_unit_zero offsets_zero]
  simp only [View.ld_unit_zero (S := S4000x128) offsets_zero, View.ld_unit_zero (S := S128x128) offsets_zero,
    View.ld_unit_zero (S := S128x16) offsets_zero]
  funext j
  exact scores_elt V c t j

/-! ## The 25 blocks of 4000 rows cover each output array -/

/-- An index of the first output is in point `t`'s block iff each coordinate is in the block's range on its axis. -/
theorem mem_p_block (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v12_0).slice (win0_4.rect t)).set ↔ _
  rw [View.set_slice_whole, Rect.mem_set_unit]
  exact Iff.rfl

theorem mem_skip_block (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v12_1).slice (win0_5.rect t)).set ↔ _
  rw [View.set_slice_whole, Rect.mem_set_unit]
  exact Iff.rfl

theorem mem_scores_block (t : Fin cfg0.N) (i : S100000x16.Idx) :
    i ∈ ((cfg0.win 6).blk t).view.set ↔ ∀ a : Fin 2, win0_6.index t a * S4000x16.size a ≤ (i a).val ∧ (i a).val < win0_6.index t a * S4000x16.size a + S4000x16.size a := by
  show i ∈ ((View.whole main_v12_2).slice (win0_6.rect t)).set ↔ _
  rw [View.set_slice_whole, Rect.mem_set_unit]
  exact Iff.rfl

/-- The point whose block holds row `n`: `n / 4000`. -/
def pointOf (n : Nat) (hn : n < 100000) : Fin cfg0.N := ⟨n / 4000, lt_of_lt_of_eq (show n / 4000 < 25 by omega) N_0.symm⟩

theorem pointOf_val (n : Nat) (hn : n < 100000) : (pointOf n hn).val = n / 4000 := rfl

theorem cover_p (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  refine ⟨pointOf (i 0).val hi0, flush0_4 _, ?_⟩
  rw [mem_p_block]
  obtain ⟨-, -, -, -, -, -, -, -, e0, e1, -⟩ := block_indices (pointOf (i 0).val hi0)
  have hv := pointOf_val (i 0).val hi0
  intro a
  match a with
  | ⟨0, _⟩ =>
    show win0_4.index (pointOf (i 0).val hi0) (0 : Fin 2) * 4000 ≤ (i 0).val ∧ (i 0).val < win0_4.index (pointOf (i 0).val hi0) (0 : Fin 2) * 4000 + 4000
    omega
  | ⟨1, _⟩ =>
    show win0_4.index (pointOf (i 0).val hi0) (1 : Fin 2) * 128 ≤ (i 1).val ∧ (i 1).val < win0_4.index (pointOf (i 0).val hi0) (1 : Fin 2) * 128 + 128
    omega

theorem cover_skip (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  refine ⟨pointOf (i 0).val hi0, flush0_5 _, ?_⟩
  rw [mem_skip_block]
  obtain ⟨-, -, -, -, -, -, -, -, -, -, e0, e1, -⟩ := block_indices (pointOf (i 0).val hi0)
  have hv := pointOf_val (i 0).val hi0
  intro a
  match a with
  | ⟨0, _⟩ =>
    show win0_5.index (pointOf (i 0).val hi0) (0 : Fin 2) * 4000 ≤ (i 0).val ∧ (i 0).val < win0_5.index (pointOf (i 0).val hi0) (0 : Fin 2) * 4000 + 4000
    omega
  | ⟨1, _⟩ =>
    show win0_5.index (pointOf (i 0).val hi0) (1 : Fin 2) * 128 ≤ (i 1).val ∧ (i 1).val < win0_5.index (pointOf (i 0).val hi0) (1 : Fin 2) * 128 + 128
    omega

theorem cover_scores (i : S100000x16.Idx) :
    ∃ t : Fin cfg0.N, (cfg0.win 6).flush t = true ∧ i ∈ ((cfg0.win 6).blk t).view.set := by
  have hi0 : (i 0).val < 100000 := (i 0).isLt
  have hi1 : (i 1).val < 16 := (i 1).isLt
  refine ⟨pointOf (i 0).val hi0, flush0_6 _, ?_⟩
  rw [mem_scores_block]
  obtain ⟨-, -, -, -, -, -, -, -, -, -, -, -, e0, e1⟩ := block_indices (pointOf (i 0).val hi0)
  have hv := pointOf_val (i 0).val hi0
  intro a
  match a with
  | ⟨0, _⟩ =>
    show win0_6.index (pointOf (i 0).val hi0) (0 : Fin 2) * 4000 ≤ (i 0).val ∧ (i 0).val < win0_6.index (pointOf (i 0).val hi0) (0 : Fin 2) * 4000 + 4000
    omega
  | ⟨1, _⟩ =>
    show win0_6.index (pointOf (i 0).val hi0) (1 : Fin 2) * 16 ≤ (i 1).val ∧ (i 1).val < win0_6.index (pointOf (i 0).val hi0) (1 : Fin 2) * 16 + 16
    omega

/-! ## The arrays after the last point -/

/-- THE FIRST OUTPUT after the region: every row of `x` multiplied into the first weight matrix. -/
theorem final_p_eq (c : Dev nD) :
    (dat0 (F := Ideal) V c).arrAt 4 cfg0.N = proj (V c main_arg0) (V c main_arg2) :=
  (dat0 V c).arrAt_eq_of_cover 4 (proj (V c main_arg0) (V c main_arg2)) (fun t _ => flushed_p V c t) cover_p

/-- THE SECOND OUTPUT: every row of `x` multiplied into the second weight matrix. -/
theorem final_skip_eq (c : Dev nD) :
    (dat0 (F := Ideal) V c).arrAt 5 cfg0.N = proj (V c main_arg0) (V c main_arg3) :=
  (dat0 V c).arrAt_eq_of_cover 5 (proj (V c main_arg0) (V c main_arg3)) (fun t _ => flushed_skip V c t) cover_skip

/-- THE THIRD OUTPUT: every projected row multiplied into the 128 × 16 matrix. -/
theorem final_scores_eq (c : Dev nD) :
    (dat0 (F := Ideal) V c).arrAt 6 cfg0.N = scores (V c main_arg0) (V c main_arg2) (V c main_v11) :=
  (dat0 V c).arrAt_eq_of_cover 6 (scores (V c main_arg0) (V c main_arg2) (V c main_v11)) (fun t _ => flushed_scores V c t) cover_scores

/-- The same, element by element. -/
theorem final_p (c : Dev nD) (n : Fin 100000) (l : Fin 128) :
    (dat0 (F := Ideal) V c).arrAt 4 cfg0.N (ix2 n l) = proj (V c main_arg0) (V c main_arg2) (ix2 n l) :=
  congrFun (final_p_eq V c) (ix2 n l)

theorem final_skip (c : Dev nD) (n : Fin 100000) (l : Fin 128) :
    (dat0 (F := Ideal) V c).arrAt 5 cfg0.N (ix2 n l) = proj (V c main_arg0) (V c main_arg3) (ix2 n l) :=
  congrFun (final_skip_eq V c) (ix2 n l)

theorem final_scores (c : Dev nD) (n : Fin 100000) (j : Fin 16) :
    (dat0 (F := Ideal) V c).arrAt 6 cfg0.N (ix2 n j) = scores (V c main_arg0) (V c main_arg2) (V c main_v11) (ix2 n j) :=
  congrFun (final_scores_eq V c) (ix2 n j)

end Cert.KernelIdeal.Region0

end
-- ==== Proof.Region1.lean ====
/-
  REGION 1, the finalize kernel: the output array after the region, entry by entry.

  The region walks 20 grid points. At point `t` it stages rows `5000 t … 5000 t + 4999` (all 128 lanes) of
  the aggregated-message array and of the skip array, and writes back the same rows of the output array.
  The body is POINTWISE: at every index `j` of the block it adds the two staged entries and applies ELU
  with unit slope, `select (z > 0) z (exp z − 1)`. Hence what point `t` writes back is block `t` of ONE
  whole-array function of the two input arrays,

      out i = elu1 (agg i + skip i),

  and since the 20 blocks tile all 100000 rows, the output array ends holding exactly that function.
  The input arrays are read as the region finds them (the parameter `V`).
-/
import proofs.«148892_j57080115364429_2_alg».proof.Proof.Gen.KernelIdeal.Frame
import proofs.«148892_j57080115364429_2_alg».proof.Proof.EluSpec
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-! ## The body at one index of a block -/

/-- The body's payload at an index of the block: the two staged entries are added and ELU is applied to
    the sum. The two same-shape `shape_cast`s are the identity; every other operation of the payload is
    pointwise, so reading it at `j` reads each operand at `j`, and what is left is the scalar expression
    `select (z > 0.0) z (exp z − 1.0)` at `z = x0 j + x1 j`. -/
theorem payload_apply (x0 x1 : Vec Ideal S5000x128 .f32) (j : S5000x128.Idx) :
    k1_pay1 (F := Ideal) x0 x1 j = Cert.EluSpec.elu1 ((x0 j : EReal) + (x1 j : EReal)) := by
  unfold k1_pay1
  rw [shapeCast_self, shapeCast_self]
  exact Cert.EluSpec.kernel_form ((x0 j : EReal) + (x1 j : EReal))

/-! ## From the blocks to the array -/

-- the buffer contents when the region is entered
variable (V : (c : Dev nD) → (b : Ref sig .tc) → Buf (Elt Ideal) ((c : Thread nD τ).loc b))

/-- The body loads and stores whole blocks: the offsets `[0, 0]` are the zero offsets. -/
theorem zero_offsets : (![0, 0] : Fin 2 → Nat) = fun _ => 0 := funext fun a => by fin_cases a <;> rfl

/-- What the output array ends holding: ELU of the entrywise sum of the two input arrays. -/
abbrev eluSum (a b : S100000x128.Idx → EReal) : S100000x128.Idx → EReal :=
  fun i => Cert.EluSpec.elu1 (a i + b i)

/-- The three index maps, decided over the 20 grid points: each window's block at point `t` is block
    `(t, 0)` of its array — the three windows move together. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of `eluSum` of the two input arrays as the region finds them:
    the one store covers the staging buffer, so the buffer holds the payload; the payload at `j` is ELU of the
    sum of the two input blocks at `j`; and an input block's entry `j` is its array's entry at the same
    array index as the output block's entry `j`, because the three blocks sit at the same block index. -/
theorem flushed_eq (c : Dev nD) (t : Fin cfg1.N) :
    (dat1 V c).flushed 2 t
      = ((cfg1.win 2).blk t).view.read (Elt Ideal) (eluSum (V c main_v66) (V c main_v12_1)) := by
  show (cfg1.win 2).cut (grid1.coords t) ((dat1 V c).after 2 t) = _
  rw [after1_2]
  unfold out1_2
  rw [View.canon_unit_zero zero_offsets]
  simp only [View.ld_unit_zero (S := S5000x128) zero_offsets]
  obtain ⟨e0, e1, e2, e3, e4, e5⟩ := block_index t
  funext j
  -- an input block's entry `j` sits at the array index of the output block's entry `j`
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  have g0 : (iblk1 V c 0 t j : EReal) = V c main_v66 (((cfg1.win 2).blk t).view.emb j) :=
    congrArg (V c main_v66) h0
  have g1 : (iblk1 V c 1 t j : EReal) = V c main_v12_1 (((cfg1.win 2).blk t).view.emb j) :=
    congrArg (V c main_v12_1) h1
  show k1_pay1 (F := Ideal) (iblk1 V c 0 t) (iblk1 V c 1 t) j
    = eluSum (V c main_v66) (V c main_v12_1) (((cfg1.win 2).blk t).view.emb j)
  refine (payload_apply (iblk1 V c 0 t) (iblk1 V c 1 t) j).trans ?_
  exact congrArg₂ (fun a b : EReal => Cert.EluSpec.elu1 (a + b)) g0 g1

/-- An index of the output array is in point `t`'s block iff each coordinate is in the block's range on
    its axis. -/
theorem mem_block (t : Fin cfg1.N) (i : S100000x128.Idx) :
    i ∈ ((cfg1.win 2).blk t).view.set
      ↔ ∀ a : Fin 2, win1_2.index t a * S5000x128.size a ≤ (i a).val
          ∧ (i a).val < win1_2.index t a * S5000x128.size a + S5000x128.size a := by
  show i ∈ ((View.whole main_v67).slice (win1_2.rect t)).set ↔ _
  rw [View.set_slice_whole, Rect.mem_set_unit]
  exact Iff.rfl

/-- The blocks tile the array: row `r` is in the block of point `r / 5000` (which is below 20 because
    `r < 100000`), and every lane is in every block. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨e0, e1, e2, e3, e4, e5⟩ := block_index t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE OUTPUT ARRAY after the region: `eluSum` of the two input arrays, everywhere. -/
theorem final_array (c : Dev nD) :
    (dat1 V c).arrAt 2 cfg1.N = eluSum (V c main_v66) (V c main_v12_1) :=
  (dat1 V c).arrAt_eq_of_cover 2 (eluSum (V c main_v66) (V c main_v12_1)) (fun t _ => flushed_eq V c t) covered

/-- The same, entry by entry: row `n`, lane `l` of the output is ELU of the sum of the two inputs' entries
    at row `n`, lane `l`. -/
theorem final_out (c : Dev nD) (n : Fin 100000) (l : Fin 128) :
    ((Gen.dat1 (F := Ideal) V c).arrAt 2 cfg1.N : S100000x128.Idx → EReal) (ix2 n l)
      = Cert.EluSpec.elu1 (HAdd.hAdd (α := EReal) (β := EReal) (γ := EReal)
          (V c main_v66 (ix2 n l)) (V c main_v12_1 (ix2 n l))) :=
  congrFun (final_array V c) (ix2 n l)

end Cert.KernelIdeal.Region1

end
-- ==== Proof.HeadIndex.lean ====
import Idealize.ShloMosaic.PureOps.Ideal
import Idealize.ShloMosaic.Lib.WordArith

/-! # The head of a row, computed on 32-bit words, and a one-hot entry as an extended real

The host computes `head = arange(128) // 16` on signed 32-bit words. `//` (floor division) is lowered to the
TRUNCATING division `divsi` followed by a correction: one is subtracted from the quotient when the operands' signs
differ and the remainder is not zero. For a row number `0 ≤ l < 128` and the divisor 16 the correction never
fires — for `l > 0` both signs are `+1`, and for `l = 0` the remainder is zero — and the truncating quotient of
two non-negative words is the quotient of the natural numbers. So the word computed is `l / 16`.

The one-hot matrix entry is `uitofp (head == k)`: the comparison's bit read as an unsigned integer and converted
to a float, which at the ideal instance is the extended real 1 or 0. -/

namespace Cert.HeadIndex

open Idealize.ShloMosaic

/-- The host's integer `sign`, one word: 0 at zero, −1 when the top bit is set, +1 otherwise. -/
def sgn (x : BitVec 32) : BitVec 32 := if x = 0 then 0 else if x.msb then -1 else 1

/-- A natural number below 128, as a 32-bit word, is that number. -/
theorem toNat_small (l : ℕ) (hl : l < 128) : (BitVec.ofNat 32 l).toNat = l := by
  rw [BitVec.toNat_ofNat]; exact Nat.mod_eq_of_lt (by omega)

/-- Its top bit is clear: it is non-negative read signed. -/
theorem msb_small (l : ℕ) (hl : l < 128) : (BitVec.ofNat 32 l).msb = false := by
  rw [BitVec.msb_eq_false_iff_two_mul_lt, toNat_small l hl]; omega

theorem msb_sixteen : (16#32 : BitVec 32).msb = false := by decide

/-- Dividing by 16 is not a corner of signed division (the divisor is neither 0 nor −1). -/
theorem not_corner (x : BitVec 32) : ¬ IntOp.SDivCorner x 16#32 := by
  unfold IntOp.SDivCorner
  intro h
  rcases h with h | ⟨_, h⟩
  · exact absurd h (by decide)
  · exact absurd h (by decide)

/-- The truncating quotient of a small non-negative word by 16 is the natural quotient. -/
theorem divsi_small (l : ℕ) (hl : l < 128) :
    IntOp.divsi .host (BitVec.ofNat 32 l) 16#32 = BitVec.ofNat 32 (l / 16) := by
  unfold IntOp.divsi
  rw [if_neg (not_corner _), BitVec.sdiv_eq, msb_small l hl, msb_sixteen]
  apply BitVec.eq_of_toNat_eq
  show (BitVec.ofNat 32 l / 16#32).toNat = _
  rw [BitVec.toNat_udiv, toNat_small l hl, toNat_small (l / 16) (by omega)]
  rfl

/-- The remainder of a small non-negative word by 16 is the natural remainder. -/
theorem remsi_small (l : ℕ) (hl : l < 128) :
    IntOp.remsi .host (BitVec.ofNat 32 l) 16#32 = BitVec.ofNat 32 (l % 16) := by
  unfold IntOp.remsi
  rw [if_neg (not_corner _), BitVec.srem_eq, msb_small l hl, msb_sixteen]
  apply BitVec.eq_of_toNat_eq
  show (BitVec.ofNat 32 l % 16#32).toNat = _
  rw [BitVec.toNat_umod, toNat_small l hl, toNat_small (l % 16) (by omega)]
  rfl

/-- The sign of a small positive word is +1. -/
theorem sgn_small_pos (l : ℕ) (hl : l < 128) (h0 : l ≠ 0) : sgn (BitVec.ofNat 32 l) = 1 := by
  unfold sgn
  have hne : BitVec.ofNat 32 l ≠ 0 := fun e => h0 (by
    have := congrArg BitVec.toNat e
    rw [toNat_small l hl] at this
    exact this)
  rw [if_neg hne, msb_small l hl]
  rfl

theorem sgn_sixteen : sgn 16#32 = 1 := by decide

/-- `arange(128) // 16` at row `l`, as the host computes it on words, is the word `l / 16`. -/
theorem floordiv16 (l : ℕ) (hl : l < 128) :
    Scalar.select
      (IntOp.andi
        (IntOp.cmpi .ne (sgn (BitVec.ofNat 32 l)) (sgn 16#32))
        (IntOp.cmpi .ne (IntOp.remsi .host (BitVec.ofNat 32 l) 16#32) 0#32))
      (IntOp.subi (IntOp.divsi .host (BitVec.ofNat 32 l) 16#32) 1#32)
      (IntOp.divsi .host (BitVec.ofNat 32 l) 16#32)
      = BitVec.ofNat 32 (l / 16) := by
  -- the correction's condition is the bit 0: then the select answers the plain quotient
  have hcond : IntOp.andi
        (IntOp.cmpi .ne (sgn (BitVec.ofNat 32 l)) (sgn 16#32))
        (IntOp.cmpi .ne (IntOp.remsi .host (BitVec.ofNat 32 l) 16#32) 0#32) = 0#1 := by
    by_cases h0 : l = 0
    · -- l = 0: the remainder is zero, the second bit is 0
      subst h0
      rw [remsi_small 0 (by omega)]
      have : IntOp.cmpi .ne (BitVec.ofNat 32 (0 % 16)) 0#32 = 0#1 := by decide
      rw [this]
      unfold IntOp.andi
      exact BitVec.and_zero
    · -- l > 0: both signs are +1, the first bit is 0
      rw [sgn_small_pos l hl h0, sgn_sixteen]
      have : IntOp.cmpi .ne (1 : BitVec 32) 1 = 0#1 := by decide
      rw [this]
      unfold IntOp.andi
      exact BitVec.zero_and
  rw [hcond]
  unfold Scalar.select
  rw [if_neg (by decide)]
  exact divsi_small l hl

/-- A one-hot entry: the bit of `a == b` on words, read unsigned as a float, is the extended real 1 or 0. -/
theorem onehot_entry (a b : ℕ) (ha : a < 2 ^ 32) (hb : b < 2 ^ 32) :
    (FloatOps.uitofp (F := Ideal) .f32 (IntOp.cmpi .eq (BitVec.ofNat 32 a) (BitVec.ofNat 32 b)) : EReal)
      = if a = b then (1 : EReal) else 0 := by
  show (((IntOp.cmpi .eq (BitVec.ofNat 32 a) (BitVec.ofNat 32 b)).toNat : ℝ) : EReal) = _
  unfold IntOp.cmpi
  by_cases h : a = b
  · subst h
    rw [if_pos rfl]
    simp
  · rw [if_neg h]
    have hne : BitVec.ofNat 32 a ≠ BitVec.ofNat 32 b := fun e => h (by
      have := congrArg BitVec.toNat e
      rw [BitVec.toNat_ofNat, BitVec.toNat_ofNat, Nat.mod_eq_of_lt ha, Nat.mod_eq_of_lt hb] at this
      exact this)
    have hb' : (BitVec.ofNat 32 a == BitVec.ofNat 32 b) = false := by
      rw [beq_eq_false_iff_ne]; exact hne
    simp [hb']

end Cert.HeadIndex
-- ==== Proof.Entry0Layout.lean ====
import Idealize.ShloMosaic.PureOps.Ideal
import Idealize.ShloMosaic.Lib.ValueIdx
import Idealize.ShloMosaic.Lib.Pipeline.Value
import Idealize.ShloMosaic.Lib.IdealHost
import proofs.«148892_j57080115364429_2_alg».proof.Proof.HeadIndex

/-! # The host's layout operations of the expanded attention matrix, read at an index

`A_expand = concatenate([onehot * a_src.reshape(128)[:, None], onehot * a_tgt.reshape(128)[:, None]], axis=1)`
is built from four layout operations, each of which only moves entries around. Read at an index:

* a `[1, 8, 16]` table reshaped to `[128]` has at row `l` the entry (head `l / 16`, feature `l % 16`): the
  row-major position `(0 · 8 + g) · 16 + f` equals `l` exactly when `g = l / 16` and `f = l % 16`;
* a `[128]` column broadcast to `[128, 1]` and then to `[128, 8]` has at `(l, k)` the column's entry `l`;
* a `[1, 8]` row broadcast to `[128, 8]` has at `(l, k)` the row's entry `k`;
* two `[128, 8]` blocks concatenated along axis 1 have at `(l, j)` the first block's `(l, j)` for `j < 8`
  and the second block's `(l, j − 8)` for `j ≥ 8`; in both cases the column is `j % 8`. -/

namespace Cert.Entry0Layout

open Idealize.ShloMosaic Idealize.ShloMosaic.ValueIdx

variable {α : Type}

/-- The `[1, 8, 16] → [128]` reshape at row `l`. -/
theorem reshape_apply (x : (⟨3, ![1, 8, 16]⟩ : Shape).Idx → α)
    (h : (⟨3, ![1, 8, 16]⟩ : Shape).ShapeCasts ⟨1, ![128]⟩) (l : Fin 128) :
    shapeCast ⟨1, ![128]⟩ x h (ix1 l) = x (ix3 (0 : Fin 1) ⟨l.val / 16, by omega⟩ ⟨l.val % 16, by omega⟩) :=
  shapeCast_apply x h _ _ (by
    rw [Shape.rowMajor_val_three, Shape.rowMajor_val_one]
    show (0 * 8 + l.val / 16) * 16 + l.val % 16 = l.val
    omega)

/-- A column `[128]` broadcast to `[128, 1]` then to `[128, 8]`, at `(l, k)`: the column's entry `l`. -/
theorem bcast_col_apply (x : (⟨1, ![128]⟩ : Shape).Idx → α)
    (h : (⟨1, ![128]⟩ : Shape).BroadcastsInDim ⟨2, ![128, 1]⟩ ![0])
    (h' : (⟨2, ![128, 1]⟩ : Shape).BroadcastsInDim ⟨2, ![128, 8]⟩ ![0, 1]) (l : Fin 128) (k : Fin 8) :
    broadcastInDim ⟨2, ![128, 8]⟩ ![0, 1] h' (broadcastInDim ⟨2, ![128, 1]⟩ ![0] h x) (ix2 l k) = x (ix1 l) := by
  rw [broadcastInDim_apply ![0, 1] h' _ (ix2 l k) (ix2 l (0 : Fin 1))
        (fun a => match a with | ⟨0, _⟩ => rfl | ⟨1, _⟩ => rfl),
      broadcastInDim_apply ![0] h x (ix2 l (0 : Fin 1)) (ix1 l)
        (fun a => match a with | ⟨0, _⟩ => rfl)]

/-- A row `[1, 8]` broadcast to `[128, 8]`, at `(l, k)`: the row's entry `k`. -/
theorem bcast_row_apply (y : (⟨2, ![1, 8]⟩ : Shape).Idx → α)
    (h : (⟨2, ![1, 8]⟩ : Shape).BroadcastsInDim ⟨2, ![128, 8]⟩ ![0, 1]) (l : Fin 128) (k : Fin 8) :
    broadcastInDim ⟨2, ![128, 8]⟩ ![0, 1] h y (ix2 l k) = y (ix2 (0 : Fin 1) k) :=
  broadcastInDim_apply ![0, 1] h y (ix2 l k) (ix2 (0 : Fin 1) k)
    (fun a => match a with | ⟨0, _⟩ => rfl | ⟨1, _⟩ => rfl)

/-- Two `[128, 8]` blocks side by side, at `(l, j)`: the left block for `j < 8`, the right one otherwise, at
    column `j % 8`. -/
theorem concat_apply (x₁ x₂ : (⟨2, ![128, 8]⟩ : Shape).Idx → α)
    (h : Shape.Concatenates [(⟨2, ![128, 8]⟩ : Shape), ⟨2, ![128, 8]⟩] ⟨2, ![128, 16]⟩ 1) (l : Fin 128) (j : Fin 16) :
    concatenate ⟨2, ![128, 16]⟩ 1 [⟨⟨2, ![128, 8]⟩, x₁⟩, ⟨⟨2, ![128, 8]⟩, x₂⟩] h (ix2 l j)
      = (if j.val < 8 then x₁ else x₂) (ix2 l ⟨j.val % 8, by omega⟩) := by
  by_cases hj : j.val < 8
  · rw [if_pos hj]
    exact concatenate_pair_apply_left 1 x₁ x₂ h (ix2 l j) rfl (ix2 l ⟨j.val % 8, by omega⟩)
      (fun b => match b with
        | ⟨0, _⟩ => rfl
        | ⟨1, _⟩ => by show j.val % 8 = j.val; omega)
  · rw [if_neg hj]
    exact concatenate_pair_apply_right 1 x₁ x₂ h (ix2 l j) rfl rfl (ix2 l ⟨j.val % 8, by omega⟩)
      (fun b => match b with
        | ⟨0, _⟩ => fun _ => rfl
        | ⟨1, _⟩ => fun hb => absurd rfl hb)
      (by show j.val % 8 + 8 = j.val; omega)

/-! ## The three computed arrays, read at an index

Each host operation on arrays acts entry by entry, so an array expression read at an index is the same
expression on the entries; the broadcasts and the reshape are read by the lemmas above. -/

/-- `iota // 16` as the host lowers it — quotient, signs, remainder, the correction and the select, the scalar
    constants 16, 0 and 1 each broadcast to `[128]` — read at row `l`, when the dividend's entry `l` is the word `l`
    and the divisor is the word 16: the word `l / 16`. -/
theorem head_word_apply (v : (⟨1, ![128]⟩ : Shape).Idx → BitVec 32) (s : (⟨0, ![]⟩ : Shape).Idx → BitVec 32)
    (h : (⟨0, ![]⟩ : Shape).BroadcastsInDim ⟨1, ![128]⟩ ![]) (l : Fin 128)
    (hv : v (ix1 l) = BitVec.ofNat 32 l.val) (hs : s ix0 = 16#32) :
    select
        (andi (cmpi .ne (signi v) (broadcastInDim ⟨1, ![128]⟩ ![] h (signi s)))
          (cmpi .ne (Host.remsi v (broadcastInDim ⟨1, ![128]⟩ ![] h s))
            (broadcastInDim ⟨1, ![128]⟩ ![] h (constantI ⟨0, ![]⟩ 32 0#32))))
        (subi (Host.divsi v (broadcastInDim ⟨1, ![128]⟩ ![] h s))
          (broadcastInDim ⟨1, ![128]⟩ ![] h (constantI ⟨0, ![]⟩ 32 1#32)))
        (Host.divsi v (broadcastInDim ⟨1, ![128]⟩ ![] h s)) (ix1 l)
      = BitVec.ofNat 32 (l.val / 16) := by
  -- a scalar broadcast to [128] reads the scalar at every row
  have e : ∀ z : (⟨0, ![]⟩ : Shape).Idx → BitVec 32, broadcastInDim ⟨1, ![128]⟩ ![] h z (ix1 l) = z ix0 :=
    fun z => broadcastInDim_scalar_apply h z (ix1 l)
  -- entry by entry
  show Scalar.select
        (IntOp.andi
          (IntOp.cmpi .ne (Cert.HeadIndex.sgn (v (ix1 l))) (broadcastInDim ⟨1, ![128]⟩ ![] h (signi s) (ix1 l)))
          (IntOp.cmpi .ne (IntOp.remsi .host (v (ix1 l)) (broadcastInDim ⟨1, ![128]⟩ ![] h s (ix1 l)))
            (broadcastInDim ⟨1, ![128]⟩ ![] h (constantI ⟨0, ![]⟩ 32 0#32) (ix1 l))))
        (IntOp.subi (IntOp.divsi .host (v (ix1 l)) (broadcastInDim ⟨1, ![128]⟩ ![] h s (ix1 l)))
          (broadcastInDim ⟨1, ![128]⟩ ![] h (constantI ⟨0, ![]⟩ 32 1#32) (ix1 l)))
        (IntOp.divsi .host (v (ix1 l)) (broadcastInDim ⟨1, ![128]⟩ ![] h s (ix1 l))) = _
  rw [e (signi s), e s, e (constantI ⟨0, ![]⟩ 32 0#32), e (constantI ⟨0, ![]⟩ 32 1#32), hv]
  show Scalar.select
        (IntOp.andi
          (IntOp.cmpi .ne (Cert.HeadIndex.sgn (BitVec.ofNat 32 l.val)) (Cert.HeadIndex.sgn (s ix0)))
          (IntOp.cmpi .ne (IntOp.remsi .host (BitVec.ofNat 32 l.val) (s ix0)) 0#32))
        (IntOp.subi (IntOp.divsi .host (BitVec.ofNat 32 l.val) (s ix0)) 1#32)
        (IntOp.divsi .host (BitVec.ofNat 32 l.val) (s ix0)) = _
  rw [hs]
  exact Cert.HeadIndex.floordiv16 l.val l.isLt

/-- `one_hot(head, 8)` — the head column broadcast to `[128, 8]`, compared for equality with the iota along axis
    1, the bit converted to a float — read at `(l, k)`, when the head's entry `l` is the word `l / 16`: the extended
    real 1 if `l / 16 = k`, else 0. -/
theorem onehot_apply (v : (⟨1, ![128]⟩ : Shape).Idx → BitVec 32)
    (h : (⟨1, ![128]⟩ : Shape).BroadcastsInDim ⟨2, ![128, 1]⟩ ![0])
    (h' : (⟨2, ![128, 1]⟩ : Shape).BroadcastsInDim ⟨2, ![128, 8]⟩ ![0, 1])
    (h'' : (⟨2, ![1, 8]⟩ : Shape).BroadcastsInDim ⟨2, ![128, 8]⟩ ![0, 1]) (l : Fin 128) (k : Fin 8)
    (hv : v (ix1 l) = BitVec.ofNat 32 (l.val / 16)) :
    (uitofp (F := Ideal) .f32
        (cmpi .eq (broadcastInDim ⟨2, ![128, 8]⟩ ![0, 1] h' (broadcastInDim ⟨2, ![128, 1]⟩ ![0] h v))
          (broadcastInDim ⟨2, ![128, 8]⟩ ![0, 1] h'' (iotaInDim ⟨2, ![1, 8]⟩ 32 1))) (ix2 l k) : EReal)
      = if l.val / 16 = k.val then (1 : EReal) else 0 := by
  show (FloatOps.uitofp (F := Ideal) .f32
        (IntOp.cmpi .eq
          (broadcastInDim ⟨2, ![128, 8]⟩ ![0, 1] h' (broadcastInDim ⟨2, ![128, 1]⟩ ![0] h v) (ix2 l k))
          (broadcastInDim ⟨2, ![128, 8]⟩ ![0, 1] h'' (iotaInDim ⟨2, ![1, 8]⟩ 32 1) (ix2 l k))) : EReal) = _
  rw [bcast_col_apply v h h' l k, bcast_row_apply _ h'' l k, hv, iotaInDim_apply]
  exact Cert.HeadIndex.onehot_entry (l.val / 16) k.val (by omega) (by omega)

/-- `concatenate([oh * a₄.reshape(128)[:, None], oh * a₅.reshape(128)[:, None]], axis=1)` read at `(l, j)`: the
    one-hot entry at column `j % 8` times the entry (head `l / 16`, feature `l % 16`) of the first table for
    `j < 8`, of the second for `j ≥ 8`. -/
theorem aexp_layout (oh : (⟨2, ![128, 8]⟩ : Shape).Idx → EReal) (a₄ a₅ : (⟨3, ![1, 8, 16]⟩ : Shape).Idx → EReal)
    (hc : (⟨3, ![1, 8, 16]⟩ : Shape).ShapeCasts ⟨1, ![128]⟩)
    (h : (⟨1, ![128]⟩ : Shape).BroadcastsInDim ⟨2, ![128, 1]⟩ ![0])
    (h' : (⟨2, ![128, 1]⟩ : Shape).BroadcastsInDim ⟨2, ![128, 8]⟩ ![0, 1])
    (hcat : Shape.Concatenates [(⟨2, ![128, 8]⟩ : Shape), ⟨2, ![128, 8]⟩] ⟨2, ![128, 16]⟩ 1)
    (l : Fin 128) (j : Fin 16) :
    concatenate ⟨2, ![128, 16]⟩ 1
        [⟨⟨2, ![128, 8]⟩, mulf (F := Ideal) (φ := .f32) oh
            (broadcastInDim ⟨2, ![128, 8]⟩ ![0, 1] h' (broadcastInDim ⟨2, ![128, 1]⟩ ![0] h (shapeCast ⟨1, ![128]⟩ a₄ hc)))⟩,
         ⟨⟨2, ![128, 8]⟩, mulf (F := Ideal) (φ := .f32) oh
            (broadcastInDim ⟨2, ![128, 8]⟩ ![0, 1] h' (broadcastInDim ⟨2, ![128, 1]⟩ ![0] h (shapeCast ⟨1, ![128]⟩ a₅ hc)))⟩]
        hcat (ix2 l j)
      = oh (ix2 l ⟨j.val % 8, by omega⟩)
        * (if j.val < 8 then a₄ else a₅) (ix3 (0 : Fin 1) ⟨l.val / 16, by omega⟩ ⟨l.val % 16, by omega⟩) := by
  rw [concat_apply]
  by_cases hj : j.val < 8
  · rw [if_pos hj, if_pos hj, mulf_apply, bcast_col_apply, reshape_apply]
  · rw [if_neg hj, if_neg hj, mulf_apply, bcast_col_apply, reshape_apply]

end Cert.Entry0Layout
-- ==== Proof.Entry0Args.lean ====
import proofs.«148892_j57080115364429_2_alg».proof.Proof.Gen.KernelIdeal.Frame
import Idealize.ShloMosaic.PureOps.Ideal

set_option maxRecDepth 16384

noncomputable section

namespace Cert.KernelIdeal.Entry0

open Idealize.ShloMosaic Idealize.ShloMosaic.TcCoe Idealize.ShloMosaic.Tactic
open Idealize.SL Idealize.SL.RA Idealize.SL.BI
open Cert.KernelIdeal Cert.KernelIdeal.Gen

variable (m : (ℓ : Loc nD τ sig) → Buf (Elt Ideal) ℓ) (ρ : Dev nD → PrngReg) (c : Dev nD)

/-! # What region 0 finds in the argument buffers

The buffer contents at region 0's entry are a fold of four stretches of host operations over the launch memory.
None of those operations writes an argument of @main, so each argument buffer, read at the entry, still holds
what the launch memory holds: we walk the fold back one stretch at a time, each step by "a list of operations
none of which writes buffer b leaves b as it was". -/

/-- No host operation before the first region writes argument 0: read at region 0's entry it is the launch memory. -/
theorem W4_arg0 : Gen.W4 (F := Ideal) m ρ c (Proc.devRef .tc main_arg0) = m ((c : Thread nD τ).loc main_arg0) :=
  calc Gen.W4 (F := Ideal) m ρ c (Proc.devRef .tc main_arg0)
    _ = Gen.W3 (F := Ideal) m ρ c (Proc.devRef .tc main_arg0) := StableHlo.after_of_forall_not_mem (b := Proc.devRef .tc main_arg0) _ _ (List.forall_iff_forall_mem.mp (by
          simp only [Gen.hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W2 (F := Ideal) m ρ c (Proc.devRef .tc main_arg0) := StableHlo.after_of_forall_not_mem (b := Proc.devRef .tc main_arg0) _ _ (List.forall_iff_forall_mem.mp (by
          simp only [Gen.hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 (F := Ideal) m ρ c (Proc.devRef .tc main_arg0) := StableHlo.after_of_forall_not_mem (b := Proc.devRef .tc main_arg0) _ _ (List.forall_iff_forall_mem.mp (by
          simp only [Gen.hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 (F := Ideal) m ρ c (Proc.devRef .tc main_arg0) := StableHlo.after_of_forall_not_mem (b := Proc.devRef .tc main_arg0) _ _ (List.forall_iff_forall_mem.mp (by
          simp only [Gen.hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- No host operation before the first region writes argument 1: read at region 0's entry it is the launch memory. -/
theorem W4_arg1 : Gen.W4 (F := Ideal) m ρ c (Proc.devRef .tc main_arg1) = m ((c : Thread nD τ).loc main_arg1) :=
  calc Gen.W4 (F := Ideal) m ρ c (Proc.devRef .tc main_arg1)
    _ = Gen.W3 (F := Ideal) m ρ c (Proc.devRef .tc main_arg1) := StableHlo.after_of_forall_not_mem (b := Proc.devRef .tc main_arg1) _ _ (List.forall_iff_forall_mem.mp (by
          simp only [Gen.hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W2 (F := Ideal) m ρ c (Proc.devRef .tc main_arg1) := StableHlo.after_of_forall_not_mem (b := Proc.devRef .tc main_arg1) _ _ (List.forall_iff_forall_mem.mp (by
          simp only [Gen.hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 (F := Ideal) m ρ c (Proc.devRef .tc main_arg1) := StableHlo.after_of_forall_not_mem (b := Proc.devRef .tc main_arg1) _ _ (List.forall_iff_forall_mem.mp (by
          simp only [Gen.hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 (F := Ideal) m ρ c (Proc.devRef .tc main_arg1) := StableHlo.after_of_forall_not_mem (b := Proc.devRef .tc main_arg1) _ _ (List.forall_iff_forall_mem.mp (by
          simp only [Gen.hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host operation before the first region writes argument 2: read at region 0's entry it is the launch memory. -/
theorem W4_arg2 : Gen.W4 (F := Ideal) m ρ c (Proc.devRef .tc main_arg2) = m ((c : Thread nD τ).loc main_arg2) :=
  calc Gen.W4 (F := Ideal) m ρ c (Proc.devRef .tc main_arg2)
    _ = Gen.W3 (F := Ideal) m ρ c (Proc.devRef .tc main_arg2) := StableHlo.after_of_forall_not_mem (b := Proc.devRef .tc main_arg2) _ _ (List.forall_iff_forall_mem.mp (by
          simp only [Gen.hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W2 (F := Ideal) m ρ c (Proc.devRef .tc main_arg2) := StableHlo.after_of_forall_not_mem (b := Proc.devRef .tc main_arg2) _ _ (List.forall_iff_forall_mem.mp (by
          simp only [Gen.hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 (F := Ideal) m ρ c (Proc.devRef .tc main_arg2) := StableHlo.after_of_forall_not_mem (b := Proc.devRef .tc main_arg2) _ _ (List.forall_iff_forall_mem.mp (by
          simp only [Gen.hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 (F := Ideal) m ρ c (Proc.devRef .tc main_arg2) := StableHlo.after_of_forall_not_mem (b := Proc.devRef .tc main_arg2) _ _ (List.forall_iff_forall_mem.mp (by
          simp only [Gen.hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- No host operation before the first region writes argument 3: read at region 0's entry it is the launch memory. -/
theorem W4_arg3 : Gen.W4 (F := Ideal) m ρ c (Proc.devRef .tc main_arg3) = m ((c : Thread nD τ).loc main_arg3) :=
  calc Gen.W4 (F := Ideal) m ρ c (Proc.devRef .tc main_arg3)
    _ = Gen.W3 (F := Ideal) m ρ c (Proc.devRef .tc main_arg3) := StableHlo.after_of_forall_not_mem (b := Proc.devRef .tc main_arg3) _ _ (List.forall_iff_forall_mem.mp (by
          simp only [Gen.hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W2 (F := Ideal) m ρ c (Proc.devRef .tc main_arg3) := StableHlo.after_of_forall_not_mem (b := Proc.devRef .tc main_arg3) _ _ (List.forall_iff_forall_mem.mp (by
          simp only [Gen.hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 (F := Ideal) m ρ c (Proc.devRef .tc main_arg3) := StableHlo.after_of_forall_not_mem (b := Proc.devRef .tc main_arg3) _ _ (List.forall_iff_forall_mem.mp (by
          simp only [Gen.hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 (F := Ideal) m ρ c (Proc.devRef .tc main_arg3) := StableHlo.after_of_forall_not_mem (b := Proc.devRef .tc main_arg3) _ _ (List.forall_iff_forall_mem.mp (by
          simp only [Gen.hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

end Cert.KernelIdeal.Entry0
-- ==== Proof.Entry0.lean ====
import proofs.«148892_j57080115364429_2_alg».proof.Proof.Gen.KernelIdeal.Frame
import Idealize.ShloMosaic.PureOps.Ideal
import Idealize.ShloMosaic.Lib.ValueIdx
import Idealize.ShloMosaic.Lib.StableHlo.Run
import proofs.«148892_j57080115364429_2_alg».proof.Proof.HeadIndex
import proofs.«148892_j57080115364429_2_alg».proof.Proof.Entry0Layout
import proofs.«148892_j57080115364429_2_alg».proof.Proof.Entry0Args

/-! # The expanded attention matrix that region 0 finds on entry

Before the first kernel region the host computes, from the two attention tables `a_src, a_tgt : [1, 8, 16]`,

  head   = arange(128) // 16                                   (which head a row of the 128 belongs to)
  onehot = one_hot(head, 8)                                    ([128, 8]: 1 at column head(l), else 0)
  A      = concatenate([onehot * a_src.reshape(128)[:, None],
                        onehot * a_tgt.reshape(128)[:, None]], axis=1)        ([128, 16])

in four stretches of host operations. The contents of the buffers at the region's entry are the fold of these
stretches over the launch memory. We read the fold ONE STRETCH AT A TIME, each stretch over an arbitrary
valuation `X` of the buffers before it, and at ONE INDEX, so that nothing is ever computed on whole arrays:

* stretch 0 writes the iota (entry `l` is the word `l`) and the scalar 16;
* stretch 1 (`floor_divide`) turns them into the head column: entry `l` is the word `l / 16`;
* stretch 2 (`one_hot`) turns the head column into the mask: entry `(l, k)` is 1 if `l / 16 = k`, else 0;
* stretch 3 reshapes and broadcasts the two tables, multiplies each by the mask and concatenates:
  entry `(l, j)` is mask `(l, j % 8)` times table entry (head `l / 16`, feature `l % 16`), the first table for
  `j < 8` and the second for `j ≥ 8`.

The arguments themselves are written by no stretch. Chaining the four readings gives the closed form of `A`. -/

set_option maxRecDepth 16384

noncomputable section

namespace Cert.KernelIdeal.Entry0

open Idealize.ShloMosaic Idealize.ShloMosaic.TcCoe Idealize.ShloMosaic.Tactic Idealize.ShloMosaic.ValueIdx
open Idealize.SL Idealize.SL.RA Idealize.SL.BI
open Cert.KernelIdeal Cert.KernelIdeal.Gen
open Idealize.ShloMosaic.StableHlo

/-! ## Each stretch, over any contents `X` before it, read at one index -/

section Stretches

variable (X : Valuation τ sig (Elt Ideal))

set_option maxHeartbeats 400000 in
/-- Stretch 0 leaves the iota in its buffer: entry `l` is the word `l`. -/
theorem iota_after (l : Fin 128) :
    (StableHlo.after (Gen.hostOps0 (F := Ideal)) X (Proc.devRef .tc main_v0) : S128.Idx → BitVec 32) (ix1 l)
      = BitVec.ofNat 32 l.val := by
  after_results
  rfl

set_option maxHeartbeats 400000 in
/-- Stretch 0 leaves the divisor 16 in its scalar buffer. -/
theorem sixteen_after :
    (StableHlo.after (Gen.hostOps0 (F := Ideal)) X (Proc.devRef .tc main_c) : S_.Idx → BitVec 32) ix0 = 16#32 := by
  after_results
  rfl

set_option maxHeartbeats 400000 in
/-- Stretch 1 (`floor_divide`), entered with the iota and the divisor 16: entry `l` of the head column is the
    word `l / 16`. -/
theorem head_after (l : Fin 128)
    (hv : (X (Proc.devRef .tc main_v0) : S128.Idx → BitVec 32) (ix1 l) = BitVec.ofNat 32 l.val)
    (hs : (X (Proc.devRef .tc main_c) : S_.Idx → BitVec 32) ix0 = 16#32) :
    (StableHlo.after (Gen.hostOps0_1 (F := Ideal)) X (Proc.devRef .tc main_v1) : S128.Idx → BitVec 32) (ix1 l)
      = BitVec.ofNat 32 (l.val / 16) := by
  after_results
  exact Cert.Entry0Layout.head_word_apply (X (Proc.devRef .tc main_v0)) (X (Proc.devRef .tc main_c)) bcast_S_S128 l hv hs

set_option maxHeartbeats 400000 in
/-- Stretch 2 (`one_hot`), entered with the head column: entry `(l, k)` of the mask is 1 if `l / 16 = k`, else 0. -/
theorem onehot_after (l : Fin 128) (k : Fin 8)
    (hv : (X (Proc.devRef .tc main_v1) : S128.Idx → BitVec 32) (ix1 l) = BitVec.ofNat 32 (l.val / 16)) :
    (StableHlo.after (Gen.hostOps0_2 (F := Ideal)) X (Proc.devRef .tc main_v2) : S128x8.Idx → EReal) (ix2 l k)
      = if l.val / 16 = k.val then (1 : EReal) else 0 := by
  after_results
  exact Cert.Entry0Layout.onehot_apply (X (Proc.devRef .tc main_v1)) bcast_S128_S128x1_0 bcast_S128x1_S128x8_0_1 bcast_S1x8_S128x8_0_1 l k hv

set_option maxHeartbeats 400000 in
/-- Stretch 3, entered with the mask's entry `(l, j % 8)` equal to `o` and the two tables `a₄`, `a₅`: entry `(l, j)`
    of the expanded matrix is `o` times the entry (head `l / 16`, feature `l % 16`) of `a₄` for `j < 8`, of `a₅`
    for `j ≥ 8`. -/
theorem aexp_after (l : Fin 128) (j : Fin 16) (o : EReal) (a₄ a₅ : S1x8x16.Idx → EReal)
    (ho : (X (Proc.devRef .tc main_v2) : S128x8.Idx → EReal) (ix2 l ⟨j.val % 8, by omega⟩) = o)
    (h₄ : X (Proc.devRef .tc main_arg4) = a₄) (h₅ : X (Proc.devRef .tc main_arg5) = a₅) :
    (StableHlo.after (Gen.hostOps0_3 (F := Ideal)) X (Proc.devRef .tc main_v11) : S128x16.Idx → EReal) (ix2 l j)
      = o * (if j.val < 8 then a₄ else a₅) (ix3 0 ⟨l.val / 16, by omega⟩ ⟨l.val % 16, by omega⟩) := by
  subst ho h₄ h₅
  after_results
  exact Cert.Entry0Layout.aexp_layout (X (Proc.devRef .tc main_v2)) (X (Proc.devRef .tc main_arg4))
    (X (Proc.devRef .tc main_arg5)) shapeCasts_S1x8x16_S128 bcast_S128_S128x1_0 bcast_S128x1_S128x8_0_1
    concatenates_S128x8_S128x8_S128x16_d1 l j

end Stretches

/-! ## The fold from the launch memory -/

variable (m : (ℓ : Loc nD τ sig) → Buf (Elt Ideal) ℓ) (ρ : Dev nD → PrngReg) (c : Dev nD)

/-- After the first two stretches the head column holds `l / 16` at row `l`. -/
theorem head_apply (l : Fin 128) :
    (Gen.W2 (F := Ideal) m ρ c (Proc.devRef .tc main_v1) : S128.Idx → BitVec 32) (ix1 l)
      = BitVec.ofNat 32 (l.val / 16) :=
  head_after (Gen.W1 (F := Ideal) m ρ c) l (iota_after (Gen.W0 (F := Ideal) m ρ c) l) (sixteen_after (Gen.W0 (F := Ideal) m ρ c))

/-- After the first three stretches the mask holds, at `(l, k)`, 1 if row `l` belongs to head `k`, else 0. -/
theorem onehot_apply (l : Fin 128) (k : Fin 8) :
    (Gen.W3 (F := Ideal) m ρ c (Proc.devRef .tc main_v2) : S128x8.Idx → EReal) (ix2 l k)
      = if l.val / 16 = k.val then (1 : EReal) else 0 :=
  onehot_after (Gen.W2 (F := Ideal) m ρ c) l k (head_apply m ρ c l)

/-- The two stretches before the last and the launch stretch write no argument: argument 4, read just before
    the last stretch, is the launch memory. -/
theorem W3_arg4 : Gen.W3 (F := Ideal) m ρ c (Proc.devRef .tc main_arg4) = m ((c : Thread nD τ).loc main_arg4) :=
  calc Gen.W3 (F := Ideal) m ρ c (Proc.devRef .tc main_arg4)
    _ = Gen.W2 (F := Ideal) m ρ c (Proc.devRef .tc main_arg4) := StableHlo.after_of_forall_not_mem (b := Proc.devRef .tc main_arg4) _ _ (List.forall_iff_forall_mem.mp (by
          simp only [Gen.hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 (F := Ideal) m ρ c (Proc.devRef .tc main_arg4) := StableHlo.after_of_forall_not_mem (b := Proc.devRef .tc main_arg4) _ _ (List.forall_iff_forall_mem.mp (by
          simp only [Gen.hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 (F := Ideal) m ρ c (Proc.devRef .tc main_arg4) := StableHlo.after_of_forall_not_mem (b := Proc.devRef .tc main_arg4) _ _ (List.forall_iff_forall_mem.mp (by
          simp only [Gen.hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The two stretches before the last and the launch stretch write no argument: argument 5, read just before
    the last stretch, is the launch memory. -/
theorem W3_arg5 : Gen.W3 (F := Ideal) m ρ c (Proc.devRef .tc main_arg5) = m ((c : Thread nD τ).loc main_arg5) :=
  calc Gen.W3 (F := Ideal) m ρ c (Proc.devRef .tc main_arg5)
    _ = Gen.W2 (F := Ideal) m ρ c (Proc.devRef .tc main_arg5) := StableHlo.after_of_forall_not_mem (b := Proc.devRef .tc main_arg5) _ _ (List.forall_iff_forall_mem.mp (by
          simp only [Gen.hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 (F := Ideal) m ρ c (Proc.devRef .tc main_arg5) := StableHlo.after_of_forall_not_mem (b := Proc.devRef .tc main_arg5) _ _ (List.forall_iff_forall_mem.mp (by
          simp only [Gen.hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W0 (F := Ideal) m ρ c (Proc.devRef .tc main_arg5) := StableHlo.after_of_forall_not_mem (b := Proc.devRef .tc main_arg5) _ _ (List.forall_iff_forall_mem.mp (by
          simp only [Gen.hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- What region 0 finds in the expanded attention matrix: entry `(l, j)` is the table entry (head `l / 16`,
    feature `l % 16`) — of `a_src` for `j < 8`, of `a_tgt` for `j ≥ 8` — when row `l` belongs to head `j % 8`, and
    zero otherwise. -/
theorem aexp_apply (l : Fin 128) (j : Fin 16) :
    (Gen.W4 (F := Ideal) m ρ c (Proc.devRef .tc main_v11) : S128x16.Idx → EReal) (ix2 l j)
      = (if l.val / 16 = j.val % 8 then (1 : EReal) else 0)
        * (if j.val < 8 then (m ((c : Thread nD τ).loc main_arg4) : S1x8x16.Idx → EReal)
            else (m ((c : Thread nD τ).loc main_arg5) : S1x8x16.Idx → EReal))
          (ix3 0 ⟨l.val / 16, by omega⟩ ⟨l.val % 16, by omega⟩) := by
  exact aexp_after (Gen.W3 (F := Ideal) m ρ c) l j _ _ _ (onehot_apply m ρ c l ⟨j.val % 8, by omega⟩)
    (W3_arg4 m ρ c) (W3_arg5 m ρ c)

end Cert.KernelIdeal.Entry0
-- ==== Proof.ScoreAlgebra.lean ====
import Mathlib.Data.EReal.Operations
import Mathlib.Algebra.BigOperators.Fin
import Mathlib.Algebra.BigOperators.Ring.Finset

/-! # The per-head score as a sum over one head's features

The projection kernel multiplies a row of 128 projected features (8 heads of 16 features, head-major) by the
matrix whose column `h` holds the attention vector of head `h` on that head's 16 rows and zero elsewhere
(a one-hot mask times the flattened attention parameters). The sum over all 128 rows then keeps exactly the
16 rows of head `h`:

  ∑_{l < 128} P l · ([l / 16 = h] · a (l / 16) (l % 16))  =  ∑_{f < 16} P (16 h + f) · a h f.

This is pure algebra on the extended reals: it only uses `0 · x = 0`, `x · 0 = 0` and `1 · x = x`, all of
which hold for every extended real (infinite ones included), so no finiteness hypothesis is needed. -/

namespace Cert.ScoreAlgebra

open Finset

/-- A position `l < 128` of the head-major layout is a pair (head `l / 16`, feature `l % 16`), and the pair
    `(g, f)` sits at position `16 g + f`: division with remainder by 16. -/
def headSplit : Fin 8 × Fin 16 ≃ Fin 128 where
  toFun p := ⟨16 * p.1.val + p.2.val, by omega⟩
  invFun l := (⟨l.val / 16, by omega⟩, ⟨l.val % 16, by omega⟩)
  left_inv := by
    rintro ⟨g, f⟩
    apply Prod.ext
    · apply Fin.ext; show (16 * g.val + f.val) / 16 = g.val; omega
    · apply Fin.ext; show (16 * g.val + f.val) % 16 = f.val; omega
  right_inv := by
    intro l
    apply Fin.ext; show 16 * (l.val / 16) + l.val % 16 = l.val; omega

/-- The attention table read at the head and feature of position `n = 16 g + f` is its entry `(g, f)`. -/
theorem a_at_split (a : Fin 8 → Fin 16 → EReal) (g : Fin 8) (f : Fin 16) (n : ℕ) (hn : n = 16 * g.val + f.val)
    (h₁ : n / 16 < 8) (h₂ : n % 16 < 16) :
    a ⟨n / 16, h₁⟩ ⟨n % 16, h₂⟩ = a g f := by
  have e₁ : (⟨n / 16, h₁⟩ : Fin 8) = g := Fin.ext (by show n / 16 = g.val; omega)
  have e₂ : (⟨n % 16, h₂⟩ : Fin 16) = f := Fin.ext (by show n % 16 = f.val; omega)
  rw [e₁, e₂]

theorem score_sum (P : Fin 128 → EReal) (a : Fin 8 → Fin 16 → EReal) (h : Fin 8) :
    ∑ l : Fin 128, P l * ((if l.val / 16 = h.val then (1 : EReal) else 0) * a ⟨l.val / 16, by omega⟩ ⟨l.val % 16, by omega⟩)
      = ∑ f : Fin 16, P ⟨16 * h.val + f.val, by omega⟩ * a h f := by
  -- 1. sum head by head: re-index the 128 positions by (head, feature)
  rw [← headSplit.sum_comp, Fintype.sum_prod_type]
  -- 2. at position 16 g + f the mask is [g = h] and the table entry is a g f
  have term : ∀ (g : Fin 8) (f : Fin 16),
      P (headSplit (g, f)) * ((if (headSplit (g, f)).val / 16 = h.val then (1 : EReal) else 0)
          * a ⟨(headSplit (g, f)).val / 16, by omega⟩ ⟨(headSplit (g, f)).val % 16, by omega⟩)
        = P ⟨16 * g.val + f.val, by omega⟩ * ((if g = h then (1 : EReal) else 0) * a g f) := by
    intro g f
    have hv : (headSplit (g, f)).val = 16 * g.val + f.val := rfl
    rw [a_at_split a g f (headSplit (g, f)).val hv]
    have hg : ((headSplit (g, f)).val / 16 = h.val) ↔ g = h := by
      rw [Fin.ext_iff, hv]; omega
    simp only [hg]
    rfl
  simp only [term]
  -- 3. only head h survives: for g ≠ h every term is P · (0 · a) = 0
  rw [Finset.sum_eq_single h]
  · apply Finset.sum_congr rfl
    intro f _
    rw [if_pos rfl, one_mul]
  · intro g _ hg
    apply Finset.sum_eq_zero
    intro f _
    rw [if_neg hg, zero_mul, mul_zero]
  · intro hh; exact absurd (Finset.mem_univ h) hh

end Cert.ScoreAlgebra
-- ==== Proof.Chain.lean ====
/-
  The host operations between the two kernels, as functions of arrays.

  After the projection kernel has written the projected features `p : [N, 128]` and the per-head scores
  `[N, 16]` (source scores in columns 0–7, target scores in columns 8–15), the program computes on the host, edge by
  edge: the score `leaky_relu (s_src[src e] + s_tgt[tgt e])`, its exponential shifted by the global maximum, the
  sum of those exponentials over the edges entering each node, the attention weight `att e h` (the exponential
  divided by its node's sum plus a small constant), the message `p[src e] · att e` (each of the 8 heads' 16 features
  scaled by that head's weight), and the sum `agg` of the messages entering each node. Each definition below is one
  stretch of those operations, written exactly as the program's text has them, so that the buffer contents when the
  second kernel starts are these functions of what the first kernel wrote.

  `att` is never opened by the proof: both programs apply the same operations to their score arrays.
-/
import proofs.«148892_j57080115364429_2_alg».proof.Proof.Gen.KernelIdeal

noncomputable section

namespace Cert.KernelIdeal.Chain

open Idealize.ShloMosaic Cert.KernelIdeal Cert.KernelIdeal.Facts₀

variable {F : FTy → Type} [FloatOps F]

/-- Row 0 of the `[2, E]` edge list as a flat array of `E` index words: the edges' sources. -/
def row0 (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- Row 1 of the edge list: the edges' targets. -/
def row1 (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- Index words normalised as a gather wants them — a negative word has the node count added — and laid out as an
    `[E, 1]` column. -/
def wrapCol (i : (⟨S1600000, .i32⟩ : BufTy).Contents (Elt F)) : (⟨S1600000x1, .i32⟩ : BufTy).Contents (Elt F) :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- Index words as they are, laid out as an `[E, 1]` column (what a segment sum scatters by). -/
def rawCol (i : (⟨S1600000, .i32⟩ : BufTy).Contents (Elt F)) : (⟨S1600000x1, .i32⟩ : BufTy).Contents (Elt F) :=
  broadcastInDim S1600000x1 ![0] bcast_S1600000_S1600000x1_0 i

/-- Columns 0–7 of the `[N, 16]` score array: the source scores. -/
def sliceLo (sc : (⟨S100000x16, .f32⟩ : BufTy).Contents (Elt F)) : (⟨S100000x8, .f32⟩ : BufTy).Contents (Elt F) :=
  extractStridedSlice S100000x8 ![0, 0] sc slices_S100000x16_S100000x8_0_0

/-- Columns 8–15 of the score array: the target scores. -/
def sliceHi (sc : (⟨S100000x16, .f32⟩ : BufTy).Contents (Elt F)) : (⟨S100000x8, .f32⟩ : BufTy).Contents (Elt F) :=
  extractStridedSlice S100000x8 ![0, 8] sc slices_S100000x16_S100000x8_0_8

/-- The per-edge, per-head score before the rectifier: `s_src[src e, h] + s_tgt[tgt e, h]`. -/
def edgeScore (ssrc stgt : (⟨S100000x8, .f32⟩ : BufTy).Contents (Elt F)) (src tgt : (⟨S1600000, .i32⟩ : BufTy).Contents (Elt F)) :
    (⟨S1600000x8, .f32⟩ : BufTy).Contents (Elt F) :=
  addf (Host.gather gather_S100000x8_S1600000x1_S1600000x8_1_0_n_n_0_1_18 ssrc (wrapCol src))
    (Host.gather gather_S100000x8_S1600000x1_S1600000x8_1_0_n_n_0_1_18 stgt (wrapCol tgt))

/-- The leaky rectifier with slope 0.2: `s` where `s ≥ 0`, `0.2 · s` elsewhere. -/
def leaky (s : (⟨S1600000x8, .f32⟩ : BufTy).Contents (Elt F)) : (⟨S1600000x8, .f32⟩ : BufTy).Contents (Elt F) :=
  select (cmpf .oge s (broadcastInDim S1600000x8 ![] bcast_S_S1600000x8 (constant S_ .f32 0x00000000#32))) s
    (mulf (broadcastInDim S1600000x8 ![] bcast_S_S1600000x8 (id (constant S_ .f32 0x3E4CCCCD#32))) s)

/-- The exponential of the scores shifted by their maximum over all edges and heads. -/
def expShift (s : (⟨S1600000x8, .f32⟩ : BufTy).Contents (Elt F)) : (⟨S1600000x8, .f32⟩ : BufTy).Contents (Elt F) :=
  Host.exp (subf s (broadcastInDim S1600000x8 ![] bcast_S_S1600000x8
    (Host.reduce FloatOps.maximumf s (constant S_ .f32 0xFF800000#32) reducesTo_S1600000x8_S_d0_1 h_S_)))

/-- The attention weights from the exponentials `e`: `e` divided by (the sum of `e` over the edges with the same
    target, read back at the edge's target, plus a small constant). -/
def normalise (e : (⟨S1600000x8, .f32⟩ : BufTy).Contents (Elt F)) (tgt : (⟨S1600000, .i32⟩ : BufTy).Contents (Elt F)) :
    (⟨S1600000x8, .f32⟩ : BufTy).Contents (Elt F) :=
  Host.divf e (addf
    (Host.gather gather_S100000x8_S1600000x1_S1600000x8_1_0_n_n_0_1_18
      (Host.scatterAdd scatter_S100000x8_S1600000x1_S1600000x8_1_0_0_1
        (broadcastInDim S100000x8 ![] bcast_S_S100000x8 (constant S_ .f32 0x00000000#32)) (rawCol tgt) e)
      (wrapCol tgt))
    (broadcastInDim S1600000x8 ![] bcast_S_S1600000x8 (constant S_ .f32 0x24E69595#32)))

/-- The attention weight of every edge and head, from the two score arrays and the edge list's rows. -/
def att (ssrc stgt : (⟨S100000x8, .f32⟩ : BufTy).Contents (Elt F)) (src tgt : (⟨S1600000, .i32⟩ : BufTy).Contents (Elt F)) :
    (⟨S1600000x8, .f32⟩ : BufTy).Contents (Elt F) :=
  normalise (expShift (leaky (edgeScore ssrc stgt src tgt))) tgt

/-- The messages summed into their target nodes, features kept flat: row `src e` of `p`, seen as 8 heads of 16
    features, each head scaled by the edge's weight for that head, flattened again and added onto row `tgt e`. -/
def aggFlat (p : (⟨S100000x128, .f32⟩ : BufTy).Contents (Elt F)) (a : (⟨S1600000x8, .f32⟩ : BufTy).Contents (Elt F))
    (src tgt : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (rawCol tgt)
    (shapeCast S1600000x128
      (mulf
        (shapeCast S1600000x8x16 (Host.gather gather_S100000x128_S1600000x1_S1600000x128_1_0_n_n_0_1_1128 p (wrapCol src))
          shapeCasts_S1600000x128_S1600000x8x16)
        (broadcastInDim S1600000x8x16 ![0, 1, 2] bcast_S1600000x8x1_S1600000x8x16_0_1_2
          (broadcastInDim S1600000x8x1 ![0, 1] bcast_S1600000x8_S1600000x8x1_0_1 a)))
      shapeCasts_S1600000x8x16_S1600000x128)

end Cert.KernelIdeal.Chain

end
-- ==== Proof.Between.lean ====
/-
  What the second kernel finds when it starts.

  Between the two kernels the program runs three stretches of host operations (the edge scores; the leaky rectifier;
  the shifted exponential, the normalisation, the messages and their sum per target node). Read through those
  stretches, the array of aggregated messages the second kernel reads is `Chain.aggFlat` of the projected features
  and of the attention weights `Chain.att` of the two halves of the score array, all three as the first kernel left
  them; and the skip array is untouched.
-/
import proofs.«148892_j57080115364429_2_alg».proof.Proof.Gen.KernelIdeal.Frame
import proofs.«148892_j57080115364429_2_alg».proof.Proof.Chain
import Idealize.ShloMosaic.Lib.StableHlo.Run

noncomputable section

namespace Cert.KernelIdeal.Between

open Idealize.ShloMosaic Idealize.ShloMosaic.TcCoe Idealize.SL.Sem Idealize.ShloMosaic.StableHlo
open Cert.KernelIdeal Cert.KernelIdeal.Gen Cert.KernelIdeal.Chain

variable {F : FTy → Type} [FloatOps F]

/-! ## The first stretch: the edge list's rows and the edge scores -/

set_option maxHeartbeats 2000000 in
theorem s1_score (V : Valuation τ sig (Elt F)) :
    StableHlo.after hostOps1 V (Proc.devRef .tc main_v33)
      = edgeScore (sliceLo (V (Proc.devRef .tc main_v12_2))) (sliceHi (V (Proc.devRef .tc main_v12_2)))
          (row0 (V (Proc.devRef .tc main_arg1))) (row1 (V (Proc.devRef .tc main_arg1))) := by
  after_results_simp
  rfl

set_option maxHeartbeats 2000000 in
theorem s1_src (V : Valuation τ sig (Elt F)) :
    StableHlo.after hostOps1 V (Proc.devRef .tc main_v16) = row0 (V (Proc.devRef .tc main_arg1)) := by
  after_results_simp
  rfl

set_option maxHeartbeats 2000000 in
theorem s1_tgt (V : Valuation τ sig (Elt F)) :
    StableHlo.after hostOps1 V (Proc.devRef .tc main_v18) = row1 (V (Proc.devRef .tc main_arg1)) := by
  after_results_simp
  rfl

set_option maxHeartbeats 2000000 in
theorem s1_p (V : Valuation τ sig (Elt F)) :
    StableHlo.after hostOps1 V (Proc.devRef .tc main_v12_0) = V (Proc.devRef .tc main_v12_0) := by
  after_results_simp

set_option maxHeartbeats 2000000 in
theorem s1_skip (V : Valuation τ sig (Elt F)) :
    StableHlo.after hostOps1 V (Proc.devRef .tc main_v12_1) = V (Proc.devRef .tc main_v12_1) := by
  after_results_simp

/-! ## The second stretch: the leaky rectifier -/

set_option maxHeartbeats 2000000 in
/-- The slope 0.2 is a constant the first stretch writes and the second reads. -/
theorem s1_slope (V : Valuation τ sig (Elt F)) :
    StableHlo.after hostOps1 V (Proc.devRef .tc main_cst) = constant S_ .f32 0x3E4CCCCD#32 := by
  after_results_simp

set_option maxHeartbeats 2000000 in
theorem s2_leaky (V : Valuation τ sig (Elt F)) (hc : V (Proc.devRef .tc main_cst) = constant S_ .f32 0x3E4CCCCD#32) :
    StableHlo.after hostOps1_1 V (Proc.devRef .tc main_v34) = leaky (V (Proc.devRef .tc main_v33)) := by
  after_results_simp
  rw [hc]
  rfl

set_option maxHeartbeats 2000000 in
theorem s2_keep (V : Valuation τ sig (Elt F)) :
    StableHlo.after hostOps1_1 V (Proc.devRef .tc main_v16) = V (Proc.devRef .tc main_v16)
    ∧ StableHlo.after hostOps1_1 V (Proc.devRef .tc main_v18) = V (Proc.devRef .tc main_v18)
    ∧ StableHlo.after hostOps1_1 V (Proc.devRef .tc main_v12_0) = V (Proc.devRef .tc main_v12_0)
    ∧ StableHlo.after hostOps1_1 V (Proc.devRef .tc main_v12_1) = V (Proc.devRef .tc main_v12_1) := by
  refine ⟨?_, ?_, ?_, ?_⟩ <;> after_results_simp

/-! ## The third stretch: the attention weights, the messages and their sums -/

set_option maxHeartbeats 4000000 in
theorem s3_agg (V : Valuation τ sig (Elt F)) :
    StableHlo.after hostOps1_2 V (Proc.devRef .tc main_v66)
      = aggFlat (V (Proc.devRef .tc main_v12_0))
          (normalise (expShift (V (Proc.devRef .tc main_v34))) (V (Proc.devRef .tc main_v18)))
          (V (Proc.devRef .tc main_v16)) (V (Proc.devRef .tc main_v18)) := by
  after_results_simp
  rfl

set_option maxHeartbeats 2000000 in
theorem s3_skip (V : Valuation τ sig (Elt F)) :
    StableHlo.after hostOps1_2 V (Proc.devRef .tc main_v12_1) = V (Proc.devRef .tc main_v12_1) := by
  after_results_simp

/-! ## The three together -/

/-- The aggregated messages after the three stretches, from ANY contents `V` before them. -/
theorem agg_after (V : Valuation τ sig (Elt F)) :
    StableHlo.after hostOps1_2 (StableHlo.after hostOps1_1 (StableHlo.after hostOps1 V)) (Proc.devRef .tc main_v66)
      = aggFlat (V (Proc.devRef .tc main_v12_0))
          (att (sliceLo (V (Proc.devRef .tc main_v12_2))) (sliceHi (V (Proc.devRef .tc main_v12_2)))
            (row0 (V (Proc.devRef .tc main_arg1))) (row1 (V (Proc.devRef .tc main_arg1))))
          (row0 (V (Proc.devRef .tc main_arg1))) (row1 (V (Proc.devRef .tc main_arg1))) := by
  rw [s3_agg, s2_leaky _ (s1_slope V), (s2_keep _).1, (s2_keep _).2.1, (s2_keep _).2.2.1, s1_score, s1_src, s1_tgt, s1_p]
  rfl

/-- The skip array is not written by the three stretches. -/
theorem skip_after (V : Valuation τ sig (Elt F)) :
    StableHlo.after hostOps1_2 (StableHlo.after hostOps1_1 (StableHlo.after hostOps1 V)) (Proc.devRef .tc main_v12_1)
      = V (Proc.devRef .tc main_v12_1) := by
  rw [s3_skip, (s2_keep _).2.2.2, s1_skip]

end Cert.KernelIdeal.Between

end
-- ==== Proof.KernelRead.lean ====
/-
  The host stages between the two kernels read at an entry, at the exact values.

  * The aggregated messages, features kept flat, at `(n, k)` with `k = 16 h + f`: the zero word plus the sum, over the
    edges whose target word reads `n`, of `p (clamped source row, k) · att (e, h)`.
  * The two halves of the `[N, 16]` score array: column `h` of the low half is column `h`, of the high half column
    `8 + h`.
-/
import proofs.«148892_j57080115364429_2_alg».proof.Proof.Chain
import proofs.«148892_j57080115364429_2_alg».proof.Proof.LibHeadMessages
import Idealize.ShloMosaic.Lib.ValueLayout
import Idealize.ShloMosaic.Lib.IdealHost

noncomputable section

open scoped BigOperators

namespace Cert.KernelIdeal.KernelRead

open Idealize.ShloMosaic Idealize.ShloMosaic.ValueIdx Cert.KernelIdeal Cert.KernelIdeal.Facts₀ Cert.KernelIdeal.Chain
open Cert.Lib.RowOps Cert.Lib.HeadMessages

/-- The aggregated messages at `(n, k)`, `k = 16 h + f`. -/
theorem aggFlat_apply (p : FVec Ideal S100000x128 .f32) (a : FVec Ideal S1600000x8 .f32) (src tgt : IVec S1600000 32)
    (n : Fin 100000) (h : Fin 8) (f : Fin 16) (k : Fin 128) (hk : k.val = h.val * 16 + f.val) :
    aggFlat (F := Ideal) p a src tgt (ix2 n k)
      = Ideal.ofBits .f32 0x00000000#32
        + ∑ e ∈ Finset.univ.filter (fun e : Fin 1600000 => ((rawCol (F := Ideal) tgt) (ix2 e 0)).toInt = (n.val : Int)),
            p (ix2 (clampRow (by norm_num : 0 < 100000) (wrapCol (F := Ideal) src) e) k) * a (ix2 e h) := by
  unfold aggFlat
  refine (flat_messages_apply (by norm_num : 0 < 100000) (by norm_num : 128 = 8 * 16)
    scatter_S100000x128_S1600000x1_S1600000x128_1_0_0_1 scatter_S100000x128_S1600000x1_S1600000x128_1_0_0_1_wf rfl
    gather_S100000x128_S1600000x1_S1600000x128_1_0_n_n_0_1_1128 gather_S100000x128_S1600000x1_S1600000x128_1_0_n_n_0_1_1128_wf rfl
    shapeCasts_S1600000x128_S1600000x8x16 shapeCasts_S1600000x8x16_S1600000x128
    bcast_S1600000x8_S1600000x8x1_0_1 bcast_S1600000x8x1_S1600000x8x16_0_1_2 _ p a _ _ n h f k hk).trans ?_
  refine congrArg₂ (· + ·) ?_ rfl
  rw [broadcastInDim_scalar_apply]
  rfl

/-- Column `h` of the source scores is column `h` of the score array. -/
theorem sliceLo_apply (sc : FVec Ideal S100000x16 .f32) (n : Fin 100000) (h : Fin 8) :
    sliceLo (F := Ideal) sc (ix2 n h) = sc (ix2 n ⟨h.val, by omega⟩) :=
  slice2_axis1_apply 0 sc slices_S100000x16_S100000x8_0_0 n h ⟨h.val, by omega⟩ (Nat.zero_add _).symm

/-- Column `h` of the target scores is column `8 + h` of the score array. -/
theorem sliceHi_apply (sc : FVec Ideal S100000x16 .f32) (n : Fin 100000) (h : Fin 8) :
    sliceHi (F := Ideal) sc (ix2 n h) = sc (ix2 n ⟨8 + h.val, by omega⟩) :=
  slice2_axis1_apply 8 sc slices_S100000x16_S100000x8_0_8 n h ⟨8 + h.val, by omega⟩ rfl

end Cert.KernelIdeal.KernelRead

end
-- ==== Proof.KernelValue.lean ====
/-
  The kernel program's output entry is the layer's formula.

  Reading the program backwards from its result: the second kernel's output at `(n, k)` is `elu1` of the aggregated
  messages plus the skip array there; the aggregated messages are the host's `aggFlat` of the first kernel's
  projected features and of the attention weights of its two score halves; the first kernel's outputs are
  `x · w_proj`, `x · w_skip` and `(x · w_proj) · A`, where `A`'s column `h` (resp. `8 + h`) holds the source (resp.
  target) attention vector of head `h` on the 16 rows of that head and zero elsewhere — so a score is the sum over its
  head's 16 features only, which is the layer's `scoreArr`.
-/
import proofs.«148892_j57080115364429_2_alg».proof.Proof.Region0
import proofs.«148892_j57080115364429_2_alg».proof.Proof.Region1
import proofs.«148892_j57080115364429_2_alg».proof.Proof.RunValue
import proofs.«148892_j57080115364429_2_alg».proof.Proof.Entry0
import proofs.«148892_j57080115364429_2_alg».proof.Proof.ScoreAlgebra
import proofs.«148892_j57080115364429_2_alg».proof.Proof.Between
import proofs.«148892_j57080115364429_2_alg».proof.Proof.KernelRead
import proofs.«148892_j57080115364429_2_alg».proof.Proof.GatSpec

noncomputable section

open scoped BigOperators

namespace Cert.KernelIdeal.KernelValue

open Idealize.ShloMosaic Idealize.ShloMosaic.TcCoe Idealize.SL.Sem Idealize.ShloMosaic.ValueIdx
open Cert.KernelIdeal Cert.KernelIdeal.Gen Cert.KernelIdeal.Chain Cert.KernelIdeal.KernelRead Cert.GatSpec Cert.Lib.RowOps

variable (m : (ℓ : Loc nD τ sig) → Buf (Elt Ideal) ℓ) (ρ : Dev nD → PrngReg) (c : Dev nD)

/-! ## What the first kernel leaves -/

/-- The projected features. -/
theorem p_entry (n : Fin 100000) (l : Fin 128) :
    (W5 (F := Ideal) m ρ c (Proc.devRef .tc main_v12_0) : S100000x128.Idx → EReal) (ix2 n l)
      = proj (m ((c : Thread nD τ).loc main_arg0)) (m ((c : Thread nD τ).loc main_arg2)) n l := by
  refine (congrFun (W5_arr m ρ c 4) (ix2 n l)).trans ?_
  refine (Region0.final_p (V4 m ρ) c n l).trans ?_
  rw [show V4 m ρ c main_arg0 = m ((c : Thread nD τ).loc main_arg0) from Entry0.W4_arg0 m ρ c,
    show V4 m ρ c main_arg2 = m ((c : Thread nD τ).loc main_arg2) from Entry0.W4_arg2 m ρ c]
  rfl

/-- The skip projection. -/
theorem skip_entry (n : Fin 100000) (l : Fin 128) :
    (W5 (F := Ideal) m ρ c (Proc.devRef .tc main_v12_1) : S100000x128.Idx → EReal) (ix2 n l)
      = proj (m ((c : Thread nD τ).loc main_arg0)) (m ((c : Thread nD τ).loc main_arg3)) n l := by
  refine (congrFun (W5_arr m ρ c 5) (ix2 n l)).trans ?_
  refine (Region0.final_skip (V4 m ρ) c n l).trans ?_
  rw [show V4 m ρ c main_arg0 = m ((c : Thread nD τ).loc main_arg0) from Entry0.W4_arg0 m ρ c,
    show V4 m ρ c main_arg3 = m ((c : Thread nD τ).loc main_arg3) from Entry0.W4_arg3 m ρ c]
  rfl

/-- The `[N, 16]` score array: the projected row against column `j` of the expanded attention matrix. -/
theorem scores_entry (n : Fin 100000) (j : Fin 16) :
    (W5 (F := Ideal) m ρ c (Proc.devRef .tc main_v12_2) : S100000x16.Idx → EReal) (ix2 n j)
      = ∑ l : Fin 128, proj (m ((c : Thread nD τ).loc main_arg0)) (m ((c : Thread nD τ).loc main_arg2)) n l
          * ((if l.val / 16 = j.val % 8 then (1 : EReal) else 0)
              * (if j.val < 8 then (m ((c : Thread nD τ).loc main_arg4) : S1x8x16.Idx → EReal)
                  else (m ((c : Thread nD τ).loc main_arg5) : S1x8x16.Idx → EReal))
                (ix3 0 ⟨l.val / 16, by omega⟩ ⟨l.val % 16, by omega⟩)) := by
  show @Eq EReal _ _
  refine (congrFun (W5_arr m ρ c 6) (ix2 n j)).trans ?_
  refine (Region0.final_scores (V4 m ρ) c n j).trans ?_
  rw [show V4 m ρ c main_arg0 = m ((c : Thread nD τ).loc main_arg0) from Entry0.W4_arg0 m ρ c,
    show V4 m ρ c main_arg2 = m ((c : Thread nD τ).loc main_arg2) from Entry0.W4_arg2 m ρ c, Region0.scores_apply]
  show @Eq EReal _ _
  refine Finset.sum_congr rfl fun l _ => ?_
  refine congrArg₂ (· * ·) rfl ?_
  exact Entry0.aexp_apply m ρ c l j

/-- Columns 0–7 of the score array are the layer's source scores. -/
theorem scores_lo :
    sliceLo (F := Ideal) (W5 (F := Ideal) m ρ c (Proc.devRef .tc main_v12_2))
      = scoreArr (m ((c : Thread nD τ).loc main_arg0)) (m ((c : Thread nD τ).loc main_arg2)) (m ((c : Thread nD τ).loc main_arg4)) := by
  funext i
  obtain ⟨n, h, rfl⟩ : ∃ (n : Fin 100000) (h : Fin 8), i = ix2 n h := ⟨i 0, i 1, eq_ix2 i⟩
  rw [sliceLo_apply, scores_entry, scoreArr_apply]
  have hh := h.isLt
  simp only [show h.val % 8 = h.val from Nat.mod_eq_of_lt hh, if_pos hh]
  exact Cert.ScoreAlgebra.score_sum
    (fun l => proj (m ((c : Thread nD τ).loc main_arg0)) (m ((c : Thread nD τ).loc main_arg2)) n l)
    (fun a b => (m ((c : Thread nD τ).loc main_arg4) : S1x8x16.Idx → EReal) (ix3 0 a b)) h

/-- Columns 8–15 are the layer's target scores. -/
theorem scores_hi :
    sliceHi (F := Ideal) (W5 (F := Ideal) m ρ c (Proc.devRef .tc main_v12_2))
      = scoreArr (m ((c : Thread nD τ).loc main_arg0)) (m ((c : Thread nD τ).loc main_arg2)) (m ((c : Thread nD τ).loc main_arg5)) := by
  funext i
  obtain ⟨n, h, rfl⟩ : ∃ (n : Fin 100000) (h : Fin 8), i = ix2 n h := ⟨i 0, i 1, eq_ix2 i⟩
  rw [sliceHi_apply, scores_entry, scoreArr_apply]
  have hh := h.isLt
  simp only [show (8 + h.val) % 8 = h.val from by omega, if_neg (show ¬ (8 + h.val < 8) from by omega)]
  exact Cert.ScoreAlgebra.score_sum
    (fun l => proj (m ((c : Thread nD τ).loc main_arg0)) (m ((c : Thread nD τ).loc main_arg2)) n l)
    (fun a b => (m ((c : Thread nD τ).loc main_arg5) : S1x8x16.Idx → EReal) (ix3 0 a b)) h

/-- The edge list is as launched when the first kernel has run. -/
theorem edges_entry : W5 (F := Ideal) m ρ c (Proc.devRef .tc main_arg1) = m ((c : Thread nD τ).loc main_arg1) :=
  (W5_of_ne m ρ c main_arg1 (by decide)).trans (Entry0.W4_arg1 m ρ c)

/-! ## The program's result -/

/-- Entry `(n, k)`, `k = 16 h + f`, of the kernel program's result is the layer's formula. -/
theorem kernel_out (n : Fin 100000) (h : Fin 8) (f : Fin 16) (k : Fin 128) (hk : k.val = h.val * 16 + f.val) :
    (W9 (F := Ideal) m ρ c (Proc.devRef .tc main_v67) : S100000x128.Idx → EReal) (ix2 n k)
      = outAt (m ((c : Thread nD τ).loc main_arg0)) (m ((c : Thread nD τ).loc main_arg2)) (m ((c : Thread nD τ).loc main_arg3))
          (Ideal.ofBits .f32 0x00000000#32)
          (att (F := Ideal)
            (scoreArr (m ((c : Thread nD τ).loc main_arg0)) (m ((c : Thread nD τ).loc main_arg2)) (m ((c : Thread nD τ).loc main_arg4)))
            (scoreArr (m ((c : Thread nD τ).loc main_arg0)) (m ((c : Thread nD τ).loc main_arg2)) (m ((c : Thread nD τ).loc main_arg5)))
            (row0 (m ((c : Thread nD τ).loc main_arg1))) (row1 (m ((c : Thread nD τ).loc main_arg1))))
          (wrapCol (F := Ideal) (row0 (m ((c : Thread nD τ).loc main_arg1))))
          (rawCol (F := Ideal) (row1 (m ((c : Thread nD τ).loc main_arg1)))) n h k := by
  refine (congrFun (RunValue.W9_out m ρ c) (ix2 n k)).trans ?_
  refine (Region1.final_out (V8 m ρ) c n k).trans ?_
  have hagg : V8 m ρ c main_v66 = aggFlat (F := Ideal) (W5 m ρ c (Proc.devRef .tc main_v12_0))
      (att (sliceLo (W5 m ρ c (Proc.devRef .tc main_v12_2))) (sliceHi (W5 m ρ c (Proc.devRef .tc main_v12_2)))
        (row0 (W5 m ρ c (Proc.devRef .tc main_arg1))) (row1 (W5 m ρ c (Proc.devRef .tc main_arg1))))
      (row0 (W5 m ρ c (Proc.devRef .tc main_arg1))) (row1 (W5 m ρ c (Proc.devRef .tc main_arg1))) :=
    Between.agg_after (W5 m ρ c)
  have hskip : V8 m ρ c main_v12_1 = W5 m ρ c (Proc.devRef .tc main_v12_1) := Between.skip_after (W5 m ρ c)
  rw [hagg, hskip, aggFlat_apply _ _ _ _ n h f k hk, skip_entry, scores_lo, scores_hi, edges_entry]
  unfold outAt
  refine congrArg Cert.EluSpec.elu1 (congrArg₂ (· + ·) (congrArg₂ (· + ·) rfl (Finset.sum_congr rfl fun e _ => ?_)) rfl)
  rw [p_entry]

end Cert.KernelIdeal.KernelValue

end
-- ==== Proof.Bridge.lean ====
/-
  The two programs compute one function.

  The kernel's program and the reference both come down to `GatSpec.outAt` at every entry `(n, k)`: the same
  projections, the same score arrays, and — as the same host operations applied to those score arrays and to the same
  edge list — the same attention weights, source rows and target words. The two programs name their dimension records
  and shape facts separately; the records have the same fields, so the stages built from them are the same functions.
-/
import proofs.«148892_j57080115364429_2_alg».proof.Proof.RefValue
import proofs.«148892_j57080115364429_2_alg».proof.Proof.KernelValue
import proofs.«148892_j57080115364429_2_alg».proof.Proof.RefRun

noncomputable section

namespace Cert.Proof.Bridge

open Idealize.ShloMosaic Idealize.ShloMosaic.TcCoe Idealize.SL.Sem Idealize.ShloMosaic.ValueIdx

/-- The attention weights are one function in both programs. -/
theorem att_eq (ssrc stgt : (⟨2, ![100000, 8]⟩ : Shape).Idx → EReal) (src tgt : IVec ⟨1, ![1600000]⟩ 32) :
    Cert.ReferenceIdeal.RefChain.att (F := Ideal) ssrc stgt src tgt = Cert.KernelIdeal.Chain.att (F := Ideal) ssrc stgt src tgt := rfl

/-- So are the edge list's rows and the two index columns made of them. -/
theorem row0_eq (ei : IVec ⟨2, ![2, 1600000]⟩ 32) :
    Cert.ReferenceIdeal.RefChain.row0 (F := Ideal) ei = Cert.KernelIdeal.Chain.row0 (F := Ideal) ei := rfl
theorem row1_eq (ei : IVec ⟨2, ![2, 1600000]⟩ 32) :
    Cert.ReferenceIdeal.RefChain.row1 (F := Ideal) ei = Cert.KernelIdeal.Chain.row1 (F := Ideal) ei := rfl
theorem wrapCol_eq (i : IVec ⟨1, ![1600000]⟩ 32) :
    Cert.ReferenceIdeal.RefChain.wrapCol (F := Ideal) i = Cert.KernelIdeal.Chain.wrapCol (F := Ideal) i := rfl
theorem rawCol_eq (i : IVec ⟨1, ![1600000]⟩ 32) :
    Cert.ReferenceIdeal.RefChain.rawCol (F := Ideal) i = Cert.KernelIdeal.Chain.rawCol (F := Ideal) i := rfl

/-- The reference's result, as its run states it, is its ELU of the array `RefChain.preElu`. -/
theorem result_eq (a0 : FVec Ideal ⟨2, ![100000, 128]⟩ .f32) (a1 : IVec ⟨2, ![2, 1600000]⟩ 32) (a2 a3 : FVec Ideal ⟨2, ![128, 128]⟩ .f32)
    (a4 a5 : FVec Ideal ⟨3, ![1, 8, 16]⟩ .f32) :
    Cert.ReferenceIdeal.RefRun.result (F := Ideal) a0 a1 a2 a3 a4 a5
      = Cert.ReferenceIdeal.RefElu.elu (F := Ideal) (Cert.ReferenceIdeal.RefChain.preElu (F := Ideal) a0 a1 a2 a3 a4 a5) := rfl

open Cert.KernelIdeal in
/-- THE TWO RESULTS ARE EQUAL: from one launch memory, the reference's result array is the array the kernel's
    program leaves in its result buffer. -/
theorem results_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.RefRun.result (F := Ideal)
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      = Gen.W9 (F := Ideal) m ρ c (Proc.devRef .tc main_v67) := by
  funext i
  obtain ⟨n, k, rfl⟩ : ∃ (n : Fin 100000) (k : Fin 128), i = ix2 n k := ⟨i 0, i 1, eq_ix2 i⟩
  have hk : k.val = (⟨k.val / 16, by omega⟩ : Fin 8).val * 16 + (⟨k.val % 16, by omega⟩ : Fin 16).val := by
    show k.val = k.val / 16 * 16 + k.val % 16
    omega
  rw [result_eq]
  refine (Cert.ReferenceIdeal.RefValue.ref_out _ _ _ _ _ _ n ⟨k.val / 16, by omega⟩ ⟨k.val % 16, by omega⟩ k hk).trans ?_
  refine Eq.trans ?_ (Cert.KernelIdeal.KernelValue.kernel_out m ρ c n ⟨k.val / 16, by omega⟩ ⟨k.val % 16, by omega⟩ k hk).symm
  rw [att_eq, row0_eq, row1_eq, wrapCol_eq, rawCol_eq]

end Cert.Proof.Bridge

end
-- ==== Proof.lean ====
/-
  A graph-attention layer: the kernel's program against its reference, at the exact values.

  THE LAYER. `x : [N, 128]` node features (`N = 100000`), an edge list of `E = 1600000` (source, target) index words,
  weights `w_proj, w_skip : [128, 128]`, attention vectors `a_src, a_tgt : [1, 8, 16]` (8 heads of 16 features; head
  `h` owns the columns `16 h + f`). With `p = x · w_proj`: a node's score for head `h` is
  `∑ f, p (n, 16 h + f) · a (0, h, f)`; an edge's score is `leaky_relu (s_src (src e, h) + s_tgt (tgt e, h))`, its
  exponential is shifted by the maximum over all edges and heads, its attention weight is that exponential divided by
  (the sum of the exponentials over the edges with the same target, plus a small constant); the message
  `p (src e, ·)` with head `h` scaled by the edge's weight for `h` is added onto node `tgt e`; the output is
  `elu (aggregate + x · w_skip)`.

  THE TWO PROGRAMS. The reference keeps `p` as `[N, 8, 16]`, takes the scores by a sum over the last axis, gathers and
  scatters `[8, 16]` slabs, and ends with the guarded ELU `select (z > 0) z (1 · expm1 (select (z > 0) 0 z))`. The
  kernel's program computes `p`, `x · w_skip` and the scores in a first kernel over 25 blocks of 4000 rows — the scores as
  ONE product of `p` with a `[128, 16]` matrix whose column `h` (resp. `8 + h`) holds `a_src` (resp. `a_tgt`) of head
  `h` on that head's 16 rows and zero elsewhere —, runs the edge stage on the host with the features kept flat
  (`[E, 128]`, re-laid as `[E, 8, 16]` only to scale by the weights), and finishes in a second kernel over 20 blocks of
  5000 rows with `select (z > 0) z (exp z − 1)`.

  WHY THEY AGREE at the exact values (extended reals, exact operations, format changes the identity):
  * a product into a zero accumulator and a host `dot_general` are the same sum of products;
  * the zero entries of the expanded attention matrix kill the terms outside a head (`0 · y = 0` and `y · 0 = 0` for every
    extended real), so the one product is the per-head sum — no finiteness is needed, and the precondition is never used;
  * the edge stage from the score arrays to the attention weights is the same operations on both sides: it is never
    opened;
  * re-laying `[·, 128]` as `[·, 8, 16]` sends column `16 h + f` to `(h, f)`, and a row gather / accumulating row scatter
    passes the column through, as a slab gather / scatter passes `(h, f)` through, choosing the same rows from the same
    index words (sources clamped into range, out-of-range targets dropped);
  * `expm1 z = exp z − 1` at every extended real and `1 · y = y`, so the two ELUs are one function.

  Every output entry of both programs is `GatSpec.outAt`. The three frames: the kernel's two (as printed and idealized)
  are its generated frame; the reference's is its run with the result forgotten. `preserves` has no entry.
-/
import proofs.«148892_j57080115364429_2_alg».proof.Defs
import proofs.«148892_j57080115364429_2_alg».proof.Proof.Gen.Kernel
import proofs.«148892_j57080115364429_2_alg».proof.Proof.Gen.Kernel.Frame
import proofs.«148892_j57080115364429_2_alg».proof.Proof.Gen.KernelIdeal
import proofs.«148892_j57080115364429_2_alg».proof.Proof.Gen.KernelIdeal.Frame
import proofs.«148892_j57080115364429_2_alg».proof.Proof.Gen.ReferenceIdeal
import proofs.«148892_j57080115364429_2_alg».proof.Proof.Gen.Pre_finite_inputs
import proofs.«148892_j57080115364429_2_alg».proof.Proof.RunValue
import proofs.«148892_j57080115364429_2_alg».proof.Proof.RefRun
import proofs.«148892_j57080115364429_2_alg».proof.Proof.Bridge

noncomputable section

namespace Cert.Proof

open Idealize.ShloMosaic Idealize.ShloMosaic.TcCoe Idealize.SL.Sem

/-- The kernel's program as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments alone: its run with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- From memories agreeing on the arguments both programs run, and the reference's result array is the array the
    kernel's program leaves in its result buffer: entry by entry both are the layer's formula. -/
theorem algebraic : Cert.algebraic_KernelIdeal_ReferenceIdeal := by
  intro m ρ m' ρ' _ hagree
  refine ⟨fun c => Cert.KernelIdeal.Gen.W9 (F := Ideal) m ρ c (Proc.devRef .tc Cert.KernelIdeal.main_v67),
    Cert.KernelIdeal.RunValue.run (F := Ideal) m ρ, ?_⟩
  refine (θ_run Cert.ReferenceIdeal.defs _ _).mono (fun r h c => ⟨(h c).1.trans ?_, (h c).2⟩)
    (Cert.ReferenceIdeal.RefRun.run (F := Ideal) m' ρ')
  obtain ⟨e0, e1, e2, e3, e4, e5⟩ := hagree c
  rw [e0, e1, e2, e3, e4, e5]
  exact Cert.Proof.Bridge.results_eq m ρ c

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
